-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S64x1 .f32) (main_arg14 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S64x1 .f32) (main_arg10 : FVec F S1 .f32) (main_arg11 : FVec F S64x1 .f32) (main_arg12 : FVec F S1 .f32) (main_arg13 : FVec F S64x1 .f32) (main_arg14 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_arg11 : FVec F S64x1 .f32) (main_arg12 : FVec F S1 .f32) (main_arg13 : FVec F S64x1 .f32) (main_arg14 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S1000000 32) (main_arg2 : IVec S1000000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) (main_arg11 : FVec F S64x1 .f32) (main_arg12 : FVec F S1 .f32) (main_arg13 : FVec F S64x1 .f32) (main_arg14 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S10000x64 : Shape := ⟨2, ![10000, 64]⟩
abbrev S1x1 : Shape := ⟨2, ![1, 1]⟩
abbrev S100000x1 : Shape := ⟨2, ![100000, 1]⟩
abbrev S10000x1 : Shape := ⟨2, ![10000, 1]⟩
abbrev S100001x1 : Shape := ⟨2, ![100001, 1]⟩

abbrev nBuf : Space → Nat
  | .hbm => 70
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S64x1, .f32⟩
  | .hbm, ⟨12, _⟩ => ⟨S1, .f32⟩
  | .hbm, ⟨13, _⟩ => ⟨S64x1, .f32⟩
  | .hbm, ⟨14, _⟩ => ⟨S1, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S_, .f32⟩
  | .hbm, ⟨55, _⟩ => ⟨S100000x64, .f32⟩
  | .hbm, ⟨56, _⟩ => ⟨S1000000x1, .i32⟩
  | .hbm, ⟨57, _⟩ => ⟨S100000x64, .f32⟩
  | .hbm, ⟨58, _⟩ => ⟨S1x64, .f32⟩
  | .hbm, ⟨59, _⟩ => ⟨S1x1, .f32⟩
  | .hbm, ⟨60, _⟩ => ⟨S100000x64, .f32⟩
  | .hbm, ⟨61, _⟩ => ⟨S100000x1, .f32⟩
  | .hbm, ⟨62, _⟩ => ⟨S1x64, .f32⟩
  | .hbm, ⟨63, _⟩ => ⟨S1x1, .f32⟩
  | .hbm, ⟨64, _⟩ => ⟨S1x1, .f32⟩
  | .hbm, ⟨65, _⟩ => ⟨S1x1, .f32⟩
  | .hbm, ⟨66, _⟩ => ⟨S1x1, .f32⟩
  | .hbm, ⟨67, _⟩ => ⟨S1x1, .f32⟩
  | .hbm, ⟨68, _⟩ => ⟨S1x1, .f32⟩
  | .hbm, ⟨69, _⟩ => ⟨S100001x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S64x1, .f32⟩
  | .local _ .vmem, ⟨17, _⟩ => ⟨S1x1, .f32⟩
  | .local _ .vmem, ⟨18, _⟩ => ⟨S10000x64, .f32⟩
  | .local _ .vmem, ⟨19, _⟩ => ⟨S10000x64, .f32⟩
  | .local _ .vmem, ⟨20, _⟩ => ⟨S10000x1, .f32⟩
  | .local _ .vmem, ⟨21, _⟩ => ⟨S10000x1, .f32⟩
  | .local _ .vmem, ⟨22, _⟩ => ⟨S10000x64, .f32⟩
  | .local _ .vmem, ⟨23, _⟩ => ⟨S10000x64, .f32⟩
  | .local _ .vmem, ⟨24, _⟩ => ⟨S1x64, .f32⟩
  | .local _ .vmem, ⟨25, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36_0 : Ref sig .tc := ⟨.hbm, 60, rfl⟩
abbrev main_v36_1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S10000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  reduces_S10000x64_S64 : S10000x64.Reduces [0] S64
  bcast_S1_S1x1_1 : S1.BroadcastsInDim S1x1 (![1] : Fin 1 → Fin S1x1.rank)
  concatenates_S100000x1_S1x1_S100001x1_d0 : Shape.Concatenates [S100000x1, S1x1] S100001x1 0
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x1.size a ≤ S100000x1.size a
  hwx2_6 : ∀ i : grid2.Coords, EltTy.bits .f32 = 32 ∨ (Rect.block (s := S100000x1) S10000x1.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_v9) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36_1) S10000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v36_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S1x64.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S1x1 : Shape := ⟨2, ![1, 1]⟩
abbrev S100000x1 : Shape := ⟨2, ![100000, 1]⟩
abbrev S100001x1 : Shape := ⟨2, ![100001, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S64x1, .f32⟩
  | .hbm, ⟨12, _⟩ => ⟨S1, .f32⟩
  | .hbm, ⟨13, _⟩ => ⟨S64x1, .f32⟩
  | .hbm, ⟨14, _⟩ => ⟨S1, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x64, .f32⟩
  | .hbm, ⟨64, _⟩ => ⟨S_, .f32⟩
  | .hbm, ⟨65, _⟩ => ⟨S100000x64, .f32⟩
  | .hbm, ⟨66, _⟩ => ⟨S1000000x1, .i32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S64, .f32⟩
  | .hbm, ⟨77, _⟩ => ⟨S1x64, .f32⟩
  | .hbm, ⟨78, _⟩ => ⟨S_, .f32⟩
  | .hbm, ⟨79, _⟩ => ⟨S1x64, .f32⟩
  | .hbm, ⟨80, _⟩ => ⟨S1x64, .f32⟩
  | .hbm, ⟨81, _⟩ => ⟨S1x1, .f32⟩
  | .hbm, ⟨82, _⟩ => ⟨S1x1, .f32⟩
  | .hbm, ⟨83, _⟩ => ⟨S1x1, .f32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S1x1, .f32⟩
  | .hbm, ⟨89, _⟩ => ⟨S1x1, .f32⟩
  | .hbm, ⟨90, _⟩ => ⟨S1x1, .f32⟩
  | .hbm, ⟨91, _⟩ => ⟨S100001x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call0_cst : Ref sig .tc := ⟨.hbm, 32, rfl⟩
abbrev main_call0_v0 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_cst : Ref sig .tc := ⟨.hbm, 52, rfl⟩
abbrev main_call1_v0 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call2_cst : Ref sig .tc := ⟨.hbm, 72, rfl⟩
abbrev main_call2_v0 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  concatenates_S100000x1_S1x1_S100001x1_d0 : Shape.Concatenates [S100000x1, S1x1] S100001x1 0
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S1x64_S64x1_S1x1_1_0_0_1_n_n_wf : DotDims.WF S1x64 S64x1 S1x1 [1] [0] [0] [1] [] []
  dot_S100000x64_S64x1_S100000x1_1_0_0_1_n_n_wf : DotDims.WF S100000x64 S64x1 S100000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.WordLayer1.lean ====
/-
  The first layer's dense step as a region of the program, at any contents `V` the region is entered from.

  The region walks the 100000 rows in ten blocks of 10000. At block t it is handed rows 10000·t … 10000·t + 9999 of
  the summed neighbour rows (`iblk0 V c 0 t`), the whole 64×64 weight matrix and the 1×64 bias row (fetched once, at
  the first block, and found in place afterwards), and it leaves in the output's buffer one value: the block times the
  weights, plus the bias row on every row, the negative entries replaced by zero (`out0_3`, the body's one store over
  the body's three loads). Nothing is carried from one block to the next, so between blocks the region holds only the
  kernel's scratch at some contents and the generator register at some state.

  Here: the blocks, the body's run, the proof data of the pipeline library and its body obligation, for every float
  interpretation at once.
-/
import proofs.«177146_j56882546868897_1_alg».proof.Proof.Gen.Kernel.Launch
import proofs.«177146_j56882546868897_1_alg».proof.Proof.Gen.Kernel.Skeleton
import proofs.«177146_j56882546868897_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (a window not fetched
    has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev rows0 : Rect S10000x64 := Rect.unit (s := S10000x64) ![0, 0] S10000x64.size inb_S10000x64_S10000x64_0_0
abbrev weights0 : Rect S64x64 := Rect.unit (s := S64x64) ![0, 0] S64x64.size inb_S64x64_S64x64_0_0
abbrev biasRow0 : Rect S1x64 := Rect.unit (s := S1x64) ![0, 0] S1x64.size inb_S1x64_S1x64_0_0

/-- The output's buffer after the body: its one store, of the body's value of the three loads. -/
def out0_3 (x0 : Vec F S10000x64 .f32) (x1 : Vec F S64x64 .f32) (x2 : Vec F S1x64 .f32) : Vec F S10000x64 .f32 :=
  View.canon [⟨rows0, k0_pay1 (View.ld x0 rows0) (View.ld x1 weights0) (View.ld x2 biasRow0)⟩]

/-- The one store covers the buffer. -/
theorem cover0_3 (p0 : Vec F S10000x64 .f32) (y : S10000x64.Idx) :
    ∃ pc ∈ ([⟨rows0, p0⟩] : List (View.Piece (Elt F) S10000x64 .f32)), y ∈ pc.1.set :=
  View.cover_of_tiled [⟨rows0, p0⟩] S10000x64.size (by rfl) y

/-! ## The body's run -/

set_option maxHeartbeats 1000000 in
/-- On whole buffers, the three inputs' at contents `x0 x1 x2` and the output's at anything, the body runs to its end
    with the inputs' buffers as they were and the output's at `out0_3 x0 x1 x2`. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linrelu_kernel i arg1 harg1 arg2 harg2 arg3 harg3 arg4 harg4) K := by
  simp only [cc0__linrelu_kernel_eq_skeleton]; unfold cc0__linrelu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the
    output's at `out0_3` of the input blocks; between points the scoped rest and the generator register at anything;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordLayer2.lean ====
/-
  The second layer's dense step as a region of the program, at any contents `V` the region is entered from.

  The region walks the 100000 rows in ten blocks of 10000. At block t it is handed rows 10000·t … 10000·t + 9999 of
  the summed neighbour rows (`iblk1 V c 0 t`), the whole 64×64 weight matrix and the 1×64 bias row (fetched once, at
  the first block, and found in place afterwards), and it leaves in the output's buffer one value: the block times the
  weights, plus the bias row on every row, the negative entries replaced by zero (`out1_3`, the body's one store over
  the body's three loads). Nothing is carried from one block to the next, so between blocks the region holds only the
  kernel's scratch at some contents and the generator register at some state.

  Here: the blocks, the body's run, the proof data of the pipeline library and its body obligation, for every float
  interpretation at once.
-/
import proofs.«177146_j56882546868897_1_alg».proof.Proof.Gen.Kernel.Launch
import proofs.«177146_j56882546868897_1_alg».proof.Proof.Gen.Kernel.Skeleton
import proofs.«177146_j56882546868897_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (a window not fetched
    has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves -/

abbrev rows1 : Rect S10000x64 := Rect.unit (s := S10000x64) ![0, 0] S10000x64.size inb_S10000x64_S10000x64_0_0
abbrev weights1 : Rect S64x64 := Rect.unit (s := S64x64) ![0, 0] S64x64.size inb_S64x64_S64x64_0_0
abbrev biasRow1 : Rect S1x64 := Rect.unit (s := S1x64) ![0, 0] S1x64.size inb_S1x64_S1x64_0_0

/-- The output's buffer after the body: its one store, of the body's value of the three loads. -/
def out1_3 (x0 : Vec F S10000x64 .f32) (x1 : Vec F S64x64 .f32) (x2 : Vec F S1x64 .f32) : Vec F S10000x64 .f32 :=
  View.canon [⟨rows1, k1_pay1 (View.ld x0 rows1) (View.ld x1 weights1) (View.ld x2 biasRow1)⟩]

/-- The one store covers the buffer. -/
theorem cover1_3 (p0 : Vec F S10000x64 .f32) (y : S10000x64.Idx) :
    ∃ pc ∈ ([⟨rows1, p0⟩] : List (View.Piece (Elt F) S10000x64 .f32)), y ∈ pc.1.set :=
  View.cover_of_tiled [⟨rows1, p0⟩] S10000x64.size (by rfl) y

/-! ## The body's run -/

set_option maxHeartbeats 1000000 in
/-- On whole buffers, the three inputs' at contents `x0 x1 x2` and the output's at anything, the body runs to its end
    with the inputs' buffers as they were and the output's at `out1_3 x0 x1 x2`. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linrelu_kernel i arg1 harg1 arg2 harg2 arg3 harg3 arg4 harg4) K := by
  simp only [cc1__linrelu_kernel_eq_skeleton]; unfold cc1__linrelu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The arrays as the region finds them; after the body at point `t` each input's buffer at its block and the
    output's at `out1_3` of the input blocks; between points the scoped rest and the generator register at anything;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WordLayer3.lean ====
/-
  The third layer's dense step, together with the score of every node, as a region of the program, at any contents
  `V` the region is entered from.

  The region walks the 100000 rows in ten blocks of 10000. At block t it is handed rows 10000·t … 10000·t + 9999 of
  the summed neighbour rows, the 64×64 weight matrix, the 1×64 bias row, the 64×1 score weights and the 1×1 score bias
  (the last four fetched once and found in place afterwards). It leaves two values: in the first output's buffer the
  block times the weights, plus the bias row on every row, negative entries replaced by zero (`out2_5`); in the second
  output's buffer that 10000×64 value times the score weights, plus the score bias on every row (`out2_6`) — each the
  body's one store into that buffer, over the body's loads. Nothing is carried from one block to the next.

  Here: the blocks, the body's run, the proof data of the pipeline library and its body obligation, for every float
  interpretation at once.
-/
import proofs.«177146_j56882546868897_1_alg».proof.Proof.Gen.Kernel.Launch
import proofs.«177146_j56882546868897_1_alg».proof.Proof.Gen.Kernel.Skeleton
import proofs.«177146_j56882546868897_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (a window not fetched
    has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses and what it leaves -/

abbrev rows2 : Rect S10000x64 := Rect.unit (s := S10000x64) ![0, 0] S10000x64.size inb_S10000x64_S10000x64_0_0
abbrev weights2 : Rect S64x64 := Rect.unit (s := S64x64) ![0, 0] S64x64.size inb_S64x64_S64x64_0_0
abbrev biasRow2 : Rect S1x64 := Rect.unit (s := S1x64) ![0, 0] S1x64.size inb_S1x64_S1x64_0_0
abbrev scoreW2 : Rect S64x1 := Rect.unit (s := S64x1) ![0, 0] S64x1.size inb_S64x1_S64x1_0_0
abbrev scoreB2 : Rect S1x1 := Rect.unit (s := S1x1) ![0, 0] S1x1.size inb_S1x1_S1x1_0_0
abbrev scores2 : Rect S10000x1 := Rect.unit (s := S10000x1) ![0, 0] S10000x1.size inb_S10000x1_S10000x1_0_0

/-- The first output's buffer after the body: its one store, of the layer's value of the first three loads. -/
def out2_5 (x0 : Vec F S10000x64 .f32) (x1 : Vec F S64x64 .f32) (x2 : Vec F S1x64 .f32) : Vec F S10000x64 .f32 :=
  View.canon [⟨rows2, k2_pay1 (View.ld x0 rows2) (View.ld x1 weights2) (View.ld x2 biasRow2)⟩]

/-- The second output's buffer after the body: its one store, of the scores' value of the five loads. -/
def out2_6 (x0 : Vec F S10000x64 .f32) (x1 : Vec F S64x64 .f32) (x2 : Vec F S1x64 .f32) (x3 : Vec F S64x1 .f32) (x4 : Vec F S1x1 .f32) :
    Vec F S10000x1 .f32 :=
  View.canon [⟨scores2, k2_pay2 (View.ld x0 rows2) (View.ld x1 weights2) (View.ld x2 biasRow2) (View.ld x3 scoreW2) (View.ld x4 scoreB2)⟩]

/-- Each one store covers its buffer. -/
theorem cover2_5 (p0 : Vec F S10000x64 .f32) (y : S10000x64.Idx) :
    ∃ pc ∈ ([⟨rows2, p0⟩] : List (View.Piece (Elt F) S10000x64 .f32)), y ∈ pc.1.set :=
  View.cover_of_tiled [⟨rows2, p0⟩] S10000x64.size (by rfl) y
theorem cover2_6 (p0 : Vec F S10000x1 .f32) (y : S10000x1.Idx) :
    ∃ pc ∈ ([⟨scores2, p0⟩] : List (View.Piece (Elt F) S10000x1 .f32)), y ∈ pc.1.set :=
  View.cover_of_tiled [⟨scores2, p0⟩] S10000x1.size (by rfl) y

/-! ## The body's run -/

set_option maxHeartbeats 1000000 in
/-- On whole buffers, the five inputs' at contents `x0 … x4` and the outputs' at anything, the body runs to its end
    with the inputs' buffers as they were and the outputs' at `out2_5 x0 x1 x2` and `out2_6 x0 x1 x2 x3 x4`. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S10000x64 .f32) (harg6 : arg6.IsWhole) (arg7 : Memref sig .tc .vmem S10000x1 .f32) (harg7 : arg7.IsWhole)
    (x0 : Vec F S10000x64 .f32) (x1 : Vec F S64x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2) ∗ owns (c : Thread nD τ) arg7 fullShare (out2_6 x0 x1 x2 x3 x4)) -∗ K ⟨⟩))
      ⊢ wp frame (wpE (defs₀ (F := F)) Variants.none c none) E (cc2__layer3_head_kernel i arg1 harg1 arg2 harg2 arg3 harg3 arg4 harg4 arg5 harg5 arg6 harg6 arg7 harg7) K := by
  simp only [cc2__layer3_head_kernel_eq_skeleton]; unfold cc2__layer3_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The arrays as the region finds them; after the body at point `t` each input's buffer at its block and the
    outputs' at `out2_5`, `out2_6` of the input blocks; between points the scoped rest and the generator register at
    anything; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the run applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.WordMean.lean ====
/-
  The mean over the nodes as a region of the program, at any contents `V` the region is entered from.

  The region walks the 100000 rows in ten blocks of 10000 and keeps a 1×64 running row in a scratch buffer of its own.
  At the first block it sets the running row to zero; at every block it adds to it the block's column sums; at the
  last block it also stores the running row times a constant into the output's buffer, which the pipeline writes back
  only then (at the other blocks the output's buffer is handed back untouched). So the body has three cases — the
  first block, a middle block, the last block — and what the scratch holds after block n is the case's value of the
  block and, from the second block on, of what it held after block n − 1 (`outsAt3`).

  Between blocks the region therefore holds more than a region that carries nothing: before the first block the
  kernel's scoped buffers at anything and the generator register at some state; after block n the scratch at
  `outsAt3`'s contents, every other scoped buffer at anything, and the register (`PhiS3`).

  Here: the blocks, the three runs, the proof data of the pipeline library and its body obligation, and that the
  invariant starts from and returns to the plain one — for every float interpretation at once.
-/
import proofs.«177146_j56882546868897_1_alg».proof.Proof.Gen.Kernel.Launch
import proofs.«177146_j56882546868897_1_alg».proof.Proof.Gen.Kernel.Skeleton
import proofs.«177146_j56882546868897_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current buffer holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, over the grid -/

/-- "This is the first block", as the body computes it from the grid coordinate. -/
abbrev atFirst (i : grid3.Coords) : Prop := (Scalar.cmpi .ne (Scalar.extui (Scalar.cmpi .eq (BitVec.ofNat 32 (i 0).val) 0#32)) 0#32) = 1#1
theorem atFirst_iff : ∀ t : Fin cfg3.N, atFirst (grid3.coords t) ↔ t.val = 0 :=
  (by decide +kernel : ∀ t : Fin grid3.N, atFirst (grid3.coords t) ↔ t.val = 0)

/-- "This is the last block". -/
abbrev atLast (i : grid3.Coords) : Prop := k3_cond2 i = 1#1
theorem atLast_iff : ∀ t : Fin cfg3.N, atLast (grid3.coords t) ↔ t.val = 9 :=
  (by decide +kernel : ∀ t : Fin grid3.N, atLast (grid3.coords t) ↔ t.val = 9)

/-! ## Where the windows are idle -/

/-- The input window is never idle. -/
theorem live3_0 : ∀ t : Fin cfg3.N, cfg3.idle 0 (grid3.coords t) = false := by decide +kernel
/-- Before the last block the output window is idle and is not written back. -/
theorem idle3_1 : ∀ t : Fin cfg3.N, ¬atLast (grid3.coords t) → cfg3.idle 1 (grid3.coords t) = true := by decide +kernel
theorem noFlush3_1 : ∀ t : Fin cfg3.N, ¬atLast (grid3.coords t) → (cfg3.win 1).flush t = false := by decide +kernel
/-- At the last block it is live. -/
theorem live3_1 : ∀ t : Fin cfg3.N, atLast (grid3.coords t) → cfg3.idle 1 (grid3.coords t) = false := by decide +kernel

/-! ## The buffers the body is called with -/

/-- One staging buffer of the output window, through which its contents are stated. -/
abbrev VO3 : View sig .tc .vmem S1x64 .f32 := (Memref.whole cc3_stg1_0 : Memref sig .tc .vmem S1x64 .f32).view
/-- Each window's current staging memref at point `t`, as the pipeline passes it, and its wholeness. -/
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
/-- The scratch buffer that holds the running row, as a memref and as a view. -/
abbrev scM3 : Memref sig .tc .vmem S1x64 .f32 := Memref.whole cc3_scratch0
abbrev VS3 : View sig .tc .vmem S1x64 .f32 := scM3.view

/-- Every scoped buffer of the core that is neither a staging buffer of this region nor its scratch, at anything. -/
abbrev others3 (c : Dev nD) : sProp 𝕄 :=
  Pipeline.scopedRestBut (Ix := Unit) (Name := ℕ) (U := UR sig nD τ) (Lvl := ℕ) (Val := Elt F) spec3 c [cc3_scratch0]

/-- The plain invariant with the scratch taken out of the scoped rest. -/
theorem PhiA3_eq (c : Dev nD) :
    (Pipeline.ΦA spec3 c : sProp 𝕄)
      = iprop(iprop((∃ d, owns (c : Thread nD τ) scM3 fullShare d) ∗ others3 c) ∗ (∃ r, prngReg c r)) := by
  unfold Pipeline.ΦA
  rw [Pipeline.scopedRest_split_of_list spec3 c [cc3_scratch0] (by decide) (by decide)]
  simp only [scM3, owns_whole, bigSepL]
  try rfl

/-! ## The body's three runs -/

set_option maxHeartbeats 1000000 in
/-- THE FIRST BLOCK. What the body's stores leave in the scratch, as pieces (last first), with the proof that on whole
    buffers — the input's at `x0`, the output's at `xi1` (handed back untouched), the scratch at anything — the body
    runs to its end with the input's and the output's buffers as they were and the scratch with those pieces written. -/
noncomputable def meanRunFirst (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : atFirst i) (hc1 : ¬atLast i)
    (x0 : Vec F S10000x64 .f32) :
    { LS : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS)) -∗ K ⟨⟩))
          ⊢ wp frame (wpE (defs₀ (F := F)) Variants.none c none) E (cc3__mean_pool_kernel i arg1 harg1 arg2 harg2 arg3 harg3) K } := by
  refine ⟨?_, fun xi1 E K => ?run⟩
  case run =>
    simp only [cc3__mean_pool_kernel_eq_skeleton]; unfold cc3__mean_pool_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE BLOCK: as the first, the scratch found at `xs0` (what the block before left). -/
noncomputable def meanRunMid (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : ¬atLast i)
    (x0 : Vec F S10000x64 .f32) (xs0 : Vec F S1x64 .f32) :
    { LS : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS)) -∗ K ⟨⟩))
          ⊢ wp frame (wpE (defs₀ (F := F)) Variants.none c none) E (cc3__mean_pool_kernel i arg1 harg1 arg2 harg2 arg3 harg3) K } := by
  refine ⟨?_, fun xi1 E K => ?run⟩
  case run =>
    simp only [cc3__mean_pool_kernel_eq_skeleton]; unfold cc3__mean_pool_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST BLOCK: the scratch found at `xs0`, the output's buffer at anything and left with its pieces written too. -/
noncomputable def meanRunLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i)
    (x0 : Vec F S10000x64 .f32) (xs0 : Vec F S1x64 .f32) :
    Σ' (L1 : List (View.Piece (Elt F) S1x64 .f32)), { LS : List (View.Piece (Elt F) S1x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS)) -∗ K ⟨⟩))
          ⊢ wp frame (wpE (defs₀ (F := F)) Variants.none c none) E (cc3__mean_pool_kernel i arg1 harg1 arg2 harg2 arg3 harg3) K } := by
  refine ⟨?_, ?_, fun E K => ?run⟩
  case run =>
    simp only [cc3__mean_pool_kernel_eq_skeleton]; unfold cc3__mean_pool_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

/-! ## What each case leaves -/

/-- The first block's pieces cover the scratch. -/
theorem scoverFirst (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : atFirst i) (hc1 : ¬atLast i) (x0 : Vec F S10000x64 .f32) (y : S1x64.Idx) :
    ∃ pc ∈ (meanRunFirst c i arg1 harg1 arg2 harg2 arg3 harg3 hc0 hc1 x0).1, y ∈ pc.1.set :=
  View.cover_of_tiledL (meanRunFirst c i arg1 harg1 arg2 harg2 arg3 harg3 hc0 hc1 x0).1 S1x64.size (by sl_kernel_rfl) y
/-- What the first block leaves in the scratch: its pieces read back. -/
def sFirst (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : atFirst i) (hc1 : ¬atLast i) (x0 : Vec F S10000x64 .f32) : Vec F S1x64 .f32 :=
  VS3.read (Elt F) (VS3.writes (Elt F) VS3.junk (meanRunFirst c i arg1 harg1 arg2 harg2 arg3 harg3 hc0 hc1 x0).1)

theorem scoverMid (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : ¬atLast i) (x0 : Vec F S10000x64 .f32) (xs0 : Vec F S1x64 .f32) (y : S1x64.Idx) :
    ∃ pc ∈ (meanRunMid c i arg1 harg1 arg2 harg2 arg3 harg3 hc0 hc1 x0 xs0).1, y ∈ pc.1.set :=
  View.cover_of_tiledL (meanRunMid c i arg1 harg1 arg2 harg2 arg3 harg3 hc0 hc1 x0 xs0).1 S1x64.size (by sl_kernel_rfl) y
/-- What a middle block leaves in the scratch. -/
def sMid (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : ¬atLast i) (x0 : Vec F S10000x64 .f32) (xs0 : Vec F S1x64 .f32) : Vec F S1x64 .f32 :=
  VS3.read (Elt F) (VS3.writes (Elt F) VS3.junk (meanRunMid c i arg1 harg1 arg2 harg2 arg3 harg3 hc0 hc1 x0 xs0).1)

theorem coverLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i) (x0 : Vec F S10000x64 .f32) (xs0 : Vec F S1x64 .f32) (y : S1x64.Idx) :
    ∃ pc ∈ (meanRunLast c i arg1 harg1 arg2 harg2 arg3 harg3 hc0 hc1 x0 xs0).1, y ∈ pc.1.set :=
  View.cover_of_tiledL (meanRunLast c i arg1 harg1 arg2 harg2 arg3 harg3 hc0 hc1 x0 xs0).1 S1x64.size (by sl_kernel_rfl) y
/-- What the last block leaves in the output's buffer. -/
def oLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i) (x0 : Vec F S10000x64 .f32) (xs0 : Vec F S1x64 .f32) : Vec F S1x64 .f32 :=
  VO3.read (Elt F) (VO3.writes (Elt F) VO3.junk (meanRunLast c i arg1 harg1 arg2 harg2 arg3 harg3 hc0 hc1 x0 xs0).1)
theorem scoverLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i) (x0 : Vec F S10000x64 .f32) (xs0 : Vec F S1x64 .f32) (y : S1x64.Idx) :
    ∃ pc ∈ (meanRunLast c i arg1 harg1 arg2 harg2 arg3 harg3 hc0 hc1 x0 xs0).2.1, y ∈ pc.1.set :=
  View.cover_of_tiledL (meanRunLast c i arg1 harg1 arg2 harg2 arg3 harg3 hc0 hc1 x0 xs0).2.1 S1x64.size (by sl_kernel_rfl) y
/-- What the last block leaves in the scratch. -/
def sLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i) (x0 : Vec F S10000x64 .f32) (xs0 : Vec F S1x64 .f32) : Vec F S1x64 .f32 :=
  VS3.read (Elt F) (VS3.writes (Elt F) VS3.junk (meanRunLast c i arg1 harg1 arg2 harg2 arg3 harg3 hc0 hc1 x0 xs0).2.1)

/-! ## What the output's buffer and the scratch hold after each point -/

/-- After the body at position `n`: (the output's buffer, the scratch). The output's component means something at the
    last point only; before it the window is idle and nothing reads the placeholder. -/
def outsAt3 (c : Dev nD) : (n : ℕ) → n < cfg3.N → Vec F S1x64 .f32 × Vec F S1x64 .f32
  | 0, hn => (VO3.read (Elt F) VO3.junk,
      sFirst c (grid3.coords ⟨0, hn⟩) (ms3_0 ⟨0, hn⟩) (hs3_0 ⟨0, hn⟩) (ms3_1 ⟨0, hn⟩) (hs3_1 ⟨0, hn⟩) scM3 (Memref.isWhole_whole _) ((atFirst_iff ⟨0, hn⟩).mpr rfl) (fun h => absurd ((atLast_iff ⟨0, hn⟩).mp h) (show ¬(0 : ℕ) = 9 by decide)) (iblk3 V c 0 ⟨0, hn⟩))
  | n + 1, hn =>
    if h9 : n + 1 = 9 then
      (oLast c (grid3.coords ⟨n + 1, hn⟩) (ms3_0 ⟨n + 1, hn⟩) (hs3_0 ⟨n + 1, hn⟩) (ms3_1 ⟨n + 1, hn⟩) (hs3_1 ⟨n + 1, hn⟩) scM3 (Memref.isWhole_whole _) (fun h => Nat.succ_ne_zero n ((atFirst_iff ⟨n + 1, hn⟩).mp h)) ((atLast_iff ⟨n + 1, hn⟩).mpr h9) (iblk3 V c 0 ⟨n + 1, hn⟩) (outsAt3 c n (Nat.lt_of_succ_lt hn)).2,
       sLast c (grid3.coords ⟨n + 1, hn⟩) (ms3_0 ⟨n + 1, hn⟩) (hs3_0 ⟨n + 1, hn⟩) (ms3_1 ⟨n + 1, hn⟩) (hs3_1 ⟨n + 1, hn⟩) scM3 (Memref.isWhole_whole _) (fun h => Nat.succ_ne_zero n ((atFirst_iff ⟨n + 1, hn⟩).mp h)) ((atLast_iff ⟨n + 1, hn⟩).mpr h9) (iblk3 V c 0 ⟨n + 1, hn⟩) (outsAt3 c n (Nat.lt_of_succ_lt hn)).2)
    else
      (VO3.read (Elt F) VO3.junk,
       sMid c (grid3.coords ⟨n + 1, hn⟩) (ms3_0 ⟨n + 1, hn⟩) (hs3_0 ⟨n + 1, hn⟩) (ms3_1 ⟨n + 1, hn⟩) (hs3_1 ⟨n + 1, hn⟩) scM3 (Memref.isWhole_whole _) (fun h => Nat.succ_ne_zero n ((atFirst_iff ⟨n + 1, hn⟩).mp h)) (fun h => h9 ((atLast_iff ⟨n + 1, hn⟩).mp h)) (iblk3 V c 0 ⟨n + 1, hn⟩) (outsAt3 c n (Nat.lt_of_succ_lt hn)).2)

theorem outsAt3_first (c : Dev nD) (t : Fin cfg3.N) (h0 : t.val = 0) (h9 : ¬t.val = 9) :
    outsAt3 V c t.val t.isLt = (VO3.read (Elt F) VO3.junk,
      sFirst c (grid3.coords t) (ms3_0 t) (hs3_0 t) (ms3_1 t) (hs3_1 t) scM3 (Memref.isWhole_whole _) ((atFirst_iff t).mpr h0) (fun h => h9 ((atLast_iff t).mp h)) (iblk3 V c 0 t)) := by
  obtain ⟨n, hn⟩ := t
  cases n with
  | zero => exact rfl
  | succ n => exact absurd h0 (Nat.succ_ne_zero n)

theorem outsAt3_mid (c : Dev nD) (t : Fin cfg3.N) (h0 : ¬t.val = 0) (h9 : ¬t.val = 9) :
    outsAt3 V c t.val t.isLt = (VO3.read (Elt F) VO3.junk,
      sMid c (grid3.coords t) (ms3_0 t) (hs3_0 t) (ms3_1 t) (hs3_1 t) scM3 (Memref.isWhole_whole _) (fun h => h0 ((atFirst_iff t).mp h)) (fun h => h9 ((atLast_iff t).mp h)) (iblk3 V c 0 t)
        (outsAt3 V c (t.val - 1) (Nat.lt_of_le_of_lt (Nat.sub_le _ _) t.isLt)).2) := by
  obtain ⟨n, hn⟩ := t
  cases n with
  | zero => exact absurd rfl h0
  | succ n => exact (dif_neg h9).trans rfl

theorem outsAt3_last (c : Dev nD) (t : Fin cfg3.N) (h0 : ¬t.val = 0) (h9 : t.val = 9) :
    outsAt3 V c t.val t.isLt =
      (oLast c (grid3.coords t) (ms3_0 t) (hs3_0 t) (ms3_1 t) (hs3_1 t) scM3 (Memref.isWhole_whole _) (fun h => h0 ((atFirst_iff t).mp h)) ((atLast_iff t).mpr h9) (iblk3 V c 0 t)
        (outsAt3 V c (t.val - 1) (Nat.lt_of_le_of_lt (Nat.sub_le _ _) t.isLt)).2,
       sLast c (grid3.coords t) (ms3_0 t) (hs3_0 t) (ms3_1 t) (hs3_1 t) scM3 (Memref.isWhole_whole _) (fun h => h0 ((atFirst_iff t).mp h)) ((atLast_iff t).mpr h9) (iblk3 V c 0 t)
        (outsAt3 V c (t.val - 1) (Nat.lt_of_le_of_lt (Nat.sub_le _ _) t.isLt)).2) := by
  obtain ⟨n, hn⟩ := t
  cases n with
  | zero => exact absurd rfl h0
  | succ n => exact (dif_pos h9).trans rfl

/-! ## The invariant between points -/

/-- Before the first point: the kernel's scoped buffers at anything and the generator register at some state. After
    point `n`: the scratch at what that point left, the other scoped buffers at anything, and the register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ others3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ others3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ others3 c) ∗ (∃ r, prngReg c r)) := by
  cases n with
  | zero => exact absurd rfl hz
  | succ n => rfl

/-! ## The pipeline's proof data -/

/-- The arrays as the region finds them; after the body at point `t` the input's buffer at its block and the output's
    at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4800000 in
/-- The body at any point. The input's buffer holds its block; the point's position says which case it is in; the
    invariant hands the body the scratch (at anything at the first point, at what the point before left afterwards)
    and takes it back at this point's contents, the other scoped buffers and the register passing through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (ms3_0 t) fullShare ((dat3 V c).after 0 t) from by
    unfold Dat.leavesExact; rw [live3_0 t], after3_0]
  by_cases h0 : t.val = 0
  · have h9 : ¬t.val = 9 := by omega
    rw [Dat.leavesExact_idle (dat3 V c) 1 t (idle3_1 t (fun h => h9 ((atLast_iff t).mp h))) (noFlush3_1 t (fun h => h9 ((atLast_iff t).mp h)))]
    rw [outsAt3_first V c t h0 h9]
    unfold sFirst; (try dsimp only)
    rw [PhiS3_castSucc V c t, PhiS3_zero V c _ _ h0, PhiA3_eq]
    iintro ⟨⟨⟨HS, Hrest⟩, Hg⟩, Ho, ⟨%d0, H0⟩, ⟨%d1, H1⟩⟩
    iapply ((meanRunFirst c (grid3.coords t) _ _ _ _ _ _ ((atFirst_iff t).mpr h0) (fun h => h9 ((atLast_iff t).mp h)) (iblk3 V c 0 t)).2 _ Set.univ _)
    isplitl [H0]; · iexact H0
    isplitl [H1]; · iexact H1
    isplitl [HS]; · iexact HS
    iintro ⟨H0, H1, ⟨%es, HS⟩⟩
    isplitl [HS Hrest Hg]
    · isplitl [HS Hrest]
      · isplitl [HS]
        · unfold owns; iexists _; isplitr
          swap; · iexact HS
          ipureintro; exact View.read_writes_of_cover _ _ _ _ _ (scoverFirst c _ _ _ _ _ _ _ _ _ _)
        iexact Hrest
      iexact Hg
    isplitl [Ho]; · iexact Ho
    isplitl [H0]; · iexact H0
    iexists _; iexact H1
  · by_cases h9 : t.val = 9
    · rw [show (dat3 V c).leavesExact 1 t = owns (c : Thread nD τ) (ms3_1 t) fullShare ((dat3 V c).after 1 t) from by
        unfold Dat.leavesExact; rw [live3_1 t ((atLast_iff t).mpr h9)], after3_1]
      rw [outsAt3_last V c t h0 h9]
      unfold oLast sLast; (try dsimp only)
      rw [PhiS3_castSucc V c t, PhiS3_pos V c _ _ h0]
      iintro ⟨⟨⟨HS, Hrest⟩, Hg⟩, Ho, ⟨%d0, H0⟩, ⟨%d1, H1⟩⟩
      iapply ((meanRunLast c (grid3.coords t) _ _ _ _ _ _ (fun h => h0 ((atFirst_iff t).mp h)) ((atLast_iff t).mpr h9) (iblk3 V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverLast c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (coverLast c _ _ _ _ _ _ _ _ _ _ _)
    · rw [Dat.leavesExact_idle (dat3 V c) 1 t (idle3_1 t (fun h => h9 ((atLast_iff t).mp h))) (noFlush3_1 t (fun h => h9 ((atLast_iff t).mp h)))]
      rw [outsAt3_mid V c t h0 h9]
      unfold sMid; (try dsimp only)
      rw [PhiS3_castSucc V c t, PhiS3_pos V c _ _ h0]
      iintro ⟨⟨⟨HS, Hrest⟩, Hg⟩, Ho, ⟨%d0, H0⟩, ⟨%d1, H1⟩⟩
      iapply ((meanRunMid c (grid3.coords t) _ _ _ _ _ _ (fun h => h0 ((atFirst_iff t).mp h)) (fun h => h9 ((atLast_iff t).mp h)) (iblk3 V c 0 t) _).2 _ Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverMid c _ _ _ _ _ _ _ _ _ _ _)
          iexact Hrest
        iexact Hg
      isplitl [Ho]; · iexact Ho
      isplitl [H0]; · iexact H0
      iexists _; iexact H1

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant starts from and returns to the plain one -/

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 10 := N_3; omega), PhiA3_eq]
  iintro ⟨⟨HS, Hrest⟩, Hg⟩
  isplitl [HS Hrest]
  · isplitl [HS]
    · iexists _; iexact HS
    iexact Hrest
  iexact Hg

end Cert.Kernel.Hand

end
-- ==== Proof.WordRun.lean ====
/-
  The whole program as a run: four regions among stretches of host operations.

  The contents of the TensorCore's unscoped buffers are named at every boundary, as a fold from the launch memory: a
  host stretch applies its operations (`StableHlo.after`); a region leaves its windows' arrays at what its write-backs
  make of them and every other buffer as it found it (`withArrays`). Each region's proof data is stated at the
  contents it is entered from, and each region is a segment over the thread state "every unscoped buffer at the
  boundary's contents, the generator register at some state, nothing owed". The library's launch theorem for a list
  of segments then gives: every weakly fair execution terminates, nothing faults, and every unscoped buffer ends
  at the last boundary's contents `W8` (`run`).

  From it: a buffer that no host operation writes and no region has as an output ends as launched (`W8_kept`), which
  is the frame claim for the fifteen argument arrays (`frame`). For every float interpretation at once.
-/
import proofs.«177146_j56882546868897_1_alg».proof.Proof.WordLayer1
import proofs.«177146_j56882546868897_1_alg».proof.Proof.WordLayer2
import proofs.«177146_j56882546868897_1_alg».proof.Proof.WordLayer3
import proofs.«177146_j56882546868897_1_alg».proof.Proof.WordMean
import proofs.«177146_j56882546868897_1_alg».proof.Proof.Gen.Kernel.Regions

-- membership in a rectangle of the blocks' extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev at1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (at1 m ρ) c).arrAt w cfg0.N
theorem W2_arr (c : Dev nD) (w : Fin cfg0.W) :
    W2 m ρ c (Proc.devRef .tc (Pipeline.arrRef spec0 w)) = (dat0 (at1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev at2 : (c : Dev nD) → (b : Ref sig .tc) → Buf (Elt F) ((c : Thread nD τ).loc b) := fun c b => W2 m ρ c b
theorem hF0 (c : Dev nD) (w : Fin cfg0.W) : (dat0 (at1 m ρ) c).arrAt w cfg0.N = at2 m ρ c (Pipeline.arrRef spec0 w) :=
  (W2_arr m ρ c w).symm
theorem hrest0 (c : Dev nD) : ∀ b, b ∉ Finset.univ.image (Pipeline.arrRef spec0) → at2 m ρ c b = at1 m ρ c b :=
  fun b hb => W2_of_ne m ρ c b fun w e => hb (Finset.mem_image.mpr ⟨w, Finset.mem_univ _, e⟩)
/-- After the second host stretch (region 1's entry). -/
abbrev W3 : Dev nD → Valuation τ sig (Elt F) := fun c => StableHlo.after hostOps1 (W2 m ρ c)
abbrev at3 : (c : Dev nD) → (b : Ref sig .tc) → Buf (Elt F) ((c : Thread nD τ).loc b) := fun c b => W3 m ρ c b
/-- At region 1's exit: its arrays at what the pipeline leaves (the inputs as entered, each output's write-backs folded),
    every other buffer as entered. -/
def W4 (c : Dev nD) : Valuation τ sig (Elt F) :=
  Pipeline.withArrays spec1 c (W3 m ρ c) fun w => (dat1 (at3 m ρ) c).arrAt w cfg1.N
theorem W4_arr (c : Dev nD) (w : Fin cfg1.W) :
    W4 m ρ c (Proc.devRef .tc (Pipeline.arrRef spec1 w)) = (dat1 (at3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev at4 : (c : Dev nD) → (b : Ref sig .tc) → Buf (Elt F) ((c : Thread nD τ).loc b) := fun c b => W4 m ρ c b
theorem hF1 (c : Dev nD) (w : Fin cfg1.W) : (dat1 (at3 m ρ) c).arrAt w cfg1.N = at4 m ρ c (Pipeline.arrRef spec1 w) :=
  (W4_arr m ρ c w).symm
theorem hrest1 (c : Dev nD) : ∀ b, b ∉ Finset.univ.image (Pipeline.arrRef spec1) → at4 m ρ c b = at3 m ρ c b :=
  fun b hb => W4_of_ne m ρ c b fun w e => hb (Finset.mem_image.mpr ⟨w, Finset.mem_univ _, e⟩)
/-- After the third host stretch (region 2's entry). -/
abbrev W5 : Dev nD → Valuation τ sig (Elt F) := fun c => StableHlo.after hostOps2 (W4 m ρ c)
abbrev at5 : (c : Dev nD) → (b : Ref sig .tc) → Buf (Elt F) ((c : Thread nD τ).loc b) := fun c b => W5 m ρ c b
/-- At region 2's exit: its arrays at what the pipeline leaves (the inputs as entered, each output's write-backs folded),
    every other buffer as entered. -/
def W6 (c : Dev nD) : Valuation τ sig (Elt F) :=
  Pipeline.withArrays spec2 c (W5 m ρ c) fun w => (dat2 (at5 m ρ) c).arrAt w cfg2.N
theorem W6_arr (c : Dev nD) (w : Fin cfg2.W) :
    W6 m ρ c (Proc.devRef .tc (Pipeline.arrRef spec2 w)) = (dat2 (at5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev at6 : (c : Dev nD) → (b : Ref sig .tc) → Buf (Elt F) ((c : Thread nD τ).loc b) := fun c b => W6 m ρ c b
theorem hF2 (c : Dev nD) (w : Fin cfg2.W) : (dat2 (at5 m ρ) c).arrAt w cfg2.N = at6 m ρ c (Pipeline.arrRef spec2 w) :=
  (W6_arr m ρ c w).symm
theorem hrest2 (c : Dev nD) : ∀ b, b ∉ Finset.univ.image (Pipeline.arrRef spec2) → at6 m ρ c b = at5 m ρ c b :=
  fun b hb => W6_of_ne m ρ c b fun w e => hb (Finset.mem_image.mpr ⟨w, Finset.mem_univ _, e⟩)
/-- At region 3's exit: its arrays at what the pipeline leaves (the inputs as entered, each output's write-backs folded),
    every other buffer as entered. -/
def W7 (c : Dev nD) : Valuation τ sig (Elt F) :=
  Pipeline.withArrays spec3 c (W6 m ρ c) fun w => (dat3 (at6 m ρ) c).arrAt w cfg3.N
theorem W7_arr (c : Dev nD) (w : Fin cfg3.W) :
    W7 m ρ c (Proc.devRef .tc (Pipeline.arrRef spec3 w)) = (dat3 (at6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev at7 : (c : Dev nD) → (b : Ref sig .tc) → Buf (Elt F) ((c : Thread nD τ).loc b) := fun c b => W7 m ρ c b
theorem hF3 (c : Dev nD) (w : Fin cfg3.W) : (dat3 (at6 m ρ) c).arrAt w cfg3.N = at7 m ρ c (Pipeline.arrRef spec3 w) :=
  (W7_arr m ρ c w).symm
theorem hrest3 (c : Dev nD) : ∀ b, b ∉ Finset.univ.image (Pipeline.arrRef spec3) → at7 m ρ c b = at6 m ρ c b :=
  fun b hb => W7_of_ne m ρ c b fun w e => hb (Finset.mem_image.mpr ⟨w, Finset.mem_univ _, e⟩)
/-- After the last host stretch: the contents the program ends with. -/
abbrev W8 : Dev nD → Valuation τ sig (Elt F) := fun c => StableHlo.after hostOps4 (W7 m ρ c)

/-! ## What each item leaves unchanged -/

/-- Region 0 changes only what it writes: an input window's array ends as entered, and so does every buffer that
    is no window's array. -/
theorem W2_keep (c : Dev nD) (b : Ref sig .tc) (hb : b ≠ main_v11) :
    W2 m ρ c (Proc.devRef .tc b) = W1 m ρ c (Proc.devRef .tc b) := by
  by_cases h : ∃ w, Pipeline.arrRef spec0 w = b
  · obtain ⟨w, rfl⟩ := h
    rw [W2_arr]
    fin_cases w
    · exact ((dat0 (at1 m ρ) c).arrAt_in 0 rfl _).trans (A_eq0 (at1 m ρ) c 0)
    · exact ((dat0 (at1 m ρ) c).arrAt_in 1 rfl _).trans (A_eq0 (at1 m ρ) c 1)
    · exact ((dat0 (at1 m ρ) c).arrAt_in 2 rfl _).trans (A_eq0 (at1 m ρ) c 2)
    · exact absurd rfl hb
  · exact W2_of_ne m ρ c b fun w e => h ⟨w, e⟩
/-- Region 1 changes only what it writes: an input window's array ends as entered, and so does every buffer that
    is no window's array. -/
theorem W4_keep (c : Dev nD) (b : Ref sig .tc) (hb : b ≠ main_v23) :
    W4 m ρ c (Proc.devRef .tc b) = W3 m ρ c (Proc.devRef .tc b) := by
  by_cases h : ∃ w, Pipeline.arrRef spec1 w = b
  · obtain ⟨w, rfl⟩ := h
    rw [W4_arr]
    fin_cases w
    · exact ((dat1 (at3 m ρ) c).arrAt_in 0 rfl _).trans (A_eq1 (at3 m ρ) c 0)
    · exact ((dat1 (at3 m ρ) c).arrAt_in 1 rfl _).trans (A_eq1 (at3 m ρ) c 1)
    · exact ((dat1 (at3 m ρ) c).arrAt_in 2 rfl _).trans (A_eq1 (at3 m ρ) c 2)
    · exact absurd rfl hb
  · exact W4_of_ne m ρ c b fun w e => h ⟨w, e⟩
/-- Region 2 changes only what it writes: an input window's array ends as entered, and so does every buffer that
    is no window's array. -/
theorem W6_keep (c : Dev nD) (b : Ref sig .tc) (hb1 : b ≠ main_v36_0) (hb2 : b ≠ main_v36_1) :
    W6 m ρ c (Proc.devRef .tc b) = W5 m ρ c (Proc.devRef .tc b) := by
  by_cases h : ∃ w, Pipeline.arrRef spec2 w = b
  · obtain ⟨w, rfl⟩ := h
    rw [W6_arr]
    fin_cases w
    · exact ((dat2 (at5 m ρ) c).arrAt_in 0 rfl _).trans (A_eq2 (at5 m ρ) c 0)
    · exact ((dat2 (at5 m ρ) c).arrAt_in 1 rfl _).trans (A_eq2 (at5 m ρ) c 1)
    · exact ((dat2 (at5 m ρ) c).arrAt_in 2 rfl _).trans (A_eq2 (at5 m ρ) c 2)
    · exact ((dat2 (at5 m ρ) c).arrAt_in 3 rfl _).trans (A_eq2 (at5 m ρ) c 3)
    · exact ((dat2 (at5 m ρ) c).arrAt_in 4 rfl _).trans (A_eq2 (at5 m ρ) c 4)
    · exact absurd rfl hb1
    · exact absurd rfl hb2
  · exact W6_of_ne m ρ c b fun w e => h ⟨w, e⟩
/-- Region 3 changes only what it writes: an input window's array ends as entered, and so does every buffer that
    is no window's array. -/
theorem W7_keep (c : Dev nD) (b : Ref sig .tc) (hb : b ≠ main_v37) :
    W7 m ρ c (Proc.devRef .tc b) = W6 m ρ c (Proc.devRef .tc b) := by
  by_cases h : ∃ w, Pipeline.arrRef spec3 w = b
  · obtain ⟨w, rfl⟩ := h
    rw [W7_arr]
    fin_cases w
    · exact ((dat3 (at6 m ρ) c).arrAt_in 0 rfl _).trans (A_eq3 (at6 m ρ) c 0)
    · exact absurd rfl hb
  · exact W7_of_ne m ρ c b fun w e => h ⟨w, e⟩

/-- A buffer that no host stretch writes and no region has as an output ends as launched. -/
theorem W8_kept (c : Dev nD) (b : Ref sig .tc) (h0 : b ∉ hostOps0_W) (h1 : b ∉ hostOps1_W) (h2 : b ∉ hostOps2_W) (h4 : b ∉ hostOps4_W)
    (hr : b ≠ main_v11 ∧ b ≠ main_v23 ∧ b ≠ main_v36_0 ∧ b ≠ main_v36_1 ∧ b ≠ main_v37) :
    W8 m ρ c (Proc.devRef .tc b) = m ((c : Thread nD τ).loc b) :=
  calc W8 m ρ c (Proc.devRef .tc b)
    _ = W7 m ρ c (Proc.devRef .tc b) := StableHlo.after_of_writes_sub hostOps4 _ hostOps4_writes h4
    _ = W6 m ρ c (Proc.devRef .tc b) := W7_keep m ρ c b hr.2.2.2.2
    _ = W5 m ρ c (Proc.devRef .tc b) := W6_keep m ρ c b hr.2.2.1 hr.2.2.2.1
    _ = W4 m ρ c (Proc.devRef .tc b) := StableHlo.after_of_writes_sub hostOps2 _ hostOps2_writes h2
    _ = W3 m ρ c (Proc.devRef .tc b) := W4_keep m ρ c b hr.2.1
    _ = W2 m ρ c (Proc.devRef .tc b) := StableHlo.after_of_writes_sub hostOps1 _ hostOps1_writes h1
    _ = W1 m ρ c (Proc.devRef .tc b) := W2_keep m ρ c b hr.1
    _ = W0 m ρ c (Proc.devRef .tc b) := StableHlo.after_of_writes_sub hostOps0 _ hostOps0_writes h0
    _ = m ((c : Thread nD τ).loc b) := rfl

/-! ## The proof data family and the thread state -/

/-- Every pipeline's proof data, each at its region's entry contents — a literal match, so that the library's pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (at1 m ρ) c
  | ⟨1, _⟩ => fun c => dat1 (at3 m ρ) c
  | ⟨2, _⟩ => fun c => dat2 (at5 m ρ) c
  | ⟨3, _⟩ => fun c => dat3 (at6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W8`, the register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold plain
-- definitions in a metavariable's type
set_option backward.isDefEq.respectTransparency.types false in
/-- Region 0 over the thread state: entered from every unscoped buffer at `W1`, left at `W2`. Its arrays are split
    out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (at1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (at1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (at1 m ρ c) (at2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered from every unscoped buffer at `W3`, left at `W4`. Its arrays are split
    out of the unscoped buffers and put back at the exit contents; the generator register goes into the invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (at3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (at3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (at3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (at3 m ρ c) (at4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered from every unscoped buffer at `W5`, left at `W6`. Its arrays are split
    out of the unscoped buffers and put back at the exit contents; the generator register goes into the invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (at5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (at5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (at5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (at5 m ρ c) (at6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 3 over the thread state: entered from every unscoped buffer at `W6`, left at `W7`. Its arrays are split
    out of the unscoped buffers and put back at the exit contents; the generator register goes into the invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (at6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (at6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (at6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec3 c from by
      unfold Pipeline.ΦA
      iintro ⟨Hp, -, Hr⟩
      isplitl [Hr]; · iexact Hr
      iexact Hp).trans (hin3 (at6 m ρ) c)
  hout c := by
    rw [Pipeline.ownSems0_none]
    exact (hout3 (at6 m ρ) c).trans (show Pipeline.ΦA spec3 c ⊢ _ from by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (at6 m ρ c) (at7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's eight items in order. -/
abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]
/-- The program is the run of those items. -/
theorem main_run (c : Dev nD) : main (F := F) c = Pipeline.Seg.run (items m ρ) := (main_chain c).trans (by chain_rfl)

-- the launch theorem's implicit arguments are found by unifying its conclusion with this one, which takes unfolding plain
-- definitions in a metavariable's type
set_option backward.isDefEq.respectTransparency.types false in
/-- THE RUN. From any memory with zero counters every weakly fair execution of the program terminates, nothing faults,
    and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The frame claim -/

/-- An argument array's buffer, read off the run's end. -/
theorem arg_kept {r : PUnit × MemSt nD τ sig (Elt F)} (h : ∀ c : Dev nD, ∀ b ∈ Pipeline.ucRefs τ sig, r.2.mem (((c : Thread nD τ)).1, b) = W8 m ρ c b)
    (c : Dev nD) (b : Ref sig .tc) (hu : ¬ (Proc.devRef .tc b : DevRef τ sig).isScoped)
    (h0 : b ∉ hostOps0_W) (h1 : b ∉ hostOps1_W) (h2 : b ∉ hostOps2_W) (h4 : b ∉ hostOps4_W)
    (hr : b ≠ main_v11 ∧ b ≠ main_v23 ∧ b ≠ main_v36_0 ∧ b ≠ main_v36_1 ∧ b ≠ main_v37) :
    r.2.mem ((c.tc : Thread nD τ).loc b) = m ((c.tc : Thread nD τ).loc b) :=
  (h c _ (mem_uc b hu)).trans (W8_kept m ρ c b h0 h1 h2 h4 hr)

/-- Every weakly fair execution terminates, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨arg_kept m ρ h c main_arg0 (by decide) (by decide) (by decide) (by decide) (by decide) (by decide),
     arg_kept m ρ h c main_arg1 (by decide) (by decide) (by decide) (by decide) (by decide) (by decide),
     arg_kept m ρ h c main_arg2 (by decide) (by decide) (by decide) (by decide) (by decide) (by decide),
     arg_kept m ρ h c main_arg3 (by decide) (by decide) (by decide) (by decide) (by decide) (by decide),
     arg_kept m ρ h c main_arg4 (by decide) (by decide) (by decide) (by decide) (by decide) (by decide),
     arg_kept m ρ h c main_arg5 (by decide) (by decide) (by decide) (by decide) (by decide) (by decide),
     arg_kept m ρ h c main_arg6 (by decide) (by decide) (by decide) (by decide) (by decide) (by decide),
     arg_kept m ρ h c main_arg7 (by decide) (by decide) (by decide) (by decide) (by decide) (by decide),
     arg_kept m ρ h c main_arg8 (by decide) (by decide) (by decide) (by decide) (by decide) (by decide),
     arg_kept m ρ h c main_arg9 (by decide) (by decide) (by decide) (by decide) (by decide) (by decide),
     arg_kept m ρ h c main_arg10 (by decide) (by decide) (by decide) (by decide) (by decide) (by decide),
     arg_kept m ρ h c main_arg11 (by decide) (by decide) (by decide) (by decide) (by decide) (by decide),
     arg_kept m ρ h c main_arg12 (by decide) (by decide) (by decide) (by decide) (by decide) (by decide),
     arg_kept m ρ h c main_arg13 (by decide) (by decide) (by decide) (by decide) (by decide) (by decide),
     arg_kept m ρ h c main_arg14 (by decide) (by decide) (by decide) (by decide) (by decide) (by decide)⟩)
    (run m ρ)

end Cert.Kernel.Hand

end
-- ==== Proof.IdealLayer1.lean ====
/-
  The first layer's dense step as a region of the program, at any contents `V` the region is entered from.

  The region walks the 100000 rows in ten blocks of 10000. At block t it is handed rows 10000·t … 10000·t + 9999 of
  the summed neighbour rows (`iblk0 V c 0 t`), the whole 64×64 weight matrix and the 1×64 bias row (fetched once, at
  the first block, and found in place afterwards), and it leaves in the output's buffer one value: the block times the
  weights, plus the bias row on every row, the negative entries replaced by zero (`out0_3`, the body's one store over
  the body's three loads). Nothing is carried from one block to the next, so between blocks the region holds only the
  kernel's scratch at some contents and the generator register at some state.

  Here: the blocks, the body's run, the proof data of the pipeline library and its body obligation, for every float
  interpretation at once.
-/
import proofs.«177146_j56882546868897_1_alg».proof.Proof.Gen.KernelIdeal.Launch
import proofs.«177146_j56882546868897_1_alg».proof.Proof.Gen.KernelIdeal.Skeleton
import proofs.«177146_j56882546868897_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (a window not fetched
    has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves -/

abbrev rows0 : Rect S10000x64 := Rect.unit (s := S10000x64) ![0, 0] S10000x64.size inb_S10000x64_S10000x64_0_0
abbrev weights0 : Rect S64x64 := Rect.unit (s := S64x64) ![0, 0] S64x64.size inb_S64x64_S64x64_0_0
abbrev biasRow0 : Rect S1x64 := Rect.unit (s := S1x64) ![0, 0] S1x64.size inb_S1x64_S1x64_0_0

/-- The output's buffer after the body: its one store, of the body's value of the three loads. -/
def out0_3 (x0 : Vec F S10000x64 .f32) (x1 : Vec F S64x64 .f32) (x2 : Vec F S1x64 .f32) : Vec F S10000x64 .f32 :=
  View.canon [⟨rows0, k0_pay1 (View.ld x0 rows0) (View.ld x1 weights0) (View.ld x2 biasRow0)⟩]

/-- The one store covers the buffer. -/
theorem cover0_3 (p0 : Vec F S10000x64 .f32) (y : S10000x64.Idx) :
    ∃ pc ∈ ([⟨rows0, p0⟩] : List (View.Piece (Elt F) S10000x64 .f32)), y ∈ pc.1.set :=
  View.cover_of_tiled [⟨rows0, p0⟩] S10000x64.size (by rfl) y

/-! ## The body's run -/

set_option maxHeartbeats 1000000 in
/-- On whole buffers, the three inputs' at contents `x0 x1 x2` and the output's at anything, the body runs to its end
    with the inputs' buffers as they were and the output's at `out0_3 x0 x1 x2`. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linrelu_kernel i arg1 harg1 arg2 harg2 arg3 harg3 arg4 harg4) K := by
  simp only [cc0__linrelu_kernel_eq_skeleton]; unfold cc0__linrelu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the
    output's at `out0_3` of the input blocks; between points the scoped rest and the generator register at anything;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealLayer2.lean ====
/-
  The second layer's dense step as a region of the program, at any contents `V` the region is entered from.

  The region walks the 100000 rows in ten blocks of 10000. At block t it is handed rows 10000·t … 10000·t + 9999 of
  the summed neighbour rows (`iblk1 V c 0 t`), the whole 64×64 weight matrix and the 1×64 bias row (fetched once, at
  the first block, and found in place afterwards), and it leaves in the output's buffer one value: the block times the
  weights, plus the bias row on every row, the negative entries replaced by zero (`out1_3`, the body's one store over
  the body's three loads). Nothing is carried from one block to the next, so between blocks the region holds only the
  kernel's scratch at some contents and the generator register at some state.

  Here: the blocks, the body's run, the proof data of the pipeline library and its body obligation, for every float
  interpretation at once.
-/
import proofs.«177146_j56882546868897_1_alg».proof.Proof.Gen.KernelIdeal.Launch
import proofs.«177146_j56882546868897_1_alg».proof.Proof.Gen.KernelIdeal.Skeleton
import proofs.«177146_j56882546868897_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (a window not fetched
    has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves -/

abbrev rows1 : Rect S10000x64 := Rect.unit (s := S10000x64) ![0, 0] S10000x64.size inb_S10000x64_S10000x64_0_0
abbrev weights1 : Rect S64x64 := Rect.unit (s := S64x64) ![0, 0] S64x64.size inb_S64x64_S64x64_0_0
abbrev biasRow1 : Rect S1x64 := Rect.unit (s := S1x64) ![0, 0] S1x64.size inb_S1x64_S1x64_0_0

/-- The output's buffer after the body: its one store, of the body's value of the three loads. -/
def out1_3 (x0 : Vec F S10000x64 .f32) (x1 : Vec F S64x64 .f32) (x2 : Vec F S1x64 .f32) : Vec F S10000x64 .f32 :=
  View.canon [⟨rows1, k1_pay1 (View.ld x0 rows1) (View.ld x1 weights1) (View.ld x2 biasRow1)⟩]

/-- The one store covers the buffer. -/
theorem cover1_3 (p0 : Vec F S10000x64 .f32) (y : S10000x64.Idx) :
    ∃ pc ∈ ([⟨rows1, p0⟩] : List (View.Piece (Elt F) S10000x64 .f32)), y ∈ pc.1.set :=
  View.cover_of_tiled [⟨rows1, p0⟩] S10000x64.size (by rfl) y

/-! ## The body's run -/

set_option maxHeartbeats 1000000 in
/-- On whole buffers, the three inputs' at contents `x0 x1 x2` and the output's at anything, the body runs to its end
    with the inputs' buffers as they were and the output's at `out1_3 x0 x1 x2`. -/
theorem sound_kernel1 (c : Dev nD) (E : Set ℕ) (i : grid1.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linrelu_kernel i arg1 harg1 arg2 harg2 arg3 harg3 arg4 harg4) K := by
  simp only [cc1__linrelu_kernel_eq_skeleton]; unfold cc1__linrelu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The arrays as the region finds them; after the body at point `t` each input's buffer at its block and the
    output's at `out1_3` of the input blocks; between points the scoped rest and the generator register at anything;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the run applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealLayer3.lean ====
/-
  The third layer's dense step, together with the score of every node, as a region of the program, at any contents
  `V` the region is entered from.

  The region walks the 100000 rows in ten blocks of 10000. At block t it is handed rows 10000·t … 10000·t + 9999 of
  the summed neighbour rows, the 64×64 weight matrix, the 1×64 bias row, the 64×1 score weights and the 1×1 score bias
  (the last four fetched once and found in place afterwards). It leaves two values: in the first output's buffer the
  block times the weights, plus the bias row on every row, negative entries replaced by zero (`out2_5`); in the second
  output's buffer that 10000×64 value times the score weights, plus the score bias on every row (`out2_6`) — each the
  body's one store into that buffer, over the body's loads. Nothing is carried from one block to the next.

  Here: the blocks, the body's run, the proof data of the pipeline library and its body obligation, for every float
  interpretation at once.
-/
import proofs.«177146_j56882546868897_1_alg».proof.Proof.Gen.KernelIdeal.Launch
import proofs.«177146_j56882546868897_1_alg».proof.Proof.Gen.KernelIdeal.Skeleton
import proofs.«177146_j56882546868897_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (a window not fetched
    has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses and what it leaves -/

abbrev rows2 : Rect S10000x64 := Rect.unit (s := S10000x64) ![0, 0] S10000x64.size inb_S10000x64_S10000x64_0_0
abbrev weights2 : Rect S64x64 := Rect.unit (s := S64x64) ![0, 0] S64x64.size inb_S64x64_S64x64_0_0
abbrev biasRow2 : Rect S1x64 := Rect.unit (s := S1x64) ![0, 0] S1x64.size inb_S1x64_S1x64_0_0
abbrev scoreW2 : Rect S64x1 := Rect.unit (s := S64x1) ![0, 0] S64x1.size inb_S64x1_S64x1_0_0
abbrev scoreB2 : Rect S1x1 := Rect.unit (s := S1x1) ![0, 0] S1x1.size inb_S1x1_S1x1_0_0
abbrev scores2 : Rect S10000x1 := Rect.unit (s := S10000x1) ![0, 0] S10000x1.size inb_S10000x1_S10000x1_0_0

/-- The first output's buffer after the body: its one store, of the layer's value of the first three loads. -/
def out2_5 (x0 : Vec F S10000x64 .f32) (x1 : Vec F S64x64 .f32) (x2 : Vec F S1x64 .f32) : Vec F S10000x64 .f32 :=
  View.canon [⟨rows2, k2_pay1 (View.ld x0 rows2) (View.ld x1 weights2) (View.ld x2 biasRow2)⟩]

/-- The second output's buffer after the body: its one store, of the scores' value of the five loads. -/
def out2_6 (x0 : Vec F S10000x64 .f32) (x1 : Vec F S64x64 .f32) (x2 : Vec F S1x64 .f32) (x3 : Vec F S64x1 .f32) (x4 : Vec F S1x1 .f32) :
    Vec F S10000x1 .f32 :=
  View.canon [⟨scores2, k2_pay2 (View.ld x0 rows2) (View.ld x1 weights2) (View.ld x2 biasRow2) (View.ld x3 scoreW2) (View.ld x4 scoreB2)⟩]

/-- Each one store covers its buffer. -/
theorem cover2_5 (p0 : Vec F S10000x64 .f32) (y : S10000x64.Idx) :
    ∃ pc ∈ ([⟨rows2, p0⟩] : List (View.Piece (Elt F) S10000x64 .f32)), y ∈ pc.1.set :=
  View.cover_of_tiled [⟨rows2, p0⟩] S10000x64.size (by rfl) y
theorem cover2_6 (p0 : Vec F S10000x1 .f32) (y : S10000x1.Idx) :
    ∃ pc ∈ ([⟨scores2, p0⟩] : List (View.Piece (Elt F) S10000x1 .f32)), y ∈ pc.1.set :=
  View.cover_of_tiled [⟨scores2, p0⟩] S10000x1.size (by rfl) y

/-! ## The body's run -/

set_option maxHeartbeats 1000000 in
/-- On whole buffers, the five inputs' at contents `x0 … x4` and the outputs' at anything, the body runs to its end
    with the inputs' buffers as they were and the outputs' at `out2_5 x0 x1 x2` and `out2_6 x0 x1 x2 x3 x4`. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S10000x64 .f32) (harg6 : arg6.IsWhole) (arg7 : Memref sig .tc .vmem S10000x1 .f32) (harg7 : arg7.IsWhole)
    (x0 : Vec F S10000x64 .f32) (x1 : Vec F S64x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2) ∗ owns (c : Thread nD τ) arg7 fullShare (out2_6 x0 x1 x2 x3 x4)) -∗ K ⟨⟩))
      ⊢ wp frame (wpE (defs₀ (F := F)) Variants.none c none) E (cc2__layer3_head_kernel i arg1 harg1 arg2 harg2 arg3 harg3 arg4 harg4 arg5 harg5 arg6 harg6 arg7 harg7) K := by
  simp only [cc2__layer3_head_kernel_eq_skeleton]; unfold cc2__layer3_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The pipeline's proof data -/

/-- The arrays as the region finds them; after the body at point `t` each input's buffer at its block and the
    outputs' at `out2_5`, `out2_6` of the input blocks; between points the scoped rest and the generator register at
    anything; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the run applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealMean.lean ====
/-
  The mean over the nodes as a region of the program, at any contents `V` the region is entered from.

  The region walks the 100000 rows in ten blocks of 10000 and keeps a 1×64 running row in a scratch buffer of its own.
  At the first block it sets the running row to zero; at every block it adds to it the block's column sums; at the
  last block it also stores the running row times a constant into the output's buffer, which the pipeline writes back
  only then (at the other blocks the output's buffer is handed back untouched). So the body has three cases — the
  first block, a middle block, the last block — and what the scratch holds after block n is the case's value of the
  block and, from the second block on, of what it held after block n − 1 (`outsAt3`).

  Between blocks the region therefore holds more than a region that carries nothing: before the first block the
  kernel's scoped buffers at anything and the generator register at some state; after block n the scratch at
  `outsAt3`'s contents, every other scoped buffer at anything, and the register (`PhiS3`).

  Here: the blocks, the three runs, the proof data of the pipeline library and its body obligation, and that the
  invariant starts from and returns to the plain one — for every float interpretation at once.
-/
import proofs.«177146_j56882546868897_1_alg».proof.Proof.Gen.KernelIdeal.Launch
import proofs.«177146_j56882546868897_1_alg».proof.Proof.Gen.KernelIdeal.Skeleton
import proofs.«177146_j56882546868897_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current buffer holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, over the grid -/

/-- "This is the first block", as the body computes it from the grid coordinate. -/
abbrev atFirst (i : grid3.Coords) : Prop := (Scalar.cmpi .ne (Scalar.extui (Scalar.cmpi .eq (BitVec.ofNat 32 (i 0).val) 0#32)) 0#32) = 1#1
theorem atFirst_iff : ∀ t : Fin cfg3.N, atFirst (grid3.coords t) ↔ t.val = 0 :=
  (by decide +kernel : ∀ t : Fin grid3.N, atFirst (grid3.coords t) ↔ t.val = 0)

/-- "This is the last block". -/
abbrev atLast (i : grid3.Coords) : Prop := k3_cond2 i = 1#1
theorem atLast_iff : ∀ t : Fin cfg3.N, atLast (grid3.coords t) ↔ t.val = 9 :=
  (by decide +kernel : ∀ t : Fin grid3.N, atLast (grid3.coords t) ↔ t.val = 9)

/-! ## Where the windows are idle -/

/-- The input window is never idle. -/
theorem live3_0 : ∀ t : Fin cfg3.N, cfg3.idle 0 (grid3.coords t) = false := by decide +kernel
/-- Before the last block the output window is idle and is not written back. -/
theorem idle3_1 : ∀ t : Fin cfg3.N, ¬atLast (grid3.coords t) → cfg3.idle 1 (grid3.coords t) = true := by decide +kernel
theorem noFlush3_1 : ∀ t : Fin cfg3.N, ¬atLast (grid3.coords t) → (cfg3.win 1).flush t = false := by decide +kernel
/-- At the last block it is live. -/
theorem live3_1 : ∀ t : Fin cfg3.N, atLast (grid3.coords t) → cfg3.idle 1 (grid3.coords t) = false := by decide +kernel

/-! ## The buffers the body is called with -/

/-- One staging buffer of the output window, through which its contents are stated. -/
abbrev VO3 : View sig .tc .vmem S1x64 .f32 := (Memref.whole cc3_stg1_0 : Memref sig .tc .vmem S1x64 .f32).view
/-- Each window's current staging memref at point `t`, as the pipeline passes it, and its wholeness. -/
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
/-- The scratch buffer that holds the running row, as a memref and as a view. -/
abbrev scM3 : Memref sig .tc .vmem S1x64 .f32 := Memref.whole cc3_scratch0
abbrev VS3 : View sig .tc .vmem S1x64 .f32 := scM3.view

/-- Every scoped buffer of the core that is neither a staging buffer of this region nor its scratch, at anything. -/
abbrev others3 (c : Dev nD) : sProp 𝕄 :=
  Pipeline.scopedRestBut (Ix := Unit) (Name := ℕ) (U := UR sig nD τ) (Lvl := ℕ) (Val := Elt F) spec3 c [cc3_scratch0]

/-- The plain invariant with the scratch taken out of the scoped rest. -/
theorem PhiA3_eq (c : Dev nD) :
    (Pipeline.ΦA spec3 c : sProp 𝕄)
      = iprop(iprop((∃ d, owns (c : Thread nD τ) scM3 fullShare d) ∗ others3 c) ∗ (∃ r, prngReg c r)) := by
  unfold Pipeline.ΦA
  rw [Pipeline.scopedRest_split_of_list spec3 c [cc3_scratch0] (by decide) (by decide)]
  simp only [scM3, owns_whole, bigSepL]
  try rfl

/-! ## The body's three runs -/

set_option maxHeartbeats 1000000 in
/-- THE FIRST BLOCK. What the body's stores leave in the scratch, as pieces (last first), with the proof that on whole
    buffers — the input's at `x0`, the output's at `xi1` (handed back untouched), the scratch at anything — the body
    runs to its end with the input's and the output's buffers as they were and the scratch with those pieces written. -/
noncomputable def meanRunFirst (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : atFirst i) (hc1 : ¬atLast i)
    (x0 : Vec F S10000x64 .f32) :
    { LS : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS)) -∗ K ⟨⟩))
          ⊢ wp frame (wpE (defs₀ (F := F)) Variants.none c none) E (cc3__mean_pool_kernel i arg1 harg1 arg2 harg2 arg3 harg3) K } := by
  refine ⟨?_, fun xi1 E K => ?run⟩
  case run =>
    simp only [cc3__mean_pool_kernel_eq_skeleton]; unfold cc3__mean_pool_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE BLOCK: as the first, the scratch found at `xs0` (what the block before left). -/
noncomputable def meanRunMid (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : ¬atLast i)
    (x0 : Vec F S10000x64 .f32) (xs0 : Vec F S1x64 .f32) :
    { LS : List (View.Piece (Elt F) S1x64 .f32) //
      ∀ (xi1 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS)) -∗ K ⟨⟩))
          ⊢ wp frame (wpE (defs₀ (F := F)) Variants.none c none) E (cc3__mean_pool_kernel i arg1 harg1 arg2 harg2 arg3 harg3) K } := by
  refine ⟨?_, fun xi1 E K => ?run⟩
  case run =>
    simp only [cc3__mean_pool_kernel_eq_skeleton]; unfold cc3__mean_pool_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- THE LAST BLOCK: the scratch found at `xs0`, the output's buffer at anything and left with its pieces written too. -/
noncomputable def meanRunLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i)
    (x0 : Vec F S10000x64 .f32) (xs0 : Vec F S1x64 .f32) :
    Σ' (L1 : List (View.Piece (Elt F) S1x64 .f32)), { LS : List (View.Piece (Elt F) S1x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS)) -∗ K ⟨⟩))
          ⊢ wp frame (wpE (defs₀ (F := F)) Variants.none c none) E (cc3__mean_pool_kernel i arg1 harg1 arg2 harg2 arg3 harg3) K } := by
  refine ⟨?_, ?_, fun E K => ?run⟩
  case run =>
    simp only [cc3__mean_pool_kernel_eq_skeleton]; unfold cc3__mean_pool_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

/-! ## What each case leaves -/

/-- The first block's pieces cover the scratch. -/
theorem scoverFirst (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : atFirst i) (hc1 : ¬atLast i) (x0 : Vec F S10000x64 .f32) (y : S1x64.Idx) :
    ∃ pc ∈ (meanRunFirst c i arg1 harg1 arg2 harg2 arg3 harg3 hc0 hc1 x0).1, y ∈ pc.1.set :=
  View.cover_of_tiledL (meanRunFirst c i arg1 harg1 arg2 harg2 arg3 harg3 hc0 hc1 x0).1 S1x64.size (by sl_kernel_rfl) y
/-- What the first block leaves in the scratch: its pieces read back. -/
def sFirst (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : atFirst i) (hc1 : ¬atLast i) (x0 : Vec F S10000x64 .f32) : Vec F S1x64 .f32 :=
  VS3.read (Elt F) (VS3.writes (Elt F) VS3.junk (meanRunFirst c i arg1 harg1 arg2 harg2 arg3 harg3 hc0 hc1 x0).1)

theorem scoverMid (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : ¬atLast i) (x0 : Vec F S10000x64 .f32) (xs0 : Vec F S1x64 .f32) (y : S1x64.Idx) :
    ∃ pc ∈ (meanRunMid c i arg1 harg1 arg2 harg2 arg3 harg3 hc0 hc1 x0 xs0).1, y ∈ pc.1.set :=
  View.cover_of_tiledL (meanRunMid c i arg1 harg1 arg2 harg2 arg3 harg3 hc0 hc1 x0 xs0).1 S1x64.size (by sl_kernel_rfl) y
/-- What a middle block leaves in the scratch. -/
def sMid (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : ¬atLast i) (x0 : Vec F S10000x64 .f32) (xs0 : Vec F S1x64 .f32) : Vec F S1x64 .f32 :=
  VS3.read (Elt F) (VS3.writes (Elt F) VS3.junk (meanRunMid c i arg1 harg1 arg2 harg2 arg3 harg3 hc0 hc1 x0 xs0).1)

theorem coverLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i) (x0 : Vec F S10000x64 .f32) (xs0 : Vec F S1x64 .f32) (y : S1x64.Idx) :
    ∃ pc ∈ (meanRunLast c i arg1 harg1 arg2 harg2 arg3 harg3 hc0 hc1 x0 xs0).1, y ∈ pc.1.set :=
  View.cover_of_tiledL (meanRunLast c i arg1 harg1 arg2 harg2 arg3 harg3 hc0 hc1 x0 xs0).1 S1x64.size (by sl_kernel_rfl) y
/-- What the last block leaves in the output's buffer. -/
def oLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i) (x0 : Vec F S10000x64 .f32) (xs0 : Vec F S1x64 .f32) : Vec F S1x64 .f32 :=
  VO3.read (Elt F) (VO3.writes (Elt F) VO3.junk (meanRunLast c i arg1 harg1 arg2 harg2 arg3 harg3 hc0 hc1 x0 xs0).1)
theorem scoverLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i) (x0 : Vec F S10000x64 .f32) (xs0 : Vec F S1x64 .f32) (y : S1x64.Idx) :
    ∃ pc ∈ (meanRunLast c i arg1 harg1 arg2 harg2 arg3 harg3 hc0 hc1 x0 xs0).2.1, y ∈ pc.1.set :=
  View.cover_of_tiledL (meanRunLast c i arg1 harg1 arg2 harg2 arg3 harg3 hc0 hc1 x0 xs0).2.1 S1x64.size (by sl_kernel_rfl) y
/-- What the last block leaves in the scratch. -/
def sLast (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i) (x0 : Vec F S10000x64 .f32) (xs0 : Vec F S1x64 .f32) : Vec F S1x64 .f32 :=
  VS3.read (Elt F) (VS3.writes (Elt F) VS3.junk (meanRunLast c i arg1 harg1 arg2 harg2 arg3 harg3 hc0 hc1 x0 xs0).2.1)

/-! ## What the output's buffer and the scratch hold after each point -/

/-- After the body at position `n`: (the output's buffer, the scratch). The output's component means something at the
    last point only; before it the window is idle and nothing reads the placeholder. -/
def outsAt3 (c : Dev nD) : (n : ℕ) → n < cfg3.N → Vec F S1x64 .f32 × Vec F S1x64 .f32
  | 0, hn => (VO3.read (Elt F) VO3.junk,
      sFirst c (grid3.coords ⟨0, hn⟩) (ms3_0 ⟨0, hn⟩) (hs3_0 ⟨0, hn⟩) (ms3_1 ⟨0, hn⟩) (hs3_1 ⟨0, hn⟩) scM3 (Memref.isWhole_whole _) ((atFirst_iff ⟨0, hn⟩).mpr rfl) (fun h => absurd ((atLast_iff ⟨0, hn⟩).mp h) (show ¬(0 : ℕ) = 9 by decide)) (iblk3 V c 0 ⟨0, hn⟩))
  | n + 1, hn =>
    if h9 : n + 1 = 9 then
      (oLast c (grid3.coords ⟨n + 1, hn⟩) (ms3_0 ⟨n + 1, hn⟩) (hs3_0 ⟨n + 1, hn⟩) (ms3_1 ⟨n + 1, hn⟩) (hs3_1 ⟨n + 1, hn⟩) scM3 (Memref.isWhole_whole _) (fun h => Nat.succ_ne_zero n ((atFirst_iff ⟨n + 1, hn⟩).mp h)) ((atLast_iff ⟨n + 1, hn⟩).mpr h9) (iblk3 V c 0 ⟨n + 1, hn⟩) (outsAt3 c n (Nat.lt_of_succ_lt hn)).2,
       sLast c (grid3.coords ⟨n + 1, hn⟩) (ms3_0 ⟨n + 1, hn⟩) (hs3_0 ⟨n + 1, hn⟩) (ms3_1 ⟨n + 1, hn⟩) (hs3_1 ⟨n + 1, hn⟩) scM3 (Memref.isWhole_whole _) (fun h => Nat.succ_ne_zero n ((atFirst_iff ⟨n + 1, hn⟩).mp h)) ((atLast_iff ⟨n + 1, hn⟩).mpr h9) (iblk3 V c 0 ⟨n + 1, hn⟩) (outsAt3 c n (Nat.lt_of_succ_lt hn)).2)
    else
      (VO3.read (Elt F) VO3.junk,
       sMid c (grid3.coords ⟨n + 1, hn⟩) (ms3_0 ⟨n + 1, hn⟩) (hs3_0 ⟨n + 1, hn⟩) (ms3_1 ⟨n + 1, hn⟩) (hs3_1 ⟨n + 1, hn⟩) scM3 (Memref.isWhole_whole _) (fun h => Nat.succ_ne_zero n ((atFirst_iff ⟨n + 1, hn⟩).mp h)) (fun h => h9 ((atLast_iff ⟨n + 1, hn⟩).mp h)) (iblk3 V c 0 ⟨n + 1, hn⟩) (outsAt3 c n (Nat.lt_of_succ_lt hn)).2)

theorem outsAt3_first (c : Dev nD) (t : Fin cfg3.N) (h0 : t.val = 0) (h9 : ¬t.val = 9) :
    outsAt3 V c t.val t.isLt = (VO3.read (Elt F) VO3.junk,
      sFirst c (grid3.coords t) (ms3_0 t) (hs3_0 t) (ms3_1 t) (hs3_1 t) scM3 (Memref.isWhole_whole _) ((atFirst_iff t).mpr h0) (fun h => h9 ((atLast_iff t).mp h)) (iblk3 V c 0 t)) := by
  obtain ⟨n, hn⟩ := t
  cases n with
  | zero => exact rfl
  | succ n => exact absurd h0 (Nat.succ_ne_zero n)

theorem outsAt3_mid (c : Dev nD) (t : Fin cfg3.N) (h0 : ¬t.val = 0) (h9 : ¬t.val = 9) :
    outsAt3 V c t.val t.isLt = (VO3.read (Elt F) VO3.junk,
      sMid c (grid3.coords t) (ms3_0 t) (hs3_0 t) (ms3_1 t) (hs3_1 t) scM3 (Memref.isWhole_whole _) (fun h => h0 ((atFirst_iff t).mp h)) (fun h => h9 ((atLast_iff t).mp h)) (iblk3 V c 0 t)
        (outsAt3 V c (t.val - 1) (Nat.lt_of_le_of_lt (Nat.sub_le _ _) t.isLt)).2) := by
  obtain ⟨n, hn⟩ := t
  cases n with
  | zero => exact absurd rfl h0
  | succ n => exact (dif_neg h9).trans rfl

theorem outsAt3_last (c : Dev nD) (t : Fin cfg3.N) (h0 : ¬t.val = 0) (h9 : t.val = 9) :
    outsAt3 V c t.val t.isLt =
      (oLast c (grid3.coords t) (ms3_0 t) (hs3_0 t) (ms3_1 t) (hs3_1 t) scM3 (Memref.isWhole_whole _) (fun h => h0 ((atFirst_iff t).mp h)) ((atLast_iff t).mpr h9) (iblk3 V c 0 t)
        (outsAt3 V c (t.val - 1) (Nat.lt_of_le_of_lt (Nat.sub_le _ _) t.isLt)).2,
       sLast c (grid3.coords t) (ms3_0 t) (hs3_0 t) (ms3_1 t) (hs3_1 t) scM3 (Memref.isWhole_whole _) (fun h => h0 ((atFirst_iff t).mp h)) ((atLast_iff t).mpr h9) (iblk3 V c 0 t)
        (outsAt3 V c (t.val - 1) (Nat.lt_of_le_of_lt (Nat.sub_le _ _) t.isLt)).2) := by
  obtain ⟨n, hn⟩ := t
  cases n with
  | zero => exact absurd rfl h0
  | succ n => exact (dif_pos h9).trans rfl

/-! ## The invariant between points -/

/-- Before the first point: the kernel's scoped buffers at anything and the generator register at some state. After
    point `n`: the scratch at what that point left, the other scoped buffers at anything, and the register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ others3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ others3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ others3 c) ∗ (∃ r, prngReg c r)) := by
  cases n with
  | zero => exact absurd rfl hz
  | succ n => rfl

/-! ## The pipeline's proof data -/

/-- The arrays as the region finds them; after the body at point `t` the input's buffer at its block and the output's
    at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4800000 in
/-- The body at any point. The input's buffer holds its block; the point's position says which case it is in; the
    invariant hands the body the scratch (at anything at the first point, at what the point before left afterwards)
    and takes it back at this point's contents, the other scoped buffers and the register passing through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (ms3_0 t) fullShare ((dat3 V c).after 0 t) from by
    unfold Dat.leavesExact; rw [live3_0 t], after3_0]
  by_cases h0 : t.val = 0
  · have h9 : ¬t.val = 9 := by omega
    rw [Dat.leavesExact_idle (dat3 V c) 1 t (idle3_1 t (fun h => h9 ((atLast_iff t).mp h))) (noFlush3_1 t (fun h => h9 ((atLast_iff t).mp h)))]
    rw [outsAt3_first V c t h0 h9]
    unfold sFirst; (try dsimp only)
    rw [PhiS3_castSucc V c t, PhiS3_zero V c _ _ h0, PhiA3_eq]
    iintro ⟨⟨⟨HS, Hrest⟩, Hg⟩, Ho, ⟨%d0, H0⟩, ⟨%d1, H1⟩⟩
    iapply ((meanRunFirst c (grid3.coords t) _ _ _ _ _ _ ((atFirst_iff t).mpr h0) (fun h => h9 ((atLast_iff t).mp h)) (iblk3 V c 0 t)).2 _ Set.univ _)
    isplitl [H0]; · iexact H0
    isplitl [H1]; · iexact H1
    isplitl [HS]; · iexact HS
    iintro ⟨H0, H1, ⟨%es, HS⟩⟩
    isplitl [HS Hrest Hg]
    · isplitl [HS Hrest]
      · isplitl [HS]
        · unfold owns; iexists _; isplitr
          swap; · iexact HS
          ipureintro; exact View.read_writes_of_cover _ _ _ _ _ (scoverFirst c _ _ _ _ _ _ _ _ _ _)
        iexact Hrest
      iexact Hg
    isplitl [Ho]; · iexact Ho
    isplitl [H0]; · iexact H0
    iexists _; iexact H1
  · by_cases h9 : t.val = 9
    · rw [show (dat3 V c).leavesExact 1 t = owns (c : Thread nD τ) (ms3_1 t) fullShare ((dat3 V c).after 1 t) from by
        unfold Dat.leavesExact; rw [live3_1 t ((atLast_iff t).mpr h9)], after3_1]
      rw [outsAt3_last V c t h0 h9]
      unfold oLast sLast; (try dsimp only)
      rw [PhiS3_castSucc V c t, PhiS3_pos V c _ _ h0]
      iintro ⟨⟨⟨HS, Hrest⟩, Hg⟩, Ho, ⟨%d0, H0⟩, ⟨%d1, H1⟩⟩
      iapply ((meanRunLast c (grid3.coords t) _ _ _ _ _ _ (fun h => h0 ((atFirst_iff t).mp h)) ((atLast_iff t).mpr h9) (iblk3 V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverLast c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (coverLast c _ _ _ _ _ _ _ _ _ _ _)
    · rw [Dat.leavesExact_idle (dat3 V c) 1 t (idle3_1 t (fun h => h9 ((atLast_iff t).mp h))) (noFlush3_1 t (fun h => h9 ((atLast_iff t).mp h)))]
      rw [outsAt3_mid V c t h0 h9]
      unfold sMid; (try dsimp only)
      rw [PhiS3_castSucc V c t, PhiS3_pos V c _ _ h0]
      iintro ⟨⟨⟨HS, Hrest⟩, Hg⟩, Ho, ⟨%d0, H0⟩, ⟨%d1, H1⟩⟩
      iapply ((meanRunMid c (grid3.coords t) _ _ _ _ _ _ (fun h => h0 ((atFirst_iff t).mp h)) (fun h => h9 ((atLast_iff t).mp h)) (iblk3 V c 0 t) _).2 _ Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scoverMid c _ _ _ _ _ _ _ _ _ _ _)
          iexact Hrest
        iexact Hg
      isplitl [Ho]; · iexact Ho
      isplitl [H0]; · iexact H0
      iexists _; iexact H1

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant starts from and returns to the plain one -/

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 10 := N_3; omega), PhiA3_eq]
  iintro ⟨⟨HS, Hrest⟩, Hg⟩
  isplitl [HS Hrest]
  · isplitl [HS]
    · iexists _; iexact HS
    iexact Hrest
  iexact Hg

end Cert.KernelIdeal.Hand

end
-- ==== Proof.IdealRun.lean ====
/-
  The whole program as a run: four regions among stretches of host operations.

  The contents of the TensorCore's unscoped buffers are named at every boundary, as a fold from the launch memory: a
  host stretch applies its operations (`StableHlo.after`); a region leaves its windows' arrays at what its write-backs
  make of them and every other buffer as it found it (`withArrays`). Each region's proof data is stated at the
  contents it is entered from, and each region is a segment over the thread state "every unscoped buffer at the
  boundary's contents, the generator register at some state, nothing owed". The library's launch theorem for a list
  of segments then gives: every weakly fair execution terminates, nothing faults, and every unscoped buffer ends
  at the last boundary's contents `W8` (`run`).

  From it: a buffer that no host operation writes and no region has as an output ends as launched (`W8_kept`), which
  is the frame claim for the fifteen argument arrays (`frame`). For every float interpretation at once.
-/
import proofs.«177146_j56882546868897_1_alg».proof.Proof.IdealLayer1
import proofs.«177146_j56882546868897_1_alg».proof.Proof.IdealLayer2
import proofs.«177146_j56882546868897_1_alg».proof.Proof.IdealLayer3
import proofs.«177146_j56882546868897_1_alg».proof.Proof.IdealMean
import proofs.«177146_j56882546868897_1_alg».proof.Proof.Gen.KernelIdeal.Regions

-- membership in a rectangle of the blocks' extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev at1 : (c : Dev nD) → (b : Ref sig .tc) → Buf (Elt F) ((c : Thread nD τ).loc b) := fun c b => W1 m ρ c b
/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (at1 m ρ) c).arrAt w cfg0.N
theorem W2_arr (c : Dev nD) (w : Fin cfg0.W) :
    W2 m ρ c (Proc.devRef .tc (Pipeline.arrRef spec0 w)) = (dat0 (at1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev at2 : (c : Dev nD) → (b : Ref sig .tc) → Buf (Elt F) ((c : Thread nD τ).loc b) := fun c b => W2 m ρ c b
theorem hF0 (c : Dev nD) (w : Fin cfg0.W) : (dat0 (at1 m ρ) c).arrAt w cfg0.N = at2 m ρ c (Pipeline.arrRef spec0 w) :=
  (W2_arr m ρ c w).symm
theorem hrest0 (c : Dev nD) : ∀ b, b ∉ Finset.univ.image (Pipeline.arrRef spec0) → at2 m ρ c b = at1 m ρ c b :=
  fun b hb => W2_of_ne m ρ c b fun w e => hb (Finset.mem_image.mpr ⟨w, Finset.mem_univ _, e⟩)
/-- After the second host stretch (region 1's entry). -/
abbrev W3 : Dev nD → Valuation τ sig (Elt F) := fun c => StableHlo.after hostOps1 (W2 m ρ c)
abbrev at3 : (c : Dev nD) → (b : Ref sig .tc) → Buf (Elt F) ((c : Thread nD τ).loc b) := fun c b => W3 m ρ c b
/-- At region 1's exit: its arrays at what the pipeline leaves (the inputs as entered, each output's write-backs folded),
    every other buffer as entered. -/
def W4 (c : Dev nD) : Valuation τ sig (Elt F) :=
  Pipeline.withArrays spec1 c (W3 m ρ c) fun w => (dat1 (at3 m ρ) c).arrAt w cfg1.N
theorem W4_arr (c : Dev nD) (w : Fin cfg1.W) :
    W4 m ρ c (Proc.devRef .tc (Pipeline.arrRef spec1 w)) = (dat1 (at3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev at4 : (c : Dev nD) → (b : Ref sig .tc) → Buf (Elt F) ((c : Thread nD τ).loc b) := fun c b => W4 m ρ c b
theorem hF1 (c : Dev nD) (w : Fin cfg1.W) : (dat1 (at3 m ρ) c).arrAt w cfg1.N = at4 m ρ c (Pipeline.arrRef spec1 w) :=
  (W4_arr m ρ c w).symm
theorem hrest1 (c : Dev nD) : ∀ b, b ∉ Finset.univ.image (Pipeline.arrRef spec1) → at4 m ρ c b = at3 m ρ c b :=
  fun b hb => W4_of_ne m ρ c b fun w e => hb (Finset.mem_image.mpr ⟨w, Finset.mem_univ _, e⟩)
/-- After the third host stretch (region 2's entry). -/
abbrev W5 : Dev nD → Valuation τ sig (Elt F) := fun c => StableHlo.after hostOps2 (W4 m ρ c)
abbrev at5 : (c : Dev nD) → (b : Ref sig .tc) → Buf (Elt F) ((c : Thread nD τ).loc b) := fun c b => W5 m ρ c b
/-- At region 2's exit: its arrays at what the pipeline leaves (the inputs as entered, each output's write-backs folded),
    every other buffer as entered. -/
def W6 (c : Dev nD) : Valuation τ sig (Elt F) :=
  Pipeline.withArrays spec2 c (W5 m ρ c) fun w => (dat2 (at5 m ρ) c).arrAt w cfg2.N
theorem W6_arr (c : Dev nD) (w : Fin cfg2.W) :
    W6 m ρ c (Proc.devRef .tc (Pipeline.arrRef spec2 w)) = (dat2 (at5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev at6 : (c : Dev nD) → (b : Ref sig .tc) → Buf (Elt F) ((c : Thread nD τ).loc b) := fun c b => W6 m ρ c b
theorem hF2 (c : Dev nD) (w : Fin cfg2.W) : (dat2 (at5 m ρ) c).arrAt w cfg2.N = at6 m ρ c (Pipeline.arrRef spec2 w) :=
  (W6_arr m ρ c w).symm
theorem hrest2 (c : Dev nD) : ∀ b, b ∉ Finset.univ.image (Pipeline.arrRef spec2) → at6 m ρ c b = at5 m ρ c b :=
  fun b hb => W6_of_ne m ρ c b fun w e => hb (Finset.mem_image.mpr ⟨w, Finset.mem_univ _, e⟩)
/-- At region 3's exit: its arrays at what the pipeline leaves (the inputs as entered, each output's write-backs folded),
    every other buffer as entered. -/
def W7 (c : Dev nD) : Valuation τ sig (Elt F) :=
  Pipeline.withArrays spec3 c (W6 m ρ c) fun w => (dat3 (at6 m ρ) c).arrAt w cfg3.N
theorem W7_arr (c : Dev nD) (w : Fin cfg3.W) :
    W7 m ρ c (Proc.devRef .tc (Pipeline.arrRef spec3 w)) = (dat3 (at6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev at7 : (c : Dev nD) → (b : Ref sig .tc) → Buf (Elt F) ((c : Thread nD τ).loc b) := fun c b => W7 m ρ c b
theorem hF3 (c : Dev nD) (w : Fin cfg3.W) : (dat3 (at6 m ρ) c).arrAt w cfg3.N = at7 m ρ c (Pipeline.arrRef spec3 w) :=
  (W7_arr m ρ c w).symm
theorem hrest3 (c : Dev nD) : ∀ b, b ∉ Finset.univ.image (Pipeline.arrRef spec3) → at7 m ρ c b = at6 m ρ c b :=
  fun b hb => W7_of_ne m ρ c b fun w e => hb (Finset.mem_image.mpr ⟨w, Finset.mem_univ _, e⟩)
/-- After the last host stretch: the contents the program ends with. -/
abbrev W8 : Dev nD → Valuation τ sig (Elt F) := fun c => StableHlo.after hostOps4 (W7 m ρ c)

/-! ## What each item leaves unchanged -/

/-- Region 0 changes only what it writes: an input window's array ends as entered, and so does every buffer that
    is no window's array. -/
theorem W2_keep (c : Dev nD) (b : Ref sig .tc) (hb : b ≠ main_v11) :
    W2 m ρ c (Proc.devRef .tc b) = W1 m ρ c (Proc.devRef .tc b) := by
  by_cases h : ∃ w, Pipeline.arrRef spec0 w = b
  · obtain ⟨w, rfl⟩ := h
    rw [W2_arr]
    fin_cases w
    · exact ((dat0 (at1 m ρ) c).arrAt_in 0 rfl _).trans (A_eq0 (at1 m ρ) c 0)
    · exact ((dat0 (at1 m ρ) c).arrAt_in 1 rfl _).trans (A_eq0 (at1 m ρ) c 1)
    · exact ((dat0 (at1 m ρ) c).arrAt_in 2 rfl _).trans (A_eq0 (at1 m ρ) c 2)
    · exact absurd rfl hb
  · exact W2_of_ne m ρ c b fun w e => h ⟨w, e⟩
/-- Region 1 changes only what it writes: an input window's array ends as entered, and so does every buffer that
    is no window's array. -/
theorem W4_keep (c : Dev nD) (b : Ref sig .tc) (hb : b ≠ main_v23) :
    W4 m ρ c (Proc.devRef .tc b) = W3 m ρ c (Proc.devRef .tc b) := by
  by_cases h : ∃ w, Pipeline.arrRef spec1 w = b
  · obtain ⟨w, rfl⟩ := h
    rw [W4_arr]
    fin_cases w
    · exact ((dat1 (at3 m ρ) c).arrAt_in 0 rfl _).trans (A_eq1 (at3 m ρ) c 0)
    · exact ((dat1 (at3 m ρ) c).arrAt_in 1 rfl _).trans (A_eq1 (at3 m ρ) c 1)
    · exact ((dat1 (at3 m ρ) c).arrAt_in 2 rfl _).trans (A_eq1 (at3 m ρ) c 2)
    · exact absurd rfl hb
  · exact W4_of_ne m ρ c b fun w e => h ⟨w, e⟩
/-- Region 2 changes only what it writes: an input window's array ends as entered, and so does every buffer that
    is no window's array. -/
theorem W6_keep (c : Dev nD) (b : Ref sig .tc) (hb1 : b ≠ main_v36_0) (hb2 : b ≠ main_v36_1) :
    W6 m ρ c (Proc.devRef .tc b) = W5 m ρ c (Proc.devRef .tc b) := by
  by_cases h : ∃ w, Pipeline.arrRef spec2 w = b
  · obtain ⟨w, rfl⟩ := h
    rw [W6_arr]
    fin_cases w
    · exact ((dat2 (at5 m ρ) c).arrAt_in 0 rfl _).trans (A_eq2 (at5 m ρ) c 0)
    · exact ((dat2 (at5 m ρ) c).arrAt_in 1 rfl _).trans (A_eq2 (at5 m ρ) c 1)
    · exact ((dat2 (at5 m ρ) c).arrAt_in 2 rfl _).trans (A_eq2 (at5 m ρ) c 2)
    · exact ((dat2 (at5 m ρ) c).arrAt_in 3 rfl _).trans (A_eq2 (at5 m ρ) c 3)
    · exact ((dat2 (at5 m ρ) c).arrAt_in 4 rfl _).trans (A_eq2 (at5 m ρ) c 4)
    · exact absurd rfl hb1
    · exact absurd rfl hb2
  · exact W6_of_ne m ρ c b fun w e => h ⟨w, e⟩
/-- Region 3 changes only what it writes: an input window's array ends as entered, and so does every buffer that
    is no window's array. -/
theorem W7_keep (c : Dev nD) (b : Ref sig .tc) (hb : b ≠ main_v37) :
    W7 m ρ c (Proc.devRef .tc b) = W6 m ρ c (Proc.devRef .tc b) := by
  by_cases h : ∃ w, Pipeline.arrRef spec3 w = b
  · obtain ⟨w, rfl⟩ := h
    rw [W7_arr]
    fin_cases w
    · exact ((dat3 (at6 m ρ) c).arrAt_in 0 rfl _).trans (A_eq3 (at6 m ρ) c 0)
    · exact absurd rfl hb
  · exact W7_of_ne m ρ c b fun w e => h ⟨w, e⟩

/-- A buffer that no host stretch writes and no region has as an output ends as launched. -/
theorem W8_kept (c : Dev nD) (b : Ref sig .tc) (h0 : b ∉ hostOps0_W) (h1 : b ∉ hostOps1_W) (h2 : b ∉ hostOps2_W) (h4 : b ∉ hostOps4_W)
    (hr : b ≠ main_v11 ∧ b ≠ main_v23 ∧ b ≠ main_v36_0 ∧ b ≠ main_v36_1 ∧ b ≠ main_v37) :
    W8 m ρ c (Proc.devRef .tc b) = m ((c : Thread nD τ).loc b) :=
  calc W8 m ρ c (Proc.devRef .tc b)
    _ = W7 m ρ c (Proc.devRef .tc b) := StableHlo.after_of_writes_sub hostOps4 _ hostOps4_writes h4
    _ = W6 m ρ c (Proc.devRef .tc b) := W7_keep m ρ c b hr.2.2.2.2
    _ = W5 m ρ c (Proc.devRef .tc b) := W6_keep m ρ c b hr.2.2.1 hr.2.2.2.1
    _ = W4 m ρ c (Proc.devRef .tc b) := StableHlo.after_of_writes_sub hostOps2 _ hostOps2_writes h2
    _ = W3 m ρ c (Proc.devRef .tc b) := W4_keep m ρ c b hr.2.1
    _ = W2 m ρ c (Proc.devRef .tc b) := StableHlo.after_of_writes_sub hostOps1 _ hostOps1_writes h1
    _ = W1 m ρ c (Proc.devRef .tc b) := W2_keep m ρ c b hr.1
    _ = W0 m ρ c (Proc.devRef .tc b) := StableHlo.after_of_writes_sub hostOps0 _ hostOps0_writes h0
    _ = m ((c : Thread nD τ).loc b) := rfl

/-! ## The proof data family and the thread state -/

/-- Every pipeline's proof data, each at its region's entry contents — a literal match, so that the library's pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (at1 m ρ) c
  | ⟨1, _⟩ => fun c => dat1 (at3 m ρ) c
  | ⟨2, _⟩ => fun c => dat2 (at5 m ρ) c
  | ⟨3, _⟩ => fun c => dat3 (at6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W8`, the register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold plain
-- definitions in a metavariable's type
set_option backward.isDefEq.respectTransparency.types false in
/-- Region 0 over the thread state: entered from every unscoped buffer at `W1`, left at `W2`. Its arrays are split
    out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (at1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (at1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (at1 m ρ c) (at2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered from every unscoped buffer at `W3`, left at `W4`. Its arrays are split
    out of the unscoped buffers and put back at the exit contents; the generator register goes into the invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (at3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (at3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (at3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (at3 m ρ c) (at4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered from every unscoped buffer at `W5`, left at `W6`. Its arrays are split
    out of the unscoped buffers and put back at the exit contents; the generator register goes into the invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (at5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (at5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (at5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (at5 m ρ c) (at6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 3 over the thread state: entered from every unscoped buffer at `W6`, left at `W7`. Its arrays are split
    out of the unscoped buffers and put back at the exit contents; the generator register goes into the invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (at6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (at6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (at6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec3 c from by
      unfold Pipeline.ΦA
      iintro ⟨Hp, -, Hr⟩
      isplitl [Hr]; · iexact Hr
      iexact Hp).trans (hin3 (at6 m ρ) c)
  hout c := by
    rw [Pipeline.ownSems0_none]
    exact (hout3 (at6 m ρ) c).trans (show Pipeline.ΦA spec3 c ⊢ _ from by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (at6 m ρ c) (at7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's eight items in order. -/
abbrev items : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)) ]
/-- The program is the run of those items. -/
theorem main_run (c : Dev nD) : main (F := F) c = Pipeline.Seg.run (items m ρ) := (main_chain c).trans (by chain_rfl)

-- the launch theorem's implicit arguments are found by unifying its conclusion with this one, which takes unfolding plain
-- definitions in a metavariable's type
set_option backward.isDefEq.respectTransparency.types false in
/-- THE RUN. From any memory with zero counters every weakly fair execution of the program terminates, nothing faults,
    and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-! ## The frame claim -/

/-- An argument array's buffer, read off the run's end. -/
theorem arg_kept {r : PUnit × MemSt nD τ sig (Elt F)} (h : ∀ c : Dev nD, ∀ b ∈ Pipeline.ucRefs τ sig, r.2.mem (((c : Thread nD τ)).1, b) = W8 m ρ c b)
    (c : Dev nD) (b : Ref sig .tc) (hu : ¬ (Proc.devRef .tc b : DevRef τ sig).isScoped)
    (h0 : b ∉ hostOps0_W) (h1 : b ∉ hostOps1_W) (h2 : b ∉ hostOps2_W) (h4 : b ∉ hostOps4_W)
    (hr : b ≠ main_v11 ∧ b ≠ main_v23 ∧ b ≠ main_v36_0 ∧ b ≠ main_v36_1 ∧ b ≠ main_v37) :
    r.2.mem ((c.tc : Thread nD τ).loc b) = m ((c.tc : Thread nD τ).loc b) :=
  (h c _ (mem_uc b hu)).trans (W8_kept m ρ c b h0 h1 h2 h4 hr)

/-- Every weakly fair execution terminates, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨arg_kept m ρ h c main_arg0 (by decide) (by decide) (by decide) (by decide) (by decide) (by decide),
     arg_kept m ρ h c main_arg1 (by decide) (by decide) (by decide) (by decide) (by decide) (by decide),
     arg_kept m ρ h c main_arg2 (by decide) (by decide) (by decide) (by decide) (by decide) (by decide),
     arg_kept m ρ h c main_arg3 (by decide) (by decide) (by decide) (by decide) (by decide) (by decide),
     arg_kept m ρ h c main_arg4 (by decide) (by decide) (by decide) (by decide) (by decide) (by decide),
     arg_kept m ρ h c main_arg5 (by decide) (by decide) (by decide) (by decide) (by decide) (by decide),
     arg_kept m ρ h c main_arg6 (by decide) (by decide) (by decide) (by decide) (by decide) (by decide),
     arg_kept m ρ h c main_arg7 (by decide) (by decide) (by decide) (by decide) (by decide) (by decide),
     arg_kept m ρ h c main_arg8 (by decide) (by decide) (by decide) (by decide) (by decide) (by decide),
     arg_kept m ρ h c main_arg9 (by decide) (by decide) (by decide) (by decide) (by decide) (by decide),
     arg_kept m ρ h c main_arg10 (by decide) (by decide) (by decide) (by decide) (by decide) (by decide),
     arg_kept m ρ h c main_arg11 (by decide) (by decide) (by decide) (by decide) (by decide) (by decide),
     arg_kept m ρ h c main_arg12 (by decide) (by decide) (by decide) (by decide) (by decide) (by decide),
     arg_kept m ρ h c main_arg13 (by decide) (by decide) (by decide) (by decide) (by decide) (by decide),
     arg_kept m ρ h c main_arg14 (by decide) (by decide) (by decide) (by decide) (by decide) (by decide)⟩)
    (run m ρ)

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«177146_j56882546868897_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«177146_j56882546868897_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«177146_j56882546868897_1_alg».proof.Proof.LibBlockReads
import proofs.«177146_j56882546868897_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«177146_j56882546868897_1_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«177146_j56882546868897_1_alg».proof.Proof.LibMatProd
import proofs.«177146_j56882546868897_1_alg».proof.Proof.LibBiasRelu
import proofs.«177146_j56882546868897_1_alg».proof.Proof.LibRowVector
import proofs.«177146_j56882546868897_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibInPlaceBodies.lean ====
/-
  Kernel bodies that re-shape a loaded block in place before using it, read once on the extended reals, and the
  dependence of a biased entry on one entry of the matrix, stated with whole indices.

  A product of two blocks narrowed to a shorter float format and accumulated into zeros is the matrix product of the
  blocks: narrowing a float is the identity on the extended reals. The same holds when the left block is first re-shaped
  to its own shape. A 1×n row re-shaped in place, broadcast down the rows of an r×n block that is itself re-shaped in
  place, and added, is the bias row added to every row. Entry i of a biased (or biased and clamped) matrix depends on
  entry i of the matrix and on the column of i only, so a block whose entry y is entry i of a larger matrix, in the same
  column, gives the larger matrix's biased entry. No finiteness is used: nothing is distributed or cancelled.
  Nothing here mentions a program.
-/
import Idealize.ShloMosaic.PureOps.Ideal.Laws
import Idealize.ShloMosaic.Lib.ValueIdx
import Idealize.ShloMosaic.Lib.Pipeline.Value
import proofs.«177146_j56882546868897_1_alg».proof.Proof.LibBlockReads
import proofs.«177146_j56882546868897_1_alg».proof.Proof.LibMatProd
import proofs.«177146_j56882546868897_1_alg».proof.Proof.LibBiasRelu
import proofs.«177146_j56882546868897_1_alg».proof.Proof.LibDenseLayers

open scoped BigOperators

noncomputable section

namespace Cert.Lib.InPlaceBodies

open Idealize.ShloMosaic Idealize.ShloMosaic.ValueIdx Cert.Lib.MatProd Cert.Lib.BiasRelu Cert.Layers

variable {r r' k n : Nat}

/-- Two blocks narrowed to a shorter float format, multiplied into a zero accumulator: the matrix product of the
    blocks themselves, since narrowing does nothing to an extended real. -/
theorem narrowed_product {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (x0 : FVec Ideal ⟨2, ![r, k]⟩ φ) (x1 : FVec Ideal ⟨2, ![k, n]⟩ φ) :
    matmul d prec (truncf ψ x0 h) (truncf ψ x1 h) (constant ⟨2, ![r, n]⟩ .f32 0x00000000#32) = matProd x0 x1 :=
  matmul_zero_eq_matProd d hlc hrc hln hrn hlb hrb prec (truncf ψ x0 h) (truncf ψ x1 h)

/-- The same when the left block is first re-shaped to its own shape. -/
theorem narrowed_product_cast {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (hc : (⟨2, ![r, k]⟩ : Shape).ShapeCasts ⟨2, ![r, k]⟩)
    (x0 : FVec Ideal ⟨2, ![r, k]⟩ φ) (x1 : FVec Ideal ⟨2, ![k, n]⟩ φ) :
    matmul d prec (truncf ψ (shapeCast ⟨2, ![r, k]⟩ x0 hc) h) (truncf ψ x1 h) (constant ⟨2, ![r, n]⟩ .f32 0x00000000#32)
      = matProd x0 x1 := by
  rw [shapeCast_self]
  exact narrowed_product d hlc hrc hln hrn hlb hrb prec h x0 x1

/-- A 1×n row re-shaped in place and broadcast down the rows of an r×n block, itself re-shaped in place, then added:
    the bias row added to every row. -/
theorem bias_in_place (x0 : FVec Ideal ⟨2, ![r, n]⟩ .f32) (x2 : FVec Ideal ⟨2, ![1, n]⟩ .f32)
    (h0 : (⟨2, ![r, n]⟩ : Shape).ShapeCasts ⟨2, ![r, n]⟩) (h2 : (⟨2, ![1, n]⟩ : Shape).ShapeCasts ⟨2, ![1, n]⟩)
    (hb : (⟨2, ![1, n]⟩ : Shape).Broadcasts ⟨2, ![r, n]⟩) :
    addf (shapeCast ⟨2, ![r, n]⟩ x0 h0) (broadcastTo ⟨2, ![r, n]⟩ (shapeCast ⟨2, ![1, n]⟩ x2 h2) hb) = biasAdd x0 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply]
  rfl

/-- Entry y of a biased block is entry i of the biased matrix when entry y of the block is entry i of the matrix and
    the two indices are in the same column. -/
theorem biasAdd_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasAdd X' b y = biasAdd X b i := by
  have e : (⟨(y 1).val, idx2_lt1 y⟩ : Fin n) = ⟨(i 1).val, idx2_lt1 i⟩ := Fin.ext hcol
  show X' y + b (ix2 (0 : Fin 1) (⟨(y 1).val, idx2_lt1 y⟩ : Fin n)) = X i + b (ix2 (0 : Fin 1) (⟨(i 1).val, idx2_lt1 i⟩ : Fin n))
  rw [h, e]

/-- The same for a biased block clamped below at the zero word. -/
theorem biasRelu_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasRelu X' b y = biasRelu X b i := by
  have e : (⟨(y 1).val, idx2_lt1 y⟩ : Fin n) = ⟨(i 1).val, idx2_lt1 i⟩ := Fin.ext hcol
  show max (X' y + b (ix2 (0 : Fin 1) (⟨(y 1).val, idx2_lt1 y⟩ : Fin n))) (Ideal.ofBits .f32 0x00000000#32)
     = max (X i + b (ix2 (0 : Fin 1) (⟨(i 1).val, idx2_lt1 i⟩ : Fin n))) (Ideal.ofBits .f32 0x00000000#32)
  rw [h, e]

end Cert.Lib.InPlaceBodies

end
-- ==== Proof.IdealLayer1Value.lean ====
/-
  What the first layer's region leaves in its output array, on the extended reals.

  At block t the body's value is the block times the weights, plus the bias row on every row, clamped below at zero
  (`layerValue0`: the product into a zero accumulator is the sum over the contracted coordinate; re-shaping an
  array to its own shape and widening or narrowing a float change nothing on the extended reals). The block is rows
  10000·t … 10000·t + 9999 of the input array (`rows0_apply`) and the other two windows are their whole arrays
  (`weights0_eq`, `biasRow0_eq`), and an entry of the layer's result depends on one row of the input only
  (`layer_entry0`); so what point t writes back is block t of the layer applied to the whole input array
  (`flushed0`). The ten blocks cover the array (`cover0`), so the array ends holding that layer (`final0`).
-/
import proofs.«177146_j56882546868897_1_alg».proof.Proof.IdealLayer1
import proofs.«177146_j56882546868897_1_alg».proof.Proof.LibMatProd
import proofs.«177146_j56882546868897_1_alg».proof.Proof.LibBiasRelu
import proofs.«177146_j56882546868897_1_alg».proof.Proof.LibRowBlocks
import proofs.«177146_j56882546868897_1_alg».proof.Proof.LibInPlaceBodies
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Lib.MatProd Cert.Lib.BiasRelu Cert.Lib.RowBlocks Cert.Lib.InPlaceBodies Cert.Layers

-- the buffers' contents when the region is entered, on the extended reals
variable (V : (c : Dev nD) → (b : Ref sig .tc) → Buf (Elt Ideal) ((c : Thread nD τ).loc b))

theorem zero2 : (![0, 0] : Fin 2 → Nat) = fun _ => 0 := funext fun a => by fin_cases a <;> rfl

/-- A bias row broadcast down the rows and added, then the maximum with a splat of the zero word. -/
theorem bias_row_max {r n : Nat} (M : FVec Ideal ⟨2, ![r, n]⟩ .f32) (x2 : FVec Ideal ⟨2, ![1, n]⟩ .f32)
    (h0 : (⟨2, ![r, n]⟩ : Shape).ShapeCasts ⟨2, ![r, n]⟩) (h2 : (⟨2, ![1, n]⟩ : Shape).ShapeCasts ⟨2, ![1, n]⟩)
    (hb : (⟨2, ![1, n]⟩ : Shape).Broadcasts ⟨2, ![r, n]⟩) :
    maximumf (addf M (broadcastTo ⟨2, ![r, n]⟩ x2 hb)) (broadcast ⟨2, ![r, n]⟩ (Scalar.ofBits (F := Ideal) .f32 0x00000000#32))
      = biasRelu M x2 := by
  have h := Cert.Lib.BiasRelu.body_eq M x2 h0 h2 hb
  simp only [shapeCast_self] at h
  exact h

/-- An entry of a layer applied to a block of rows is the entry of the layer applied to the whole array, when the
    block's row is that row of the array and the two entries are in the same column. -/
theorem layer_entry {r r' : Nat} (A : (⟨2, ![r, 64]⟩ : Shape).Idx → EReal) (W : (⟨2, ![64, 64]⟩ : Shape).Idx → EReal) (b : (⟨2, ![1, 64]⟩ : Shape).Idx → EReal)
    (A' : (⟨2, ![r', 64]⟩ : Shape).Idx → EReal) (y : (⟨2, ![r', 64]⟩ : Shape).Idx) (i : (⟨2, ![r, 64]⟩ : Shape).Idx)
    (hA : ∀ k : Fin 64, A' (ix2 (⟨(y 0).val, idx2_lt0 y⟩ : Fin r') k) = A (ix2 (⟨(i 0).val, idx2_lt0 i⟩ : Fin r) k))
    (hcol : (y 1).val = (i 1).val) :
    biasRelu (matProd A' W) b y = biasRelu (matProd A W) b i :=
  biasRelu_at _ _ _ y i (matProd_rows A A' W y i hA hcol) hcol

/-- The body's value: the block times the weights, plus the bias row on every row, clamped below at zero. -/
theorem layerValue0 (x0 : FVec Ideal S10000x64 .f32) (x1 : FVec Ideal S64x64 .f32) (x2 : FVec Ideal S1x64 .f32) :
    k0_pay1 (F := Ideal) x0 x1 x2 = biasRelu (matProd x0 x1) x2 := by
  unfold k0_pay1
  simp only [shapeCast_self]
  rw [matmul_zero_eq_matProd _ rfl rfl rfl rfl rfl rfl none x0 x1]
  exact bias_row_max (matProd x0 x1) x2 shapeCasts_S10000x64_S10000x64 shapeCasts_S1x64_S1x64 broadcasts_S1x64_S10000x64

/-- The printed index maps over the grid: the row blocks move with the point, the other windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the row block at point t is the entry of the array 10000·t rows further down. -/
theorem rows0_apply (c : Dev nD) (t : Fin cfg0.N) (x : S10000x64.Idx) (k : S100000x64.Idx)
    (hk0 : (k 0).val = 10000 * t.val + (x 0).val) (hk1 : (k 1).val = (x 1).val) :
    (iblk0 V c 0 t : Vec Ideal S10000x64 .f32) x = (V c main_v9 : S100000x64.Idx → Elt Ideal .f32) k := by
  obtain ⟨e0, e1, -⟩ := idx0 t
  unfold iblk0
  rw [View.read_apply]
  show (V c main_v9 : S100000x64.Idx → Elt Ideal .f32) _ = V c main_v9 k
  refine congrArg _ ?_
  funext a
  apply Fin.ext
  match a with
  | ⟨0, _⟩ => show win0_0.index t 0 * 10000 + 1 * (x 0).val = (k 0).val; rw [e0, hk0]; omega
  | ⟨1, _⟩ => show win0_0.index t 1 * 64 + 1 * (x 1).val = (k 1).val; rw [e1, hk1]; omega

/-- The weights' window is its whole array at every point. -/
theorem weights0_eq (c : Dev nD) (t : Fin cfg0.N) :
    (iblk0 V c 1 t : Vec Ideal S64x64 .f32) = (V c main_arg3 : S64x64.Idx → Elt Ideal .f32) := by
  obtain ⟨-, -, e2, e3, -⟩ := idx0 t
  funext x
  unfold iblk0
  rw [View.read_apply]
  show (V c main_arg3 : S64x64.Idx → Elt Ideal .f32) _ = V c main_arg3 x
  refine congrArg _ ?_
  funext a
  apply Fin.ext
  match a with
  | ⟨0, _⟩ => show win0_1.index t 0 * 64 + 1 * (x 0).val = (x 0).val; rw [e2]; omega
  | ⟨1, _⟩ => show win0_1.index t 1 * 64 + 1 * (x 1).val = (x 1).val; rw [e3]; omega

/-- So is the bias row's. -/
theorem biasRow0_eq (c : Dev nD) (t : Fin cfg0.N) :
    (iblk0 V c 2 t : Vec Ideal S1x64 .f32) = (V c main_v10 : S1x64.Idx → Elt Ideal .f32) := by
  obtain ⟨-, -, -, -, e4, e5, -⟩ := idx0 t
  funext x
  unfold iblk0
  rw [View.read_apply]
  show (V c main_v10 : S1x64.Idx → Elt Ideal .f32) _ = V c main_v10 x
  refine congrArg _ ?_
  funext a
  apply Fin.ext
  match a with
  | ⟨0, _⟩ => show win0_2.index t 0 * 1 + 1 * (x 0).val = (x 0).val; rw [e4]; omega
  | ⟨1, _⟩ => show win0_2.index t 1 * 64 + 1 * (x 1).val = (x 1).val; rw [e5]; omega

/-- The layer applied to the whole input array, as the region finds its three arrays. -/
abbrev layerOf0 (c : Dev nD) : S100000x64.Idx → EReal :=
  biasRelu (matProd (V c main_v9 : S100000x64.Idx → EReal) (V c main_arg3 : S64x64.Idx → EReal)) (V c main_v10 : S1x64.Idx → EReal)

/-- WHAT POINT t WRITES BACK is block t of the layer applied to the whole input array. -/
theorem flushed0 (c : Dev nD) (t : Fin cfg0.N) :
    (dat0 V c).flushed 3 t = ((cfg0.win 3).blk t).view.read (Elt Ideal) (layerOf0 V c) := by
  show (cfg0.win 3).cut (grid0.coords t) ((dat0 V c).after 3 t) = _
  rw [after0_3]
  unfold out0_3
  rw [View.canon_unit_zero zero2]
  simp only [View.ld_unit_zero (S := S10000x64) zero2, View.ld_unit_zero (S := S64x64) zero2, View.ld_unit_zero (S := S1x64) zero2]
  rw [layerValue0, weights0_eq V c t, biasRow0_eq V c t]
  obtain ⟨-, -, -, -, -, -, e6, e7⟩ := idx0 t
  funext y
  rw [View.read_apply]
  have hrow : ((((cfg0.win 3).blk t).view.emb y) 0).val = 10000 * t.val + (y 0).val := by
    show win0_3.index t 0 * 10000 + 1 * (y 0).val = _; rw [e6]; omega
  have hcol : (y 1).val = ((((cfg0.win 3).blk t).view.emb y) 1).val := by
    show _ = win0_3.index t 1 * 64 + 1 * (y 1).val; rw [e7]; omega
  exact layer_entry _ _ _ _ y _ (fun k => rows0_apply V c t _ _ hrow rfl) hcol

/-- An index of the array is in point t's block iff each coordinate is in the block's range on its axis. -/
theorem mem_blk0_3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v11).slice (win0_3.rect t)).set ↔ _
  rw [View.set_slice_whole, Rect.mem_set_unit]
  exact Iff.rfl

/-- Every row of the output array is in some point's block: row r in block r / 10000. -/
theorem cover0 (i : S100000x64.Idx) : ∃ t : Fin cfg0.N, (cfg0.win 3).flush t = true ∧ i ∈ ((cfg0.win 3).blk t).view.set := by
  have h0 : (i 0).val < 100000 := (i 0).isLt
  have h1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, e6, e7⟩ := idx0 t
  refine ⟨t, flush0_3 t, ?_⟩
  rw [mem_blk0_3]
  intro a
  match a with
  | ⟨0, _⟩ =>
    show win0_3.index t 0 * 10000 ≤ (i 0).val ∧ (i 0).val < win0_3.index t 0 * 10000 + 10000
    rw [e6, ht]; omega
  | ⟨1, _⟩ =>
    show win0_3.index t 1 * 64 ≤ (i 1).val ∧ (i 1).val < win0_3.index t 1 * 64 + 64
    rw [e7]; omega

/-- THE OUTPUT ARRAY after the region: the layer applied to the whole input array. -/
theorem final0 (c : Dev nD) : (dat0 V c).arrAt 3 cfg0.N = layerOf0 V c :=
  (dat0 V c).arrAt_eq_of_cover 3 (layerOf0 V c) (fun t _ => flushed0 V c t) (cover0)

end Cert.KernelIdeal.HandValue

end
-- ==== Proof.IdealLayer2Value.lean ====
/-
  What the second layer's region leaves in its output array, on the extended reals.

  At block t the body's value is the block times the weights, plus the bias row on every row, clamped below at zero
  (`layerValue1`: the product into a zero accumulator is the sum over the contracted coordinate; re-shaping an
  array to its own shape and widening or narrowing a float change nothing on the extended reals). The block is rows
  10000·t … 10000·t + 9999 of the input array (`rows1_apply`) and the other two windows are their whole arrays
  (`weights1_eq`, `biasRow1_eq`), and an entry of the layer's result depends on one row of the input only
  (`layer_entry1`); so what point t writes back is block t of the layer applied to the whole input array
  (`flushed1`). The ten blocks cover the array (`cover1`), so the array ends holding that layer (`final1`).
-/
import proofs.«177146_j56882546868897_1_alg».proof.Proof.IdealLayer2
import proofs.«177146_j56882546868897_1_alg».proof.Proof.IdealLayer1Value
import proofs.«177146_j56882546868897_1_alg».proof.Proof.LibMatProd
import proofs.«177146_j56882546868897_1_alg».proof.Proof.LibBiasRelu
import proofs.«177146_j56882546868897_1_alg».proof.Proof.LibRowBlocks
import proofs.«177146_j56882546868897_1_alg».proof.Proof.LibInPlaceBodies
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Lib.MatProd Cert.Lib.BiasRelu Cert.Lib.RowBlocks Cert.Lib.InPlaceBodies Cert.Layers

-- the buffers' contents when the region is entered, on the extended reals
variable (V : (c : Dev nD) → (b : Ref sig .tc) → Buf (Elt Ideal) ((c : Thread nD τ).loc b))

/-- The body's value: the block times the weights, plus the bias row on every row, clamped below at zero. -/
theorem layerValue1 (x0 : FVec Ideal S10000x64 .f32) (x1 : FVec Ideal S64x64 .f32) (x2 : FVec Ideal S1x64 .f32) :
    k1_pay1 (F := Ideal) x0 x1 x2 = biasRelu (matProd x0 x1) x2 := by
  unfold k1_pay1
  simp only [shapeCast_self]
  rw [matmul_zero_eq_matProd _ rfl rfl rfl rfl rfl rfl none x0 x1]
  exact bias_row_max (matProd x0 x1) x2 shapeCasts_S10000x64_S10000x64 shapeCasts_S1x64_S1x64 broadcasts_S1x64_S10000x64

/-- The printed index maps over the grid: the row blocks move with the point, the other windows stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of the row block at point t is the entry of the array 10000·t rows further down. -/
theorem rows1_apply (c : Dev nD) (t : Fin cfg1.N) (x : S10000x64.Idx) (k : S100000x64.Idx)
    (hk0 : (k 0).val = 10000 * t.val + (x 0).val) (hk1 : (k 1).val = (x 1).val) :
    (iblk1 V c 0 t : Vec Ideal S10000x64 .f32) x = (V c main_v21 : S100000x64.Idx → Elt Ideal .f32) k := by
  obtain ⟨e0, e1, -⟩ := idx1 t
  unfold iblk1
  rw [View.read_apply]
  show (V c main_v21 : S100000x64.Idx → Elt Ideal .f32) _ = V c main_v21 k
  refine congrArg _ ?_
  funext a
  apply Fin.ext
  match a with
  | ⟨0, _⟩ => show win1_0.index t 0 * 10000 + 1 * (x 0).val = (k 0).val; rw [e0, hk0]; omega
  | ⟨1, _⟩ => show win1_0.index t 1 * 64 + 1 * (x 1).val = (k 1).val; rw [e1, hk1]; omega

/-- The weights' window is its whole array at every point. -/
theorem weights1_eq (c : Dev nD) (t : Fin cfg1.N) :
    (iblk1 V c 1 t : Vec Ideal S64x64 .f32) = (V c main_arg5 : S64x64.Idx → Elt Ideal .f32) := by
  obtain ⟨-, -, e2, e3, -⟩ := idx1 t
  funext x
  unfold iblk1
  rw [View.read_apply]
  show (V c main_arg5 : S64x64.Idx → Elt Ideal .f32) _ = V c main_arg5 x
  refine congrArg _ ?_
  funext a
  apply Fin.ext
  match a with
  | ⟨0, _⟩ => show win1_1.index t 0 * 64 + 1 * (x 0).val = (x 0).val; rw [e2]; omega
  | ⟨1, _⟩ => show win1_1.index t 1 * 64 + 1 * (x 1).val = (x 1).val; rw [e3]; omega

/-- So is the bias row's. -/
theorem biasRow1_eq (c : Dev nD) (t : Fin cfg1.N) :
    (iblk1 V c 2 t : Vec Ideal S1x64 .f32) = (V c main_v22 : S1x64.Idx → Elt Ideal .f32) := by
  obtain ⟨-, -, -, -, e4, e5, -⟩ := idx1 t
  funext x
  unfold iblk1
  rw [View.read_apply]
  show (V c main_v22 : S1x64.Idx → Elt Ideal .f32) _ = V c main_v22 x
  refine congrArg _ ?_
  funext a
  apply Fin.ext
  match a with
  | ⟨0, _⟩ => show win1_2.index t 0 * 1 + 1 * (x 0).val = (x 0).val; rw [e4]; omega
  | ⟨1, _⟩ => show win1_2.index t 1 * 64 + 1 * (x 1).val = (x 1).val; rw [e5]; omega

/-- The layer applied to the whole input array, as the region finds its three arrays. -/
abbrev layerOf1 (c : Dev nD) : S100000x64.Idx → EReal :=
  biasRelu (matProd (V c main_v21 : S100000x64.Idx → EReal) (V c main_arg5 : S64x64.Idx → EReal)) (V c main_v22 : S1x64.Idx → EReal)

/-- WHAT POINT t WRITES BACK is block t of the layer applied to the whole input array. -/
theorem flushed1 (c : Dev nD) (t : Fin cfg1.N) :
    (dat1 V c).flushed 3 t = ((cfg1.win 3).blk t).view.read (Elt Ideal) (layerOf1 V c) := by
  show (cfg1.win 3).cut (grid1.coords t) ((dat1 V c).after 3 t) = _
  rw [after1_3]
  unfold out1_3
  rw [View.canon_unit_zero zero2]
  simp only [View.ld_unit_zero (S := S10000x64) zero2, View.ld_unit_zero (S := S64x64) zero2, View.ld_unit_zero (S := S1x64) zero2]
  rw [layerValue1, weights1_eq V c t, biasRow1_eq V c t]
  obtain ⟨-, -, -, -, -, -, e6, e7⟩ := idx1 t
  funext y
  rw [View.read_apply]
  have hrow : ((((cfg1.win 3).blk t).view.emb y) 0).val = 10000 * t.val + (y 0).val := by
    show win1_3.index t 0 * 10000 + 1 * (y 0).val = _; rw [e6]; omega
  have hcol : (y 1).val = ((((cfg1.win 3).blk t).view.emb y) 1).val := by
    show _ = win1_3.index t 1 * 64 + 1 * (y 1).val; rw [e7]; omega
  exact layer_entry _ _ _ _ y _ (fun k => rows1_apply V c t _ _ hrow rfl) hcol

/-- An index of the array is in point t's block iff each coordinate is in the block's range on its axis. -/
theorem mem_blk1_3 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v23).slice (win1_3.rect t)).set ↔ _
  rw [View.set_slice_whole, Rect.mem_set_unit]
  exact Iff.rfl

/-- Every row of the output array is in some point's block: row r in block r / 10000. -/
theorem cover1 (i : S100000x64.Idx) : ∃ t : Fin cfg1.N, (cfg1.win 3).flush t = true ∧ i ∈ ((cfg1.win 3).blk t).view.set := by
  have h0 : (i 0).val < 100000 := (i 0).isLt
  have h1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, e6, e7⟩ := idx1 t
  refine ⟨t, flush1_3 t, ?_⟩
  rw [mem_blk1_3]
  intro a
  match a with
  | ⟨0, _⟩ =>
    show win1_3.index t 0 * 10000 ≤ (i 0).val ∧ (i 0).val < win1_3.index t 0 * 10000 + 10000
    rw [e6, ht]; omega
  | ⟨1, _⟩ =>
    show win1_3.index t 1 * 64 ≤ (i 1).val ∧ (i 1).val < win1_3.index t 1 * 64 + 64
    rw [e7]; omega

/-- THE OUTPUT ARRAY after the region: the layer applied to the whole input array. -/
theorem final1 (c : Dev nD) : (dat1 V c).arrAt 3 cfg1.N = layerOf1 V c :=
  (dat1 V c).arrAt_eq_of_cover 3 (layerOf1 V c) (fun t _ => flushed1 V c t) (cover1)

end Cert.KernelIdeal.HandValue

end
-- ==== Proof.IdealLayer3Value.lean ====
/-
  What the third layer's region leaves in its two output arrays, on the extended reals.

  At block t the body's first value is the layer of the block (the block times the weights, plus the bias row, clamped
  below at zero: `layerValue2`), and its second value is that 10000×64 value times the 64×1 score weights, plus the 1×1
  score bias on every row (`scoreValue2`). The block is rows 10000·t … 10000·t + 9999 of the input array and the other
  four windows are their whole arrays; an entry of either result depends on one row of the input only (`layer_entry`,
  `score_entry`). So what point t writes back is block t of the layer of the whole input array, and block t of the
  scores of that layer (`flushed2_5`, `flushed2_6`); the ten blocks cover each array, so the arrays end holding the
  layer and its scores (`final2_5`, `final2_6`).
-/
import proofs.«177146_j56882546868897_1_alg».proof.Proof.IdealLayer3
import proofs.«177146_j56882546868897_1_alg».proof.Proof.IdealLayer1Value
import proofs.«177146_j56882546868897_1_alg».proof.Proof.LibMatProd
import proofs.«177146_j56882546868897_1_alg».proof.Proof.LibBiasRelu
import proofs.«177146_j56882546868897_1_alg».proof.Proof.LibRowBlocks
import proofs.«177146_j56882546868897_1_alg».proof.Proof.LibInPlaceBodies
import proofs.«177146_j56882546868897_1_alg».proof.Proof.LibDenseLayers
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Lib.MatProd Cert.Lib.BiasRelu Cert.Lib.RowBlocks Cert.Lib.InPlaceBodies Cert.Layers

-- the buffers' contents when the region is entered, on the extended reals
variable (V : (c : Dev nD) → (b : Ref sig .tc) → Buf (Elt Ideal) ((c : Thread nD τ).loc b))

/-- A bias row broadcast down the rows and added. -/
theorem bias_row_add {r n : Nat} (M : FVec Ideal ⟨2, ![r, n]⟩ .f32) (x2 : FVec Ideal ⟨2, ![1, n]⟩ .f32)
    (hb : (⟨2, ![1, n]⟩ : Shape).Broadcasts ⟨2, ![r, n]⟩) :
    addf M (broadcastTo ⟨2, ![r, n]⟩ x2 hb) = biasAdd M x2 := by
  funext i
  obtain ⟨p, q, rfl⟩ : ∃ (p : Fin r) (q : Fin n), i = ix2 p q := ⟨i 0, i 1, eq_ix2 i⟩
  rw [addf_apply, Cert.Lib.BlockReads.broadcast_row_apply]
  rfl

/-- An entry of the scores of a layer applied to a block of rows is the entry for the whole array, when the block's row
    is that row of the array and the two entries are in the same column. -/
theorem score_entry {r r' : Nat} (A : (⟨2, ![r, 64]⟩ : Shape).Idx → EReal) (W : (⟨2, ![64, 64]⟩ : Shape).Idx → EReal) (b : (⟨2, ![1, 64]⟩ : Shape).Idx → EReal)
    (Wp : (⟨2, ![64, 1]⟩ : Shape).Idx → EReal) (bp : (⟨2, ![1, 1]⟩ : Shape).Idx → EReal)
    (A' : (⟨2, ![r', 64]⟩ : Shape).Idx → EReal) (y : (⟨2, ![r', 1]⟩ : Shape).Idx) (i : (⟨2, ![r, 1]⟩ : Shape).Idx)
    (hA : ∀ k : Fin 64, A' (ix2 (⟨(y 0).val, idx2_lt0 y⟩ : Fin r') k) = A (ix2 (⟨(i 0).val, idx2_lt0 i⟩ : Fin r) k))
    (hcol : (y 1).val = (i 1).val) :
    biasAdd (matProd (biasRelu (matProd A' W) b) Wp) bp y = biasAdd (matProd (biasRelu (matProd A W) b) Wp) bp i :=
  biasAdd_at _ _ _ y i
    (matProd_rows (biasRelu (matProd A W) b) (biasRelu (matProd A' W) b) Wp y i
      (fun k => layer_entry A W b A' (ix2 (⟨(y 0).val, idx2_lt0 y⟩ : Fin r') k) (ix2 (⟨(i 0).val, idx2_lt0 i⟩ : Fin r) k) hA rfl) hcol) hcol

/-- The body's first value: the layer of the block. -/
theorem layerValue2 (x0 : FVec Ideal S10000x64 .f32) (x1 : FVec Ideal S64x64 .f32) (x2 : FVec Ideal S1x64 .f32) :
    k2_pay1 (F := Ideal) x0 x1 x2 = biasRelu (matProd x0 x1) x2 := by
  unfold k2_pay1
  simp only [shapeCast_self]
  rw [matmul_zero_eq_matProd _ rfl rfl rfl rfl rfl rfl none x0 x1]
  exact bias_row_max (matProd x0 x1) x2 shapeCasts_S10000x64_S10000x64 shapeCasts_S1x64_S1x64 broadcasts_S1x64_S10000x64

/-- The body's second value: that layer times the score weights, plus the score bias on every row. -/
theorem scoreValue2 (x0 : FVec Ideal S10000x64 .f32) (x1 : FVec Ideal S64x64 .f32) (x2 : FVec Ideal S1x64 .f32)
    (x3 : FVec Ideal S64x1 .f32) (x4 : FVec Ideal S1x1 .f32) :
    k2_pay2 (F := Ideal) x0 x1 x2 x3 x4 = biasAdd (matProd (biasRelu (matProd x0 x1) x2) x3) x4 := by
  unfold k2_pay2
  simp only [shapeCast_self]
  rw [layerValue2, matmul_zero_eq_matProd _ rfl rfl rfl rfl rfl rfl none (biasRelu (matProd x0 x1) x2) x3]
  exact bias_row_add (matProd (biasRelu (matProd x0 x1) x2) x3) x4 broadcasts_S1x1_S10000x1

/-- The printed index maps over the grid: the row blocks move with the point, the other windows stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- An entry of the row block at point t is the entry of the array 10000·t rows further down. -/
theorem rows2_apply (c : Dev nD) (t : Fin cfg2.N) (x : S10000x64.Idx) (k : S100000x64.Idx)
    (hk0 : (k 0).val = 10000 * t.val + (x 0).val) (hk1 : (k 1).val = (x 1).val) :
    (iblk2 V c 0 t : Vec Ideal S10000x64 .f32) x = (V c main_v33 : S100000x64.Idx → Elt Ideal .f32) k := by
  obtain ⟨e0, e1, -⟩ := idx2 t
  unfold iblk2
  rw [View.read_apply]
  show (V c main_v33 : S100000x64.Idx → Elt Ideal .f32) _ = V c main_v33 k
  refine congrArg _ ?_
  funext a
  apply Fin.ext
  match a with
  | ⟨0, _⟩ => show win2_0.index t 0 * 10000 + 1 * (x 0).val = (k 0).val; rw [e0, hk0]; omega
  | ⟨1, _⟩ => show win2_0.index t 1 * 64 + 1 * (x 1).val = (k 1).val; rw [e1, hk1]; omega

/-- The other four windows are their whole arrays at every point. -/
theorem win2_1_eq (c : Dev nD) (t : Fin cfg2.N) :
    (iblk2 V c 1 t : Vec Ideal S64x64 .f32) = (V c main_arg7 : S64x64.Idx → Elt Ideal .f32) := by
  obtain ⟨-, -, e2, e3, -⟩ := idx2 t
  funext x
  unfold iblk2
  rw [View.read_apply]
  show (V c main_arg7 : S64x64.Idx → Elt Ideal .f32) _ = V c main_arg7 x
  refine congrArg _ ?_
  funext a
  apply Fin.ext
  match a with
  | ⟨0, _⟩ => show win2_1.index t 0 * 64 + 1 * (x 0).val = (x 0).val; rw [e2]; omega
  | ⟨1, _⟩ => show win2_1.index t 1 * 64 + 1 * (x 1).val = (x 1).val; rw [e3]; omega
theorem win2_2_eq (c : Dev nD) (t : Fin cfg2.N) :
    (iblk2 V c 2 t : Vec Ideal S1x64 .f32) = (V c main_v34 : S1x64.Idx → Elt Ideal .f32) := by
  obtain ⟨-, -, -, -, e4, e5, -⟩ := idx2 t
  funext x
  unfold iblk2
  rw [View.read_apply]
  show (V c main_v34 : S1x64.Idx → Elt Ideal .f32) _ = V c main_v34 x
  refine congrArg _ ?_
  funext a
  apply Fin.ext
  match a with
  | ⟨0, _⟩ => show win2_2.index t 0 * 1 + 1 * (x 0).val = (x 0).val; rw [e4]; omega
  | ⟨1, _⟩ => show win2_2.index t 1 * 64 + 1 * (x 1).val = (x 1).val; rw [e5]; omega
theorem win2_3_eq (c : Dev nD) (t : Fin cfg2.N) :
    (iblk2 V c 3 t : Vec Ideal S64x1 .f32) = (V c main_arg9 : S64x1.Idx → Elt Ideal .f32) := by
  obtain ⟨-, -, -, -, -, -, e6, e7, -⟩ := idx2 t
  funext x
  unfold iblk2
  rw [View.read_apply]
  show (V c main_arg9 : S64x1.Idx → Elt Ideal .f32) _ = V c main_arg9 x
  refine congrArg _ ?_
  funext a
  apply Fin.ext
  match a with
  | ⟨0, _⟩ => show win2_3.index t 0 * 64 + 1 * (x 0).val = (x 0).val; rw [e6]; omega
  | ⟨1, _⟩ => show win2_3.index t 1 * 1 + 1 * (x 1).val = (x 1).val; rw [e7]; omega
theorem win2_4_eq (c : Dev nD) (t : Fin cfg2.N) :
    (iblk2 V c 4 t : Vec Ideal S1x1 .f32) = (V c main_v35 : S1x1.Idx → Elt Ideal .f32) := by
  obtain ⟨-, -, -, -, -, -, -, -, e8, e9, -⟩ := idx2 t
  funext x
  unfold iblk2
  rw [View.read_apply]
  show (V c main_v35 : S1x1.Idx → Elt Ideal .f32) _ = V c main_v35 x
  refine congrArg _ ?_
  funext a
  apply Fin.ext
  match a with
  | ⟨0, _⟩ => show win2_4.index t 0 * 1 + 1 * (x 0).val = (x 0).val; rw [e8]; omega
  | ⟨1, _⟩ => show win2_4.index t 1 * 1 + 1 * (x 1).val = (x 1).val; rw [e9]; omega

/-- The layer applied to the whole input array, and its scores, as the region finds its five arrays. -/
abbrev layerOf2 (c : Dev nD) : S100000x64.Idx → EReal :=
  biasRelu (matProd (V c main_v33 : S100000x64.Idx → EReal) (V c main_arg7 : S64x64.Idx → EReal)) (V c main_v34 : S1x64.Idx → EReal)
abbrev scoresOf2 (c : Dev nD) : S100000x1.Idx → EReal :=
  biasAdd (matProd (layerOf2 V c) (V c main_arg9 : S64x1.Idx → EReal)) (V c main_v35 : S1x1.Idx → EReal)

/-- WHAT POINT t WRITES BACK into the first output is block t of the layer of the whole input array. -/
theorem flushed2_5 (c : Dev nD) (t : Fin cfg2.N) :
    (dat2 V c).flushed 5 t = ((cfg2.win 5).blk t).view.read (Elt Ideal) (layerOf2 V c) := by
  show (cfg2.win 5).cut (grid2.coords t) ((dat2 V c).after 5 t) = _
  rw [after2_5]
  unfold out2_5
  rw [View.canon_unit_zero zero2]
  simp only [View.ld_unit_zero (S := S10000x64) zero2, View.ld_unit_zero (S := S64x64) zero2, View.ld_unit_zero (S := S1x64) zero2]
  rw [layerValue2, win2_1_eq V c t, win2_2_eq V c t]
  obtain ⟨-, -, -, -, -, -, -, -, -, -, e10, e11, -⟩ := idx2 t
  funext y
  rw [View.read_apply]
  have hrow : ((((cfg2.win 5).blk t).view.emb y) 0).val = 10000 * t.val + (y 0).val := by
    show win2_5.index t 0 * 10000 + 1 * (y 0).val = _; rw [e10]; omega
  have hcol : (y 1).val = ((((cfg2.win 5).blk t).view.emb y) 1).val := by
    show _ = win2_5.index t 1 * 64 + 1 * (y 1).val; rw [e11]; omega
  exact layer_entry _ _ _ _ y _ (fun k => rows2_apply V c t _ _ hrow rfl) hcol

/-- WHAT POINT t WRITES BACK into the second output is block t of the scores of that layer. -/
theorem flushed2_6 (c : Dev nD) (t : Fin cfg2.N) :
    (dat2 V c).flushed 6 t = ((cfg2.win 6).blk t).view.read (Elt Ideal) (scoresOf2 V c) := by
  show (cfg2.win 6).cut (grid2.coords t) ((dat2 V c).after 6 t) = _
  rw [after2_6]
  unfold out2_6
  rw [View.canon_unit_zero zero2]
  simp only [View.ld_unit_zero (S := S10000x64) zero2, View.ld_unit_zero (S := S64x64) zero2, View.ld_unit_zero (S := S1x64) zero2,
    View.ld_unit_zero (S := S64x1) zero2, View.ld_unit_zero (S := S1x1) zero2]
  rw [scoreValue2, win2_1_eq V c t, win2_2_eq V c t, win2_3_eq V c t, win2_4_eq V c t]
  obtain ⟨-, -, -, -, -, -, -, -, -, -, -, -, e12, e13⟩ := idx2 t
  funext y
  rw [View.read_apply]
  have hrow : ((((cfg2.win 6).blk t).view.emb y) 0).val = 10000 * t.val + (y 0).val := by
    show win2_6.index t 0 * 10000 + 1 * (y 0).val = _; rw [e12]; omega
  have hcol : (y 1).val = ((((cfg2.win 6).blk t).view.emb y) 1).val := by
    show _ = win2_6.index t 1 * 1 + 1 * (y 1).val; rw [e13]; omega
  exact score_entry _ _ _ _ _ _ y _ (fun k => rows2_apply V c t _ _ hrow rfl) hcol

/-- An index of the array is in point t's block iff each coordinate is in the block's range on its axis. -/
theorem mem_blk2_5 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v36_0).slice (win2_5.rect t)).set ↔ _
  rw [View.set_slice_whole, Rect.mem_set_unit]
  exact Iff.rfl

/-- Every row of the output array is in some point's block: row r in block r / 10000. -/
theorem cover2_5v (i : S100000x64.Idx) : ∃ t : Fin cfg2.N, (cfg2.win 5).flush t = true ∧ i ∈ ((cfg2.win 5).blk t).view.set := by
  have h0 : (i 0).val < 100000 := (i 0).isLt
  have h1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, -, -, e10, e11, -⟩ := idx2 t
  refine ⟨t, flush2_5 t, ?_⟩
  rw [mem_blk2_5]
  intro a
  match a with
  | ⟨0, _⟩ =>
    show win2_5.index t 0 * 10000 ≤ (i 0).val ∧ (i 0).val < win2_5.index t 0 * 10000 + 10000
    rw [e10, ht]; omega
  | ⟨1, _⟩ =>
    show win2_5.index t 1 * 64 ≤ (i 1).val ∧ (i 1).val < win2_5.index t 1 * 64 + 64
    rw [e11]; omega
/-- An index of the array is in point t's block iff each coordinate is in the block's range on its axis. -/
theorem mem_blk2_6 (t : Fin cfg2.N) (i : S100000x1.Idx) :
    i ∈ ((cfg2.win 6).blk t).view.set ↔ ∀ a : Fin 2, win2_6.index t a * S10000x1.size a ≤ (i a).val ∧ (i a).val < win2_6.index t a * S10000x1.size a + S10000x1.size a := by
  show i ∈ ((View.whole main_v36_1).slice (win2_6.rect t)).set ↔ _
  rw [View.set_slice_whole, Rect.mem_set_unit]
  exact Iff.rfl

/-- Every row of the output array is in some point's block: row r in block r / 10000. -/
theorem cover2_6v (i : S100000x1.Idx) : ∃ t : Fin cfg2.N, (cfg2.win 6).flush t = true ∧ i ∈ ((cfg2.win 6).blk t).view.set := by
  have h0 : (i 0).val < 100000 := (i 0).isLt
  have h1 : (i 1).val < 1 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, -, -, -, -, e12, e13⟩ := idx2 t
  refine ⟨t, flush2_6 t, ?_⟩
  rw [mem_blk2_6]
  intro a
  match a with
  | ⟨0, _⟩ =>
    show win2_6.index t 0 * 10000 ≤ (i 0).val ∧ (i 0).val < win2_6.index t 0 * 10000 + 10000
    rw [e12, ht]; omega
  | ⟨1, _⟩ =>
    show win2_6.index t 1 * 1 ≤ (i 1).val ∧ (i 1).val < win2_6.index t 1 * 1 + 1
    rw [e13]; omega

/-- THE OUTPUT ARRAYS after the region: the layer of the whole input array, and its scores. -/
theorem final2_5 (c : Dev nD) : (dat2 V c).arrAt 5 cfg2.N = layerOf2 V c :=
  (dat2 V c).arrAt_eq_of_cover 5 (layerOf2 V c) (fun t _ => flushed2_5 V c t) (cover2_5v)
theorem final2_6 (c : Dev nD) : (dat2 V c).arrAt 6 cfg2.N = scoresOf2 V c :=
  (dat2 V c).arrAt_eq_of_cover 6 (scoresOf2 V c) (fun t _ => flushed2_6 V c t) (cover2_6v)

end Cert.KernelIdeal.HandValue

end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.Model.lean ====
/-
  What both programs compute, as functions of whole arrays on the extended reals.

  A node array (100000 rows of 64 features) passes three times through one layer. Every edge carries its source
  node's row to its destination node, where the rows arriving are summed (`agg`); the sums are multiplied by a 64×64
  weight matrix, a bias is added to every row, and negative entries are replaced by zero (`layer`, `nodes`). From
  the last node array come a score per node — its row times a 64×1 weight plus a bias — and the mean of each column
  over all nodes (`colMean`: the column's sum times the real 1/100000). The mean row times two more 64×1 weights, each
  plus its bias, gives two single numbers: one is returned as it is (`valueOf`), the other is appended below the
  node scores (`scoresOf`).

  The edge traffic and the last small products are spelt by the same host operations in both programs, so they are
  kept here as those operations (`srcCol`, `agg`, `project`, `below`) and never opened.

  `sum_blocks`: a column's sum over all 100000 rows is the sum, over the ten blocks of 10000 consecutive rows, of the
  block's sum — a regrouping of a finite sum in a commutative monoid, so it holds on the extended reals with no
  finiteness.
-/
import proofs.«177146_j56882546868897_1_alg».proof.ReferenceIdeal
import proofs.«177146_j56882546868897_1_alg».proof.Proof.Gen.ReferenceIdeal
import proofs.«177146_j56882546868897_1_alg».proof.Proof.LibMatProd
import proofs.«177146_j56882546868897_1_alg».proof.Proof.LibBiasRelu
import proofs.«177146_j56882546868897_1_alg».proof.Proof.LibRowVector
import proofs.«177146_j56882546868897_1_alg».proof.Proof.LibDenseLayers
import proofs.«177146_j56882546868897_1_alg».proof.Proof.LibFinGroups
import Idealize.ShloMosaic.PureOps.Ideal.Laws
import Idealize.ShloMosaic.Lib.ValueIdx

open scoped BigOperators

noncomputable section

namespace Cert.Gcn

open Cert.ReferenceIdeal Cert.ReferenceIdeal.Gen Idealize.ShloMosaic Idealize.ShloMosaic.ValueIdx
open Cert.Lib.MatProd Cert.Lib.BiasRelu Cert.Lib.RowVector Cert.Layers

/-- An array of one 32-bit integer per edge. -/
abbrev Edges : Type := (⟨S1000000, .i32⟩ : BufTy).Contents (Elt Ideal)

/-! ## The host operations the two programs share -/

/-- The source indices as a column, a negative index first wrapped by adding the number of nodes. -/
def srcCol (src : Edges) : (⟨S1000000x1, .i32⟩ : BufTy).Contents (Elt Ideal) :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- Every edge's source row, summed into the edge's destination row of an array of zeros. -/
def agg (h : FVec Ideal S100000x64 .f32) (src dst : Edges) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (Host.gather gather_S100000x64_S1000000x1_S1000000x64_1_0_n_n_0_1_164 h (srcCol src))

/-- A 1×64 row times a 64×1 weight, plus a one-entry bias: a 1×1 array. -/
def project (row : FVec Ideal S1x64 .f32) (W : FVec Ideal S64x1 .f32) (b : FVec Ideal S1 .f32) : FVec Ideal S1x1 .f32 :=
  addf (Host.dotGeneral (F := Ideal) dot_S1x64_S64x1_S1x1_1_0_0_1_n_n none row W) (broadcastInDim S1x1 ![1] bcast_S1_S1x1_1 b)

/-- A 1×1 array appended below a 100000×1 column. -/
def below (col : FVec Ideal S100000x1 .f32) (last : FVec Ideal S1x1 .f32) : FVec Ideal S100001x1 .f32 :=
  concatenate S100001x1 0 [⟨S100000x1, col⟩, ⟨S1x1, last⟩] concatenates_S100000x1_S1x1_S100001x1_d0

/-! ## The layers and the mean -/

/-- One layer: the neighbours' rows summed, times the weights, plus the bias, clamped below at zero. -/
def layer (h : FVec Ideal S100000x64 .f32) (src dst : Edges) (W : FVec Ideal S64x64 .f32) (b : FVec Ideal S64 .f32) :
    FVec Ideal S100000x64 .f32 :=
  dense (agg h src dst) W b

/-- The node array after the three layers. -/
def nodes (x : FVec Ideal S100000x64 .f32) (src dst : Edges) (W1 : FVec Ideal S64x64 .f32) (b1 : FVec Ideal S64 .f32)
    (W2 : FVec Ideal S64x64 .f32) (b2 : FVec Ideal S64 .f32) (W3 : FVec Ideal S64x64 .f32) (b3 : FVec Ideal S64 .f32) :
    FVec Ideal S100000x64 .f32 :=
  layer (layer (layer x src dst W1 b1) src dst W2 b2) src dst W3 b3

/-- The mean of each column of a 100000×64 array, as a 1×64 row: the column's sum times the real 1/100000. -/
def colMean (H : (⟨2, ![100000, 64]⟩ : Shape).Idx → EReal) : (⟨2, ![1, 64]⟩ : Shape).Idx → EReal :=
  fun i => (∑ r : Fin 100000, H (ix2 r (⟨(i 1).val, idx2_lt1 i⟩ : Fin 64))) * ((1 / 100000 : ℝ) : EReal)

theorem colMean_apply (H : (⟨2, ![100000, 64]⟩ : Shape).Idx → EReal) (q : Fin 64) :
    colMean H (ix2 0 q) = (∑ r : Fin 100000, H (ix2 r q)) * ((1 / 100000 : ℝ) : EReal) := rfl

/-- Row j of block t of a 100000-row array is row 10000·t + j. -/
def rowOf (t : Fin 10) (j : Fin 10000) : Fin 100000 := ⟨10000 * t.val + j.val, by have := t.isLt; have := j.isLt; omega⟩

/-- A column's sum over all rows is the sum over the ten blocks of 10000 rows of each block's sum. -/
theorem sum_blocks (H : (⟨2, ![100000, 64]⟩ : Shape).Idx → EReal) (q : Fin 64) :
    ∑ t : Fin 10, ∑ j : Fin 10000, H (ix2 (rowOf t j) q) = ∑ r : Fin 100000, H (ix2 r q) := by
  have h := Cert.Lib.FinGroups.sum_fin_groups 10 10000
    (fun n => if hn : n < 100000 then H (ix2 (⟨n, hn⟩ : Fin 100000) q) else 0)
  have e1 : ∑ n : Fin (10 * 10000), (if hn : n.val < 100000 then H (ix2 (⟨n.val, hn⟩ : Fin 100000) q) else 0)
      = ∑ r : Fin 100000, H (ix2 r q) :=
    Finset.sum_congr rfl fun r _ => by rw [dif_pos r.isLt]
  rw [← e1, h]
  refine Finset.sum_congr rfl fun t _ => Finset.sum_congr rfl fun j _ => ?_
  have hlt : 10000 * t.val + j.val < 100000 := by have := t.isLt; have := j.isLt; omega
  rw [dif_pos hlt]
  rfl

/-! ## The two results, as functions of the fifteen arguments -/

/-- The single number returned beside the scores. -/
def valueOf (x : FVec Ideal S100000x64 .f32) (src dst : Edges) (W1 : FVec Ideal S64x64 .f32) (b1 : FVec Ideal S64 .f32)
    (W2 : FVec Ideal S64x64 .f32) (b2 : FVec Ideal S64 .f32) (W3 : FVec Ideal S64x64 .f32) (b3 : FVec Ideal S64 .f32)
    (Wv : FVec Ideal S64x1 .f32) (bv : FVec Ideal S1 .f32) : FVec Ideal S1x1 .f32 :=
  project (colMean (nodes x src dst W1 b1 W2 b2 W3 b3)) Wv bv

/-- The score of every node, and below them the score of the mean row. -/
def scoresOf (x : FVec Ideal S100000x64 .f32) (src dst : Edges) (W1 : FVec Ideal S64x64 .f32) (b1 : FVec Ideal S64 .f32)
    (W2 : FVec Ideal S64x64 .f32) (b2 : FVec Ideal S64 .f32) (W3 : FVec Ideal S64x64 .f32) (b3 : FVec Ideal S64 .f32)
    (Wpg : FVec Ideal S64x1 .f32) (bpg : FVec Ideal S1 .f32) (Wpd : FVec Ideal S64x1 .f32) (bpd : FVec Ideal S1 .f32) :
    FVec Ideal S100001x1 .f32 :=
  below (affine (nodes x src dst W1 b1 W2 b2 W3 b3) Wpg bpg)
    (project (colMean (nodes x src dst W1 b1 W2 b2 W3 b3)) Wpd bpd)

end Cert.Gcn

end
-- ==== Proof.LibColumnSums.lean ====
/-
  Sums along the first axis of a two-axis array, on the extended reals.

  The sum along the first axis of an a×b array is, at column q, the sum over the rows k of the entry (k, q) — for a
  kernel body's lane reduction from the zero accumulator (`colsum_apply`), and for a host program's reduce-add, which
  also adds its initial value (`host_colsum_apply`). Both rest on one index fact: a column index q with the row index
  k put back on the first axis is (k, q) (`lift_col`). Nothing here mentions a program.
-/
import Idealize.ShloMosaic.PureOps.Ideal
import Idealize.ShloMosaic.PureOps.Ideal.Laws
import Idealize.ShloMosaic.PureOps.Reduce
import Idealize.ShloMosaic.Lib.ValueIdx

open scoped BigOperators

noncomputable section

namespace Cert.Lib.ColumnSums

open Idealize.ShloMosaic Idealize.ShloMosaic.ValueIdx

variable {a b : Nat} {φ : FTy}

/-- A column index q of an a×b array with a row index k put back on the first axis is (k, q). -/
theorem lift_col (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext ax; apply Fin.ext
  match ax with
  | ⟨0, _⟩ => rfl
  | ⟨1, _⟩ => rfl

/-- The sum along the first axis of an a×b block, from the neutral accumulator, is at q the sum over k of the block at
    (k, q). -/
theorem colsum_apply (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (q : Fin b) :
    multiReduction .add [0] ⟨1, ![b]⟩ src acc h hφ hacc (ix1 q) = ∑ k : Fin a, src (ix2 k q) := by
  rw [Ideal.multiReduction_add_single]
  exact Finset.sum_congr rfl fun k _ => congrArg src (lift_col h q k)

/-- The host's reduce-add along the first axis of an a×b array is at q the initial value plus the sum over k of the
    array at (k, q). -/
theorem host_colsum_apply (h' : (⟨2, ![a, b]⟩ : Shape).ReducesTo [0] ⟨1, ![b]⟩) (h : (⟨2, ![a, b]⟩ : Shape).Reduces [0] ⟨1, ![b]⟩)
    (x : (⟨2, ![a, b]⟩ : Shape).Idx → EReal) (init : EReal) (q : Fin b) :
    Ideal.hostReduceAdd h' x init (ix1 q) = init + ∑ k : Fin a, x (ix2 k q) := by
  rw [Ideal.hostReduceAdd_single h' h]
  exact congrArg (init + ·) (Finset.sum_congr rfl fun k _ => congrArg x (lift_col h q k))

end Cert.Lib.ColumnSums

end
-- ==== Proof.IdealMeanValue.lean ====
/-
  What the mean's region leaves in its output array, on the extended reals.

  The body's three values, read at an index: the zero row (`zeroRow_apply`); a running row plus the block's column sums
  (`addSums_apply`: the sum along the first axis of a 10000×64 block at column q is the sum over its rows of the
  entries of column q, `Cert.Lib.ColumnSums.colsum_apply`); a row times the named constant, which on the extended reals is the real 1/100000
  (`scaled_apply`, `inv_named`). What each case's stores leave, read back, is one of those values of the point's block
  and of what the scratch held (`sFirst_eq`, `sMid_eq`, `oLast_eq`).

  Block t is rows 10000·t … 10000·t + 9999 of the input array (`rows3_apply`), so by induction over the points the
  running row after point n holds, at column q, the sum over the first n + 1 blocks of each block's column sum
  (`scratch_at`); the first point starts it from zero, and 0 + x = x. At the last point the output's buffer gets that
  sum over all ten blocks times 1/100000; regrouping a finite sum in a commutative monoid, the ten block sums are
  the column's sum over all 100000 rows (`Cert.Gcn.sum_blocks`), so the value is the column mean (`mean_at_last`).
  The one write-back, at the last point, covers the 1×64 output array, which therefore ends holding the column means
  of the input array (`final3`). Nothing here distributes a product over a sum or cancels, so no entry needs to be
  finite.
-/
import proofs.«177146_j56882546868897_1_alg».proof.Proof.IdealMean
import proofs.«177146_j56882546868897_1_alg».proof.Proof.IdealLayer1Value
import proofs.«177146_j56882546868897_1_alg».proof.Proof.Model
import proofs.«177146_j56882546868897_1_alg».proof.Proof.LibRowReductions
import proofs.«177146_j56882546868897_1_alg».proof.Proof.LibRowVector
import proofs.«177146_j56882546868897_1_alg».proof.Proof.LibColumnSums
import Idealize.ShloMosaic.Lib.Pipeline.Value
import Idealize.ShloMosaic.Lib.ValueIdx
import Idealize.ShloMosaic.PureOps.Ideal.Laws
import Idealize.ShloMosaic.PureOps.IdealRules
import Idealize.ShloMosaic.Lib.Tactic

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Idealize.ShloMosaic.Tactic Cert.Gcn Cert.Lib.RowReductions Cert.Lib.RowVector Cert.Lib.ColumnSums

-- the buffers' contents when the region is entered, on the extended reals
variable (V : (c : Dev nD) → (b : Ref sig .tc) → Buf (Elt Ideal) ((c : Thread nD τ).loc b))

/-! ## The body's three values at an index -/

/-- The named constant is the real 1/100000, by the certificate's table. -/
theorem inv_named : Named.named (F := Ideal) Cert.KernelIdeal.κ "inv_100000" (φ := .f32) 0x3727C5AC#32 = ((1 / 100000 : ℝ) : EReal) :=
  IdealRules.named_const.ideal_named_scalar _ _ _ _ rfl

/-- The row the first point stores first: zero everywhere. -/
theorem zeroRow_apply (y : S1x64.Idx) : k3_pay1 (F := Ideal) y = 0 := by
  unfold k3_pay1
  simp only [shapeCast_self]
  exact Ideal.ofBits_zero_f32

/-- A running row plus the block's column sums, at column q. -/
theorem addSums_apply (v3 : FVec Ideal S1x64 .f32) (v4 : FVec Ideal S10000x64 .f32) (q : Fin 64) :
    k3_pay2 (F := Ideal) v3 v4 (ix2 0 q) = v3 (ix2 0 q) + ∑ k : Fin 10000, v4 (ix2 k q) := by
  unfold k3_pay2
  simp only [shapeCast_self]
  rw [addf_apply, shapeCast_rowvec_apply]
  exact congrArg (v3 (ix2 0 q) + ·) (colsum_apply (a := 10000) (b := 64) v4 _ _ _ _ q)

/-- A row times the named constant, entry by entry. -/
theorem scaled_apply (v15 : FVec Ideal S1x64 .f32) (y : S1x64.Idx) :
    k3_pay3 (F := Ideal) v15 y = v15 y * ((1 / 100000 : ℝ) : EReal) := by
  unfold k3_pay3
  rw [mulf_apply]
  show v15 y * Named.named (F := Ideal) Cert.KernelIdeal.κ "inv_100000" (φ := .f32) 0x3727C5AC#32 = _
  rw [inv_named]

/-! ## What each case's stores leave, read back -/

/-- The first point leaves in the scratch the zero row plus the block's column sums. -/
theorem sFirst_eq (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : atFirst i) (hc1 : ¬atLast i) (x0 : Vec Ideal S10000x64 .f32) :
    sFirst (F := Ideal) c i arg1 harg1 arg2 harg2 arg3 harg3 hc0 hc1 x0 = k3_pay2 (F := Ideal) (k3_pay1 (F := Ideal)) x0 := by
  unfold sFirst
  rw [View.read_writes_eq_canon _ _ _ (scoverFirst c i arg1 harg1 arg2 harg2 arg3 harg3 hc0 hc1 x0)]
  unfold meanRunFirst
  dsimp only
  try sl_unfold_words
  rw [View.canon_cons_unit_zero (S := S1x64) zero2, View.readCov_unit_zero (S := S1x64) _ zero2]
  simp only [View.readAt_eq_ld, harg1.read_unread, View.ld_unit_zero (S := S10000x64) zero2]

/-- A middle point leaves in the scratch what it held plus the block's column sums. -/
theorem sMid_eq (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : ¬atLast i) (x0 : Vec Ideal S10000x64 .f32) (xs0 : Vec Ideal S1x64 .f32) :
    sMid (F := Ideal) c i arg1 harg1 arg2 harg2 arg3 harg3 hc0 hc1 x0 xs0 = k3_pay2 (F := Ideal) xs0 x0 := by
  unfold sMid
  rw [View.read_writes_eq_canon _ _ _ (scoverMid c i arg1 harg1 arg2 harg2 arg3 harg3 hc0 hc1 x0 xs0)]
  unfold meanRunMid
  dsimp only
  try sl_unfold_words
  rw [View.canon_unit_zero (S := S1x64) zero2]
  simp only [View.readAt_eq_ld, harg1.read_unread, harg3.read_unread, View.ld_unit_zero (S := S10000x64) zero2, View.ld_unit_zero (S := S1x64) zero2]

/-- The last point stores into the output that same sum times the constant. -/
theorem oLast_eq (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (hc0 : ¬atFirst i) (hc1 : atLast i) (x0 : Vec Ideal S10000x64 .f32) (xs0 : Vec Ideal S1x64 .f32) :
    oLast (F := Ideal) c i arg1 harg1 arg2 harg2 arg3 harg3 hc0 hc1 x0 xs0 = k3_pay3 (F := Ideal) (k3_pay2 (F := Ideal) xs0 x0) := by
  unfold oLast
  rw [View.read_writes_eq_canon _ _ _ (coverLast c i arg1 harg1 arg2 harg2 arg3 harg3 hc0 hc1 x0 xs0)]
  unfold meanRunLast
  dsimp only
  try sl_unfold_words
  rw [View.canon_unit_zero (S := S1x64) zero2, View.readCov_unit_zero (S := S1x64) _ zero2]
  simp only [View.readAt_eq_ld, harg1.read_unread, harg3.read_unread, View.ld_unit_zero (S := S10000x64) zero2, View.ld_unit_zero (S := S1x64) zero2]

/-! ## The blocks as rows of the input array -/

/-- The printed index maps over the grid: the row blocks move with the point, the output window stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- An entry of the row block at point t is the entry of the array 10000·t rows further down. -/
theorem rows3_apply (c : Dev nD) (t : Fin cfg3.N) (x : S10000x64.Idx) (k : S100000x64.Idx)
    (hk0 : (k 0).val = 10000 * t.val + (x 0).val) (hk1 : (k 1).val = (x 1).val) :
    (iblk3 V c 0 t : Vec Ideal S10000x64 .f32) x = (V c main_v36_0 : S100000x64.Idx → Elt Ideal .f32) k := by
  obtain ⟨e0, e1, -⟩ := idx3 t
  unfold iblk3
  rw [View.read_apply]
  show (V c main_v36_0 : S100000x64.Idx → Elt Ideal .f32) _ = V c main_v36_0 k
  refine congrArg _ ?_
  funext a
  apply Fin.ext
  match a with
  | ⟨0, _⟩ => show win3_0.index t 0 * 10000 + 1 * (x 0).val = (k 0).val; rw [e0, hk0]; omega
  | ⟨1, _⟩ => show win3_0.index t 1 * 64 + 1 * (x 1).val = (k 1).val; rw [e1, hk1]; omega

/-- The column sum of block t of the input array, at column q. -/
def blockSum (H : S100000x64.Idx → EReal) (q : Fin 64) (t : Fin 10) : EReal := ∑ j : Fin 10000, H (ix2 (rowOf t j) q)

/-- The block handed to the body at point t has that column sum. -/
theorem block_colsum (c : Dev nD) (t : Fin cfg3.N) (t' : Fin 10) (ht : t'.val = t.val) (q : Fin 64)
    (x0 : FVec Ideal S10000x64 .f32) (hx : x0 = iblk3 V c 0 t) :
    ∑ k : Fin 10000, x0 (ix2 k q) = blockSum (V c main_v36_0) q t' := by
  subst hx
  exact Finset.sum_congr rfl fun k _ => rows3_apply V c t (ix2 k q) (ix2 (rowOf t' k) q) (by show 10000 * t'.val + k.val = 10000 * t.val + k.val; rw [ht]) rfl

/-! ## The running row, point by point -/

/-- After point n (before the last) the running row holds, at column q, the sum of the first n + 1 blocks' column sums. -/
theorem scratch_at (c : Dev nD) (q : Fin 64) : ∀ (n : ℕ) (hn : n < cfg3.N) (h9 : n < 9),
    (outsAt3 V c n hn).2 (ix2 0 q) = ∑ t ∈ Finset.range (n + 1), (if h : t < 10 then blockSum (V c main_v36_0) q ⟨t, h⟩ else 0)
  | 0, hn, _ => by
    have e := outsAt3_first V c ⟨0, hn⟩ rfl (show ¬(0 : ℕ) = 9 by decide)
    dsimp only at e
    rw [e]
    dsimp only
    rw [sFirst_eq, addSums_apply, zeroRow_apply, zero_add, block_colsum V c ⟨0, hn⟩ ⟨0, by decide⟩ rfl q _ rfl,
      Finset.sum_range_one, dif_pos (by decide : 0 < 10)]
  | n + 1, hn, h9 => by
    have e := outsAt3_mid V c ⟨n + 1, hn⟩ (Nat.succ_ne_zero n) (by show ¬ n + 1 = 9; omega)
    dsimp only at e
    rw [e]
    dsimp only
    rw [sMid_eq, addSums_apply, Finset.sum_range_succ, dif_pos (by omega : n + 1 < 10),
      block_colsum V c ⟨n + 1, hn⟩ ⟨n + 1, by omega⟩ rfl q _ rfl]
    exact congrArg (· + _) (scratch_at c q n _ (by omega))

/-- The sum of the ten blocks' column sums is the column's sum over all rows. -/
theorem sum_ten (H : S100000x64.Idx → EReal) (q : Fin 64) :
    ∑ t ∈ Finset.range 10, (if h : t < 10 then blockSum H q ⟨t, h⟩ else 0) = ∑ r : Fin 100000, H (ix2 r q) := by
  rw [Finset.sum_range fun t => (if h : t < 10 then blockSum H q ⟨t, h⟩ else 0), ← sum_blocks H q]
  exact Finset.sum_congr rfl fun t _ => by rw [dif_pos t.isLt]; rfl

/-- What the last point leaves in the output's buffer: the column means of the input array. -/
theorem mean_at_last (c : Dev nD) (hn : 9 < cfg3.N) :
    (outsAt3 V c 9 hn).1 = colMean (V c main_v36_0 : S100000x64.Idx → EReal) := by
  have e := outsAt3_last V c ⟨9, hn⟩ (show ¬(9 : ℕ) = 0 by decide) rfl
  dsimp only at e
  rw [e]
  dsimp only
  rw [oLast_eq]
  funext y
  obtain ⟨q, rfl⟩ : ∃ q : Fin 64, y = ix2 0 q := ⟨y 1, idx_row y⟩
  rw [scaled_apply, addSums_apply, colMean_apply, ← sum_ten, Finset.sum_range_succ, dif_pos (by decide : 9 < 10),
    block_colsum V c ⟨9, hn⟩ ⟨9, by decide⟩ rfl q _ rfl]
  exact congrArg (fun s => (s + _) * _) (scratch_at V c q 8 _ (by decide))

/-! ## The one write-back and the output array -/

/-- The one write-back, at the last point, writes the column means: the output's block is the whole 1×64 array. -/
theorem flushed3 (c : Dev nD) (t : Fin cfg3.N) (hf : (cfg3.win 1).flush t = true) :
    (dat3 V c).flushed 1 t = ((cfg3.win 1).blk t).view.read (Elt Ideal) (colMean (V c main_v36_0 : S100000x64.Idx → EReal)) := by
  have hN : cfg3.N = 10 := N_3
  have h9 : t.val = 9 := by have := (flush3_1 t).mp hf; have := t.isLt; omega
  obtain ⟨-, -, e2, e3⟩ := idx3 t
  obtain ⟨n, hn⟩ := t
  dsimp only at h9
  subst h9
  show (cfg3.win 1).cut (grid3.coords ⟨9, hn⟩) ((dat3 V c).after 1 ⟨9, hn⟩) = _
  rw [after3_1]
  dsimp only
  rw [mean_at_last V c hn]
  funext y
  rw [View.read_apply]
  refine congrArg (colMean (V c main_v36_0 : S100000x64.Idx → EReal)) ?_
  funext a
  apply Fin.ext
  match a with
  | ⟨0, _⟩ => show (y 0).val = win3_1.index ⟨9, hn⟩ 0 * 1 + 1 * (y 0).val; rw [e2]; omega
  | ⟨1, _⟩ => show (y 1).val = win3_1.index ⟨9, hn⟩ 1 * 64 + 1 * (y 1).val; rw [e3]; omega

/-- An index of the output array is in point t's block iff each coordinate is in the block's range on its axis. -/
theorem mem_blk3 (t : Fin cfg3.N) (i : S1x64.Idx) :
    i ∈ ((cfg3.win 1).blk t).view.set ↔ ∀ a : Fin 2, win3_1.index t a * S1x64.size a ≤ (i a).val ∧ (i a).val < win3_1.index t a * S1x64.size a + S1x64.size a := by
  show i ∈ ((View.whole main_v37).slice (win3_1.rect t)).set ↔ _
  rw [View.set_slice_whole, Rect.mem_set_unit]
  exact Iff.rfl

/-- The last point's block is the whole output array. -/
theorem cover3 (i : S1x64.Idx) : ∃ t : Fin cfg3.N, (cfg3.win 1).flush t = true ∧ i ∈ ((cfg3.win 1).blk t).view.set := by
  have h0 : (i 0).val < 1 := (i 0).isLt
  have h1 : (i 1).val < 64 := (i 1).isLt
  have hN : cfg3.N = 10 := N_3
  obtain ⟨t, ht⟩ : ∃ t : Fin cfg3.N, t.val = 9 := ⟨⟨9, by rw [hN]; decide⟩, rfl⟩
  obtain ⟨-, -, e2, e3⟩ := idx3 t
  refine ⟨t, (flush3_1 t).mpr (by rw [ht]), ?_⟩
  rw [mem_blk3]
  intro a
  match a with
  | ⟨0, _⟩ =>
    show win3_1.index t 0 * 1 ≤ (i 0).val ∧ (i 0).val < win3_1.index t 0 * 1 + 1
    rw [e2]; omega
  | ⟨1, _⟩ =>
    show win3_1.index t 1 * 64 ≤ (i 1).val ∧ (i 1).val < win3_1.index t 1 * 64 + 64
    rw [e3]; omega

/-- THE OUTPUT ARRAY after the region: the column means of the input array. -/
theorem final3 (c : Dev nD) : (dat3 V c).arrAt 1 cfg3.N = colMean (V c main_v36_0 : S100000x64.Idx → EReal) :=
  (dat3 V c).arrAt_eq_of_cover 1 (colMean (V c main_v36_0 : S100000x64.Idx → EReal)) (flushed3 V c) (cover3)

end Cert.KernelIdeal.HandValue

end
-- ==== Proof.IdealResult.lean ====
/-
  The idealized kernel's program computes the model's two results.

  Walking the program's items in order, on the extended reals. A host stretch before a layer's region gathers every
  edge's source row of the current node array and sums it into the edge's destination row (`agg`), and re-shapes the
  bias vector to a 1×64 row; the region then leaves the layer of that array (`final0`, `final1`, `final2_5`), whose
  spelling as a biased, clamped product with the bias as a row is `layer`. After the third layer the same region has
  also left the node scores (`final2_6`: `affine`), and the next region the column means (`final3`: `colMean`). The
  last host stretch multiplies the mean row by two 64×1 weights, adds the biases, and appends one of the two numbers
  below the node scores — operations the model spells the same way. Argument arrays are read through the fold
  unchanged (`kept1` … `kept7`). So the two result buffers end at `scoresOf` and `valueOf` of the argument arrays
  (`scores_end`, `value_end`).
-/
import proofs.«177146_j56882546868897_1_alg».proof.Proof.IdealRun
import proofs.«177146_j56882546868897_1_alg».proof.Proof.IdealLayer1Value
import proofs.«177146_j56882546868897_1_alg».proof.Proof.IdealLayer2Value
import proofs.«177146_j56882546868897_1_alg».proof.Proof.IdealLayer3Value
import proofs.«177146_j56882546868897_1_alg».proof.Proof.IdealMeanValue
import proofs.«177146_j56882546868897_1_alg».proof.Proof.Model
import proofs.«177146_j56882546868897_1_alg».proof.Proof.LibRowVector
import proofs.«177146_j56882546868897_1_alg».proof.Proof.LibDenseLayers
import Idealize.ShloMosaic.Lib.StableHlo.Run
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open Idealize.ShloMosaic.Pipeline (Dat)
open Cert.Gcn Cert.Lib.RowVector Cert.Layers Cert.Lib.MatProd Cert.Lib.BiasRelu

variable (m : (ℓ : Loc nD τ sig) → Buf (Elt Ideal) ℓ) (ρ : Dev nD → PrngReg)

/-! ## A buffer nothing has written yet holds its launch contents -/

theorem kept1 (c : Dev nD) (b : Ref sig .tc) (h0 : b ∉ hostOps0_W) :
    W1 m ρ c (Proc.devRef .tc b) = m ((c : Thread nD τ).loc b) :=
  (StableHlo.after_of_writes_sub hostOps0 _ hostOps0_writes h0).trans rfl
theorem kept2 (c : Dev nD) (b : Ref sig .tc) (h0 : b ∉ hostOps0_W) (hb : b ≠ main_v11) :
    W2 m ρ c (Proc.devRef .tc b) = m ((c : Thread nD τ).loc b) :=
  (W2_keep m ρ c b hb).trans (kept1 m ρ c b h0)
theorem kept3 (c : Dev nD) (b : Ref sig .tc) (h0 : b ∉ hostOps0_W) (hb : b ≠ main_v11) (h1 : b ∉ hostOps1_W) :
    W3 m ρ c (Proc.devRef .tc b) = m ((c : Thread nD τ).loc b) :=
  (StableHlo.after_of_writes_sub hostOps1 _ hostOps1_writes h1).trans (kept2 m ρ c b h0 hb)
theorem kept4 (c : Dev nD) (b : Ref sig .tc) (h0 : b ∉ hostOps0_W) (hb : b ≠ main_v11) (h1 : b ∉ hostOps1_W) (hb' : b ≠ main_v23) :
    W4 m ρ c (Proc.devRef .tc b) = m ((c : Thread nD τ).loc b) :=
  (W4_keep m ρ c b hb').trans (kept3 m ρ c b h0 hb h1)
theorem kept5 (c : Dev nD) (b : Ref sig .tc) (h0 : b ∉ hostOps0_W) (hb : b ≠ main_v11) (h1 : b ∉ hostOps1_W) (hb' : b ≠ main_v23)
    (h2 : b ∉ hostOps2_W) : W5 m ρ c (Proc.devRef .tc b) = m ((c : Thread nD τ).loc b) :=
  (StableHlo.after_of_writes_sub hostOps2 _ hostOps2_writes h2).trans (kept4 m ρ c b h0 hb h1 hb')
theorem kept7 (c : Dev nD) (b : Ref sig .tc) (h0 : b ∉ hostOps0_W) (hb : b ≠ main_v11) (h1 : b ∉ hostOps1_W) (hb' : b ≠ main_v23)
    (h2 : b ∉ hostOps2_W) (hc1 : b ≠ main_v36_0) (hc2 : b ≠ main_v36_1) (hd : b ≠ main_v37) :
    W7 m ρ c (Proc.devRef .tc b) = m ((c : Thread nD τ).loc b) :=
  (W7_keep m ρ c b hd).trans ((W6_keep m ρ c b hc1 hc2).trans (kept5 m ρ c b h0 hb h1 hb' h2))

/-! ## The first layer -/

theorem sums1 (c : Dev nD) : W1 m ρ c (Proc.devRef .tc main_v9) = agg (m ((c.tc : Thread nD τ).loc main_arg0)) (m ((c.tc : Thread nD τ).loc main_arg1)) (m ((c.tc : Thread nD τ).loc main_arg2)) := by
  show StableHlo.after hostOps0 (W0 m ρ c) (Proc.devRef .tc main_v9) = _
  after_results
  rfl

theorem bias1 (c : Dev nD) : W1 m ρ c (Proc.devRef .tc main_v10) = asRow (m ((c.tc : Thread nD τ).loc main_arg4)) := by
  show StableHlo.after hostOps0 (W0 m ρ c) (Proc.devRef .tc main_v10) = _
  after_results
  funext i
  show shapeCast S1x64 (m ((c.tc : Thread nD τ).loc main_arg4) : S64.Idx → EReal) shapeCasts_S64_S1x64 i = _
  rw [shapeCast_eq_asRow]

theorem layer1_end (c : Dev nD) : W2 m ρ c (Proc.devRef .tc main_v11) = (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (W2_arr m ρ c 3).trans ((final0 (at1 m ρ) c).trans ?_)
  show biasRelu (matProd (W1 m ρ c (Proc.devRef .tc main_v9) : S100000x64.Idx → EReal) (W1 m ρ c (Proc.devRef .tc main_arg3) : S64x64.Idx → EReal))
      (W1 m ρ c (Proc.devRef .tc main_v10) : S1x64.Idx → EReal) = _
  rw [sums1, bias1, kept1 m ρ c main_arg3 (by decide)]
  rfl

/-! ## The second layer -/

theorem sums2 (c : Dev nD) : W3 m ρ c (Proc.devRef .tc main_v21) = agg (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) := by
  show StableHlo.after hostOps1 (W2 m ρ c) (Proc.devRef .tc main_v21) = _
  after_results
  rw [layer1_end, kept2 m ρ c main_arg1 (by decide) (by decide), kept2 m ρ c main_arg2 (by decide) (by decide)]
  rfl

theorem bias2 (c : Dev nD) : W3 m ρ c (Proc.devRef .tc main_v22) = asRow (m ((c.tc : Thread nD τ).loc main_arg6)) := by
  show StableHlo.after hostOps1 (W2 m ρ c) (Proc.devRef .tc main_v22) = _
  after_results
  rw [kept2 m ρ c main_arg6 (by decide) (by decide)]
  funext i
  show shapeCast S1x64 (m ((c.tc : Thread nD τ).loc main_arg6) : S64.Idx → EReal) shapeCasts_S64_S1x64 i = _
  rw [shapeCast_eq_asRow]

theorem layer2_end (c : Dev nD) : W4 m ρ c (Proc.devRef .tc main_v23) = (layer (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) := by
  refine (W4_arr m ρ c 3).trans ((final1 (at3 m ρ) c).trans ?_)
  show biasRelu (matProd (W3 m ρ c (Proc.devRef .tc main_v21) : S100000x64.Idx → EReal) (W3 m ρ c (Proc.devRef .tc main_arg5) : S64x64.Idx → EReal))
      (W3 m ρ c (Proc.devRef .tc main_v22) : S1x64.Idx → EReal) = _
  rw [sums2, bias2, kept3 m ρ c main_arg5 (by decide) (by decide) (by decide)]
  rfl

/-! ## The third layer and the node scores -/

theorem sums3 (c : Dev nD) : W5 m ρ c (Proc.devRef .tc main_v33) = agg (layer (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) := by
  show StableHlo.after hostOps2 (W4 m ρ c) (Proc.devRef .tc main_v33) = _
  after_results
  rw [layer2_end, kept4 m ρ c main_arg1 (by decide) (by decide) (by decide) (by decide), kept4 m ρ c main_arg2 (by decide) (by decide) (by decide) (by decide)]
  rfl

theorem bias3 (c : Dev nD) : W5 m ρ c (Proc.devRef .tc main_v34) = asRow (m ((c.tc : Thread nD τ).loc main_arg8)) := by
  show StableHlo.after hostOps2 (W4 m ρ c) (Proc.devRef .tc main_v34) = _
  after_results
  rw [kept4 m ρ c main_arg8 (by decide) (by decide) (by decide) (by decide)]
  funext i
  show shapeCast S1x64 (m ((c.tc : Thread nD τ).loc main_arg8) : S64.Idx → EReal) shapeCasts_S64_S1x64 i = _
  rw [shapeCast_eq_asRow]

theorem scoreBias (c : Dev nD) : W5 m ρ c (Proc.devRef .tc main_v35) = asRow (m ((c.tc : Thread nD τ).loc main_arg10)) := by
  show StableHlo.after hostOps2 (W4 m ρ c) (Proc.devRef .tc main_v35) = _
  after_results
  rw [kept4 m ρ c main_arg10 (by decide) (by decide) (by decide) (by decide)]
  funext i
  show shapeCast S1x1 (m ((c.tc : Thread nD τ).loc main_arg10) : S1.Idx → EReal) shapeCasts_S1_S1x1 i = _
  rw [shapeCast_eq_asRow]

theorem layer3_entry (c : Dev nD) : layerOf2 (at5 m ρ) c = (nodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show biasRelu (matProd (W5 m ρ c (Proc.devRef .tc main_v33) : S100000x64.Idx → EReal) (W5 m ρ c (Proc.devRef .tc main_arg7) : S64x64.Idx → EReal))
      (W5 m ρ c (Proc.devRef .tc main_v34) : S1x64.Idx → EReal) = _
  rw [sums3, bias3, kept5 m ρ c main_arg7 (by decide) (by decide) (by decide) (by decide) (by decide)]
  rfl

theorem nodes_end (c : Dev nD) : W6 m ρ c (Proc.devRef .tc main_v36_0) = (nodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W6_arr m ρ c 5).trans ((final2_5 (at5 m ρ) c).trans (layer3_entry m ρ c))

theorem scores6 (c : Dev nD) : W6 m ρ c (Proc.devRef .tc main_v36_1) = affine (nodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) := by
  refine (W6_arr m ρ c 6).trans ((final2_6 (at5 m ρ) c).trans ?_)
  show biasAdd (matProd (layerOf2 (at5 m ρ) c) (W5 m ρ c (Proc.devRef .tc main_arg9) : S64x1.Idx → EReal))
      (W5 m ρ c (Proc.devRef .tc main_v35) : S1x1.Idx → EReal) = _
  rw [layer3_entry, scoreBias, kept5 m ρ c main_arg9 (by decide) (by decide) (by decide) (by decide) (by decide)]
  rfl

/-! ## The mean, and the last host stretch -/

theorem mean_end (c : Dev nD) : W7 m ρ c (Proc.devRef .tc main_v37) = colMean (nodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (W7_arr m ρ c 1).trans ((final3 (at6 m ρ) c).trans ?_)
  show colMean (W6 m ρ c (Proc.devRef .tc main_v36_0) : S100000x64.Idx → EReal) = _
  rw [nodes_end]

theorem scores7 (c : Dev nD) : W7 m ρ c (Proc.devRef .tc main_v36_1) = affine (nodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10)) :=
  (W7_keep m ρ c main_v36_1 (by decide)).trans (scores6 m ρ c)

/-- THE SECOND RESULT: the mean row's value. -/
theorem value_end (c : Dev nD) :
    W8 m ρ c (Proc.devRef .tc main_v40) = valueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) := by
  show StableHlo.after hostOps4 (W7 m ρ c) (Proc.devRef .tc main_v40) = _
  after_results
  rw [mean_end, kept7 m ρ c main_arg13 (by decide) (by decide) (by decide) (by decide) (by decide) (by decide) (by decide) (by decide), kept7 m ρ c main_arg14 (by decide) (by decide) (by decide) (by decide) (by decide) (by decide) (by decide) (by decide)]
  rfl

/-- THE FIRST RESULT: the node scores with the mean row's score below. -/
theorem scores_end (c : Dev nD) :
    W8 m ρ c (Proc.devRef .tc main_v44) = scoresOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps4 (W7 m ρ c) (Proc.devRef .tc main_v44) = _
  after_results
  rw [mean_end, scores7, kept7 m ρ c main_arg11 (by decide) (by decide) (by decide) (by decide) (by decide) (by decide) (by decide) (by decide), kept7 m ρ c main_arg12 (by decide) (by decide) (by decide) (by decide) (by decide) (by decide) (by decide) (by decide)]
  rfl

end Cert.KernelIdeal.HandValue

end
-- ==== Proof.RefResult.lean ====
/-
  The reference program computes the model's two results.

  The reference spells a layer's dense step as a dot_general, the bias vector broadcast into a row and that into the
  whole array, an add, and a maximum with a broadcast zero: on the extended reals that is `dense` of the summed rows
  (`host_layer`). It spells the node scores as a dot_general plus the one-entry bias broadcast twice: `affine`
  (`host_scores`). And it spells the mean as a reduce-add along the first axis from zero, broadcast into a row, divided
  by a broadcast of the word 0x47C35000, which denotes the real 100000 (`ofBits_1e5`): at column q that is
  (0 + the column's sum) / 100000, and division by a nonzero real is the product with its reciprocal at the
  infinities too, so it is the column's sum times the real 1/100000 (`host_mean`). Everything else — the edge traffic,
  the two small products, the concatenate — is spelt exactly as the model spells it, so the run's two result terms
  are `scoresOf` and `valueOf` of the argument arrays (`run_model`).
-/
import proofs.«177146_j56882546868897_1_alg».proof.Proof.Model
import proofs.«177146_j56882546868897_1_alg».proof.Proof.Gen.ReferenceIdeal.Run
import proofs.«177146_j56882546868897_1_alg».proof.Proof.LibMatProd
import proofs.«177146_j56882546868897_1_alg».proof.Proof.LibBiasRelu
import proofs.«177146_j56882546868897_1_alg».proof.Proof.LibRowVector
import proofs.«177146_j56882546868897_1_alg».proof.Proof.LibDenseLayers
import proofs.«177146_j56882546868897_1_alg».proof.Proof.LibColumnSums
import Idealize.ShloMosaic.PureOps.Ideal.Laws
import Idealize.ShloMosaic.Lib.ValueIdx
import Idealize.ShloMosaic.Lib.Pipeline.Value

set_option maxRecDepth 16384

open scoped BigOperators

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx
open Cert.Gcn Cert.Lib.MatProd Cert.Lib.BiasRelu Cert.Lib.RowVector Cert.Layers Cert.Lib.ColumnSums

/-- The word 0x47C35000 denotes the real 100000. -/
theorem ofBits_1e5 : Ideal.ofBits .f32 0x47C35000#32 = ((100000 : ℝ) : EReal) := by
  simp [Ideal.ofBits, Ideal.ieee, -EReal.coe_mul]; norm_num

/-- The reference's dense step: the product, the bias vector as a row on every row, the maximum with zero. -/
theorem host_layer (A : FVec Ideal S100000x64 .f32) (W : FVec Ideal S64x64 .f32) (b : FVec Ideal S64 .f32) :
    maximumf (addf (Host.dotGeneral (F := Ideal) dot_S100000x64_S64x64_S100000x64_1_0_0_1_n_n none A W)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = dense A W b := by
  have hM : Host.dotGeneral (F := Ideal) dot_S100000x64_S64x64_S100000x64_1_0_0_1_n_n none A W = matProd A W :=
    dotGeneral_eq_matProd _ rfl rfl rfl rfl rfl rfl none .single A W
  rw [hM]
  exact Cert.Lib.BiasRelu.host_eq (matProd A W) b _ _ _

/-- The reference's node scores: the product plus the one-entry bias on every row. -/
theorem host_scores (H : FVec Ideal S100000x64 .f32) (Wp : FVec Ideal S64x1 .f32) (bp : FVec Ideal S1 .f32) :
    addf (Host.dotGeneral (F := Ideal) dot_S100000x64_S64x1_S100000x1_1_0_0_1_n_n none H Wp)
      (broadcastInDim S100000x1 ![0, 1] bcast_S1x1_S100000x1_0_1 (broadcastInDim S1x1 ![1] bcast_S1_S1x1_1 bp))
    = affine H Wp bp := by
  have hM : Host.dotGeneral (F := Ideal) dot_S100000x64_S64x1_S100000x1_1_0_0_1_n_n none H Wp = matProd H Wp :=
    dotGeneral_eq_matProd _ rfl rfl rfl rfl rfl rfl none .single H Wp
  rw [hM]
  exact Cert.Layers.host_bias (matProd H Wp) bp _ _

/-- The reference's mean: the columns' sums from zero, as a row, divided by 100000. -/
theorem host_mean (H : FVec Ideal S100000x64 .f32) :
    Host.divf (F := Ideal) (broadcastInDim S1x64 ![1] bcast_S64_S1x64_1
        (Host.reduceAdd (F := Ideal) H (constant (F := Ideal) S_ .f32 0x00000000#32) reducesTo_S100000x64_S64_d0 h_S_))
      (broadcastInDim S1x64 ![] bcast_S_S1x64 (constant (F := Ideal) S_ .f32 0x47C35000#32))
    = colMean H := by
  funext i
  obtain ⟨q, rfl⟩ : ∃ q : Fin 64, i = ix2 0 q := ⟨i 1, idx_row i⟩
  show Ideal.div _ _ = _
  rw [bcastInDim_eq_asRow, asRow_apply, bcastInDim_scalar_apply, colMean_apply]
  show Ideal.div (Ideal.hostReduceAdd reducesTo_S100000x64_S64_d0 H (Ideal.ofBits .f32 0x00000000#32) (ix1 q)) (Ideal.ofBits .f32 0x47C35000#32) = _
  rw [host_colsum_apply reducesTo_S100000x64_S64_d0 (by decide) H _ q, Ideal.ofBits_zero_f32, zero_add, ofBits_1e5,
    Ideal.div_coe (by norm_num : (100000 : ℝ) ≠ 0)]

/-- The reference's first result term, over any argument arrays: the node scores with the mean row's score below. -/
theorem scores_term (x : FVec Ideal S100000x64 .f32) (s d : Edges) (W1 : FVec Ideal S64x64 .f32) (b1 : FVec Ideal S64 .f32)
    (W2 : FVec Ideal S64x64 .f32) (b2 : FVec Ideal S64 .f32) (W3 : FVec Ideal S64x64 .f32) (b3 : FVec Ideal S64 .f32)
    (Wpg : FVec Ideal S64x1 .f32) (bpg : FVec Ideal S1 .f32) (Wpd : FVec Ideal S64x1 .f32) (bpd : FVec Ideal S1 .f32) :
    concatenate S100001x1 0 [⟨S100000x1, (addf (Host.dotGeneral (F := Ideal) dot_S100000x64_S64x1_S100000x1_1_0_0_1_n_n none (maximumf (addf (Host.dotGeneral (F := Ideal) dot_S100000x64_S64x64_S100000x64_1_0_0_1_n_n none (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 d) (Host.gather gather_S100000x64_S1000000x1_S1000000x64_1_0_n_n_0_1_164 (maximumf (addf (Host.dotGeneral (F := Ideal) dot_S100000x64_S64x64_S100000x64_1_0_0_1_n_n none (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 d) (Host.gather gather_S100000x64_S1000000x1_S1000000x64_1_0_n_n_0_1_164 (maximumf (addf (Host.dotGeneral (F := Ideal) dot_S100000x64_S64x64_S100000x64_1_0_0_1_n_n none (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 d) (Host.gather gather_S100000x64_S1000000x1_S1000000x64_1_0_n_n_0_1_164 x (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) W1) (broadcastInDim S100000x64 ![0, 1] bcast_S1x64_S100000x64_0_1 (broadcastInDim S1x64 ![1] bcast_S64_S1x64_1 b1))) (broadcastInDim S100000x64 ![] bcast_S_S100000x64 (constant (F := Ideal) S_ .f32 0x00000000#32))) (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) W2) (broadcastInDim S100000x64 ![0, 1] bcast_S1x64_S100000x64_0_1 (broadcastInDim S1x64 ![1] bcast_S64_S1x64_1 b2))) (broadcastInDim S100000x64 ![] bcast_S_S100000x64 (constant (F := Ideal) S_ .f32 0x00000000#32))) (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) W3) (broadcastInDim S100000x64 ![0, 1] bcast_S1x64_S100000x64_0_1 (broadcastInDim S1x64 ![1] bcast_S64_S1x64_1 b3))) (broadcastInDim S100000x64 ![] bcast_S_S100000x64 (constant (F := Ideal) S_ .f32 0x00000000#32))) Wpg) (broadcastInDim S100000x1 ![0, 1] bcast_S1x1_S100000x1_0_1 (broadcastInDim S1x1 ![1] bcast_S1_S1x1_1 bpg)))⟩, ⟨S1x1, (addf (Host.dotGeneral (F := Ideal) dot_S1x64_S64x1_S1x1_1_0_0_1_n_n none (Host.divf (F := Ideal) (broadcastInDim S1x64 ![1] bcast_S64_S1x64_1 (Host.reduceAdd (F := Ideal) (maximumf (addf (Host.dotGeneral (F := Ideal) dot_S100000x64_S64x64_S100000x64_1_0_0_1_n_n none (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 d) (Host.gather gather_S100000x64_S1000000x1_S1000000x64_1_0_n_n_0_1_164 (maximumf (addf (Host.dotGeneral (F := Ideal) dot_S100000x64_S64x64_S100000x64_1_0_0_1_n_n none (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 d) (Host.gather gather_S100000x64_S1000000x1_S1000000x64_1_0_n_n_0_1_164 (maximumf (addf (Host.dotGeneral (F := Ideal) dot_S100000x64_S64x64_S100000x64_1_0_0_1_n_n none (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 d) (Host.gather gather_S100000x64_S1000000x1_S1000000x64_1_0_n_n_0_1_164 x (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) W1) (broadcastInDim S100000x64 ![0, 1] bcast_S1x64_S100000x64_0_1 (broadcastInDim S1x64 ![1] bcast_S64_S1x64_1 b1))) (broadcastInDim S100000x64 ![] bcast_S_S100000x64 (constant (F := Ideal) S_ .f32 0x00000000#32))) (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) W2) (broadcastInDim S100000x64 ![0, 1] bcast_S1x64_S100000x64_0_1 (broadcastInDim S1x64 ![1] bcast_S64_S1x64_1 b2))) (broadcastInDim S100000x64 ![] bcast_S_S100000x64 (constant (F := Ideal) S_ .f32 0x00000000#32))) (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) W3) (broadcastInDim S100000x64 ![0, 1] bcast_S1x64_S100000x64_0_1 (broadcastInDim S1x64 ![1] bcast_S64_S1x64_1 b3))) (broadcastInDim S100000x64 ![] bcast_S_S100000x64 (constant (F := Ideal) S_ .f32 0x00000000#32))) (constant (F := Ideal) S_ .f32 0x00000000#32) reducesTo_S100000x64_S64_d0 h_S_)) (broadcastInDim S1x64 ![] bcast_S_S1x64 (constant (F := Ideal) S_ .f32 0x47C35000#32))) Wpd) (broadcastInDim S1x1 ![1] bcast_S1_S1x1_1 bpd))⟩] concatenates_S100000x1_S1x1_S100001x1_d0
    = scoresOf x s d W1 b1 W2 b2 W3 b3 Wpg bpg Wpd bpd := by
  rw [host_layer, host_layer, host_layer, host_scores, host_mean]
  rfl

/-- The reference's second result term, over any argument arrays: the mean row's value. -/
theorem value_term (x : FVec Ideal S100000x64 .f32) (s d : Edges) (W1 : FVec Ideal S64x64 .f32) (b1 : FVec Ideal S64 .f32)
    (W2 : FVec Ideal S64x64 .f32) (b2 : FVec Ideal S64 .f32) (W3 : FVec Ideal S64x64 .f32) (b3 : FVec Ideal S64 .f32)
    (Wv : FVec Ideal S64x1 .f32) (bv : FVec Ideal S1 .f32) :
    addf (Host.dotGeneral (F := Ideal) dot_S1x64_S64x1_S1x1_1_0_0_1_n_n none (Host.divf (F := Ideal) (broadcastInDim S1x64 ![1] bcast_S64_S1x64_1 (Host.reduceAdd (F := Ideal) (maximumf (addf (Host.dotGeneral (F := Ideal) dot_S100000x64_S64x64_S100000x64_1_0_0_1_n_n none (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 d) (Host.gather gather_S100000x64_S1000000x1_S1000000x64_1_0_n_n_0_1_164 (maximumf (addf (Host.dotGeneral (F := Ideal) dot_S100000x64_S64x64_S100000x64_1_0_0_1_n_n none (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 d) (Host.gather gather_S100000x64_S1000000x1_S1000000x64_1_0_n_n_0_1_164 (maximumf (addf (Host.dotGeneral (F := Ideal) dot_S100000x64_S64x64_S100000x64_1_0_0_1_n_n none (Host.scatterAdd (F := Ideal) scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 d) (Host.gather gather_S100000x64_S1000000x1_S1000000x64_1_0_n_n_0_1_164 x (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) W1) (broadcastInDim S100000x64 ![0, 1] bcast_S1x64_S100000x64_0_1 (broadcastInDim S1x64 ![1] bcast_S64_S1x64_1 b1))) (broadcastInDim S100000x64 ![] bcast_S_S100000x64 (constant (F := Ideal) S_ .f32 0x00000000#32))) (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) W2) (broadcastInDim S100000x64 ![0, 1] bcast_S1x64_S100000x64_0_1 (broadcastInDim S1x64 ![1] bcast_S64_S1x64_1 b2))) (broadcastInDim S100000x64 ![] bcast_S_S100000x64 (constant (F := Ideal) S_ .f32 0x00000000#32))) (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 100000#32))) s)))) W3) (broadcastInDim S100000x64 ![0, 1] bcast_S1x64_S100000x64_0_1 (broadcastInDim S1x64 ![1] bcast_S64_S1x64_1 b3))) (broadcastInDim S100000x64 ![] bcast_S_S100000x64 (constant (F := Ideal) S_ .f32 0x00000000#32))) (constant (F := Ideal) S_ .f32 0x00000000#32) reducesTo_S100000x64_S64_d0 h_S_)) (broadcastInDim S1x64 ![] bcast_S_S1x64 (constant (F := Ideal) S_ .f32 0x47C35000#32))) Wv) (broadcastInDim S1x1 ![1] bcast_S1_S1x1_1 bv)
    = valueOf x s d W1 b1 W2 b2 W3 b3 Wv bv := by
  rw [host_layer, host_layer, host_layer, host_mean]
  rfl

/-- The first result as the reference's run states it is the model's. -/
theorem scores_eq (m : (ℓ : Loc nD τ sig) → Buf (Elt Ideal) ℓ) (c : Dev nD) :
    res_main_v59 (F := Ideal) m c = scoresOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  scores_term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- THE REFERENCE'S RUN at the model: every weakly fair execution terminates with the two results at the model's
    functions of the argument arrays, and the arguments unchanged. -/
theorem run_model (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = scoresOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v51) = valueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1.trans (scores_eq m c),
      (h c).2.1.trans (value_term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14))),
      (h c).2.2⟩)
    (Cert.ReferenceIdeal.Value.run (F := Ideal) m ρ)

end Cert.ReferenceIdeal.RefValue

end
-- ==== Proof.lean ====
/-
  Three graph-convolution layers, a score per node, the mean over the nodes and two numbers drawn from it: the kernel
  program against its reference, on the extended reals.

  THE MATHEMATICS. Both programs carry a 100000×64 node array three times through one layer — every edge's source row
  summed into its destination row, the sums times a 64×64 weight matrix, a bias on every row, negative entries set
  to zero — and from the last array take a score per node (its row times a 64×1 weight plus a bias) and the mean of
  each column; the mean row times two more 64×1 weights, each plus a bias, gives the value that is returned and the
  score that is appended below the node scores (Proof/Model.lean: `scoresOf`, `valueOf`). The reference does the
  dense steps on whole arrays. The kernel does them in four regions that walk the rows in ten blocks of 10000: an
  entry of a layer or of the scores depends on one row of the input only, so block by block they are the same
  arrays; and the mean is kept as a running row of column sums, one block at a time, multiplied at the end by a
  constant the kernel's source writes as 1/100000 and the claim reads as that real, where the reference divides the
  column sums by 100000. The ten block sums are the column's sum (a regrouping of a finite sum in a commutative monoid)
  and division by a nonzero real is the product with its reciprocal at the infinities too, so the two programs agree
  at every entry with no appeal to finiteness: nothing is distributed over a sum or cancelled.

  THE PARTS. Proof/Ideal*.lean: each region of the idealized kernel's program — its blocks, its body's run, what it
  carries between blocks (the mean's region carries the running row) — and the whole program as a run that names
  every buffer's contents at every boundary (IdealRun.lean); Proof/Ideal*Value.lean: what each region leaves in its
  output arrays, as one function of its input arrays; IdealResult.lean: the two result buffers at the model;
  RefResult.lean: the reference's run at the model. Proof/Word*.lean: the same regions and run for the word-level
  kernel program, whose frame is all that is claimed of it. Here: the five claims.
-/
import proofs.«177146_j56882546868897_1_alg».proof.Defs
import proofs.«177146_j56882546868897_1_alg».proof.Proof.Gen.Kernel
import proofs.«177146_j56882546868897_1_alg».proof.Proof.Gen.KernelIdeal
import proofs.«177146_j56882546868897_1_alg».proof.Proof.Gen.ReferenceIdeal
import proofs.«177146_j56882546868897_1_alg».proof.Proof.Gen.Pre_finite_inputs
import proofs.«177146_j56882546868897_1_alg».proof.Proof.Gen.ReferenceIdeal.Run
import proofs.«177146_j56882546868897_1_alg».proof.Proof.WordRun
import proofs.«177146_j56882546868897_1_alg».proof.Proof.IdealRun
import proofs.«177146_j56882546868897_1_alg».proof.Proof.IdealResult
import proofs.«177146_j56882546868897_1_alg».proof.Proof.RefResult
import Idealize.ShloMosaic.Adequacy
import Idealize.ShloMosaic.Init
import Idealize.ShloMosaic.PureOps.IdealRules

set_option maxRecDepth 16384

noncomputable section

namespace Cert.Proof

open Idealize.ShloMosaic Idealize.ShloMosaic.TcCoe Idealize.SL.Sem

/-- The word-level kernel program runs to its end, faults nowhere, and leaves its fifteen argument arrays as launched. -/
theorem frame_kernel : @Cert.frame_Kernel Cert.Kernel.Gen.facts Cert.Pre_finite_inputs.Gen.facts :=
  fun m ρ _ => Cert.Kernel.Hand.frame m ρ

/-- So does the idealized kernel program. -/
theorem frame_kernelIdeal : @Cert.frame_KernelIdeal Cert.KernelIdeal.Gen.facts Cert.Pre_finite_inputs.Gen.facts :=
  fun m ρ _ => Cert.KernelIdeal.Hand.frame m ρ

/-- So does the reference: its run at the model, the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.RefValue.run_model m ρ)

/-- The one rewrite of the idealization: the constant 9.99999974·10⁻⁶ the kernel multiplies the column sums by is named,
    and the name denotes the real 1/100000 on the extended reals. -/
theorem preserves : Cert.preserves_Kernel_KernelIdeal :=
  IdealRules.named_const.statement Cert.KernelIdeal.κ "inv_100000" .f32 0x3727C5AC#32 ((1 / 100000 : ℝ) : EReal) rfl

/-- On the extended reals, from memories that agree on the arguments, both programs run to their ends with the same two
    results — the model's `scoresOf` and `valueOf` of the arguments — and their arguments unchanged. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Gcn.scoresOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => Cert.Gcn.valueOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c =>
      ⟨(h c _ (Cert.KernelIdeal.Hand.mem_uc Cert.KernelIdeal.main_v44 (by decide))).trans (Cert.KernelIdeal.HandValue.scores_end m ρ c),
       (h c _ (Cert.KernelIdeal.Hand.mem_uc Cert.KernelIdeal.main_v40 (by decide))).trans (Cert.KernelIdeal.HandValue.value_end m ρ c),
       Cert.KernelIdeal.Hand.arg_kept m ρ h c Cert.KernelIdeal.main_arg0 (by decide) (by decide) (by decide) (by decide) (by decide) (by decide),
       Cert.KernelIdeal.Hand.arg_kept m ρ h c Cert.KernelIdeal.main_arg1 (by decide) (by decide) (by decide) (by decide) (by decide) (by decide),
       Cert.KernelIdeal.Hand.arg_kept m ρ h c Cert.KernelIdeal.main_arg2 (by decide) (by decide) (by decide) (by decide) (by decide) (by decide),
       Cert.KernelIdeal.Hand.arg_kept m ρ h c Cert.KernelIdeal.main_arg3 (by decide) (by decide) (by decide) (by decide) (by decide) (by decide),
       Cert.KernelIdeal.Hand.arg_kept m ρ h c Cert.KernelIdeal.main_arg4 (by decide) (by decide) (by decide) (by decide) (by decide) (by decide),
       Cert.KernelIdeal.Hand.arg_kept m ρ h c Cert.KernelIdeal.main_arg5 (by decide) (by decide) (by decide) (by decide) (by decide) (by decide),
       Cert.KernelIdeal.Hand.arg_kept m ρ h c Cert.KernelIdeal.main_arg6 (by decide) (by decide) (by decide) (by decide) (by decide) (by decide),
       Cert.KernelIdeal.Hand.arg_kept m ρ h c Cert.KernelIdeal.main_arg7 (by decide) (by decide) (by decide) (by decide) (by decide) (by decide),
       Cert.KernelIdeal.Hand.arg_kept m ρ h c Cert.KernelIdeal.main_arg8 (by decide) (by decide) (by decide) (by decide) (by decide) (by decide),
       Cert.KernelIdeal.Hand.arg_kept m ρ h c Cert.KernelIdeal.main_arg9 (by decide) (by decide) (by decide) (by decide) (by decide) (by decide),
       Cert.KernelIdeal.Hand.arg_kept m ρ h c Cert.KernelIdeal.main_arg10 (by decide) (by decide) (by decide) (by decide) (by decide) (by decide),
       Cert.KernelIdeal.Hand.arg_kept m ρ h c Cert.KernelIdeal.main_arg11 (by decide) (by decide) (by decide) (by decide) (by decide) (by decide),
       Cert.KernelIdeal.Hand.arg_kept m ρ h c Cert.KernelIdeal.main_arg12 (by decide) (by decide) (by decide) (by decide) (by decide) (by decide),
       Cert.KernelIdeal.Hand.arg_kept m ρ h c Cert.KernelIdeal.main_arg13 (by decide) (by decide) (by decide) (by decide) (by decide) (by decide),
       Cert.KernelIdeal.Hand.arg_kept m ρ h c Cert.KernelIdeal.main_arg14 (by decide) (by decide) (by decide) (by decide) (by decide) (by decide)⟩)
      (Cert.KernelIdeal.Hand.run (F := Ideal) m ρ)
  · refine (θ_run Cert.ReferenceIdeal.defs _ _).mono (fun r h c => ?_) (Cert.ReferenceIdeal.RefValue.run_model m' ρ')
    obtain ⟨e0, e1, e2, e3, e4, e5, e6, e7, e8, e9, e10, e11, e12, e13, e14⟩ := hagree c
    refine ⟨(h c).1.trans ?_, (h c).2.1.trans ?_, (h c).2.2⟩
    · rw [e0, e1, e2, e3, e4, e5, e6, e7, e8, e9, e10, e11, e12]
    · rw [e0, e1, e2, e3, e4, e5, e6, e7, e8, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
